-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128 : Shape := ⟨1, ![128]⟩
abbrev S128x128 : Shape := ⟨2, ![128, 128]⟩
abbrev S1 : Shape := ⟨1, ![1]⟩
abbrev S128x2 : Shape := ⟨2, ![128, 2]⟩
abbrev S2 : Shape := ⟨1, ![2]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1 : S_.BroadcastsInDim S1 (![] : Fin 0 → Fin S1.rank)
  reducesTo_S1_S_d0 : S1.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg11 : FVec F S2 .f32) (main_v48 : IVec S_ 1) (main_v49 : FVec F S128x2 .f32) (main_v50 : FVec F S128x2 .f32) : IVec S_ 1 :=
  let main_v51 : IVec S128x2 1 := cmpf .olt main_v49 main_v50
  let main_c_19 : IVec S_ 1 := constantI S_ 1 1#1
  let main_v52 : IVec S_ 1 := (fun x v => Host.reduce IntOp.andi x v reducesTo_S128x2_S_d0_1 h_S_) main_v51 main_c_19
  let main_v53 : IVec S_ 1 := andi main_v48 main_v52
  let main_v54 : FVec F S2 .f32 := Host.absf main_arg11
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  main_v58

def fn_part2 {F : FTy → Type} [FloatOps F] (main_arg7 : FVec F S128x128 .f32) (main_arg8 : FVec F S128 .f32) (main_arg9 : FVec F S1 .f32) (main_arg10 : FVec F S128x2 .f32) (main_arg11 : FVec F S2 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S128x2 .f32 := Host.absf main_arg10
  let main_cst_18 : FVec F S_ .f32 := constant S_ .f32 0x7F800000#32
  let main_v50 : FVec F S128x2 .f32 := broadcastInDim S128x2 ![] bcast_S_S128x2 main_cst_18
  fn_part3 (F := F) main_arg11 main_v48 main_v49 main_v50

def fn_part1 {F : FTy → Type} [FloatOps F] (main_arg4 : FVec F S128x128 .f32) (main_arg5 : FVec F S128 .f32) (main_arg6 : FVec F S1 .f32) (main_arg7 : FVec F S128x128 .f32) (main_arg8 : FVec F S128 .f32) (main_arg9 : FVec F S1 .f32) (main_arg10 : FVec F S128x2 .f32) (main_arg11 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S10000x128 .f32) (main_arg1 : FVec F S10000x10000 .f32) (main_arg2 : FVec F S128 .f32) (main_arg3 : FVec F S128 .f32) (main_arg4 : FVec F S128x128 .f32) (main_arg5 : FVec F S128 .f32) (main_arg6 : FVec F S1 .f32) (main_arg7 : FVec F S128x128 .f32) (main_arg8 : FVec F S128 .f32) (main_arg9 : FVec F S1 .f32) (main_arg10 : FVec F S128x2 .f32) (main_arg11 : FVec F S2 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S10000x128 : Shape := ⟨2, ![10000, 128]⟩
abbrev S10000x10000 : Shape := ⟨2, ![10000, 10000]⟩
abbrev S128 : Shape := ⟨1, ![128]⟩
abbrev S128x128 : Shape := ⟨2, ![128, 128]⟩
abbrev S1 : Shape := ⟨1, ![1]⟩
abbrev S128x2 : Shape := ⟨2, ![128, 2]⟩
abbrev S2 : Shape := ⟨1, ![2]⟩
abbrev S1x128 : Shape := ⟨2, ![1, 128]⟩
abbrev S1x2 : Shape := ⟨2, ![1, 2]⟩
abbrev S1x1 : Shape := ⟨2, ![1, 1]⟩
abbrev S400x10000 : Shape := ⟨2, ![400, 10000]⟩
abbrev S400x128 : Shape := ⟨2, ![400, 128]⟩
abbrev S10000x2 : Shape := ⟨2, ![10000, 2]⟩
abbrev S400x2 : Shape := ⟨2, ![400, 2]⟩
abbrev S400 : Shape := ⟨1, ![400]⟩
abbrev S400x1 : Shape := ⟨2, ![400, 1]⟩

abbrev nBuf : Space → Nat
  | .hbm => 22
  | .vmem => 22
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1, .f32⟩
  | .hbm, ⟨7, _⟩ => ⟨S128x128, .f32⟩
  | .hbm, ⟨8, _⟩ => ⟨S128, .f32⟩
  | .hbm, ⟨9, _⟩ => ⟨S1, .f32⟩
  | .hbm, ⟨10, _⟩ => ⟨S128x2, .f32⟩
  | .hbm, ⟨11, _⟩ => ⟨S2, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S1x2, .f32⟩
  | .hbm, ⟨17, _⟩ => ⟨S1x1, .f32⟩
  | .hbm, ⟨18, _⟩ => ⟨S1x1, .f32⟩
  | .hbm, ⟨19, _⟩ => ⟨S10000x128, .f32⟩
  | .hbm, ⟨20, _⟩ => ⟨S10000x128, .f32⟩
  | .hbm, ⟨21, _⟩ => ⟨S10000x2, .f32⟩
  | .local _ .vmem, ⟨0, _⟩ => ⟨S10000x128, .f32⟩
  | .local _ .vmem, ⟨1, _⟩ => ⟨S1x128, .f32⟩
  | .local _ .vmem, ⟨2, _⟩ => ⟨S1x128, .f32⟩
  | .local _ .vmem, ⟨3, _⟩ => ⟨S10000x128, .f32⟩
  | .local _ .vmem, ⟨4, _⟩ => ⟨S400x10000, .f32⟩
  | .local _ .vmem, ⟨5, _⟩ => ⟨S400x10000, .f32⟩
  | .local _ .vmem, ⟨6, _⟩ => ⟨S10000x128, .f32⟩
  | .local _ .vmem, ⟨7, _⟩ => ⟨S400x128, .f32⟩
  | .local _ .vmem, ⟨8, _⟩ => ⟨S400x128, .f32⟩
  | .local _ .vmem, ⟨9, _⟩ => ⟨S400x10000, .f32⟩
  | .local _ .vmem, ⟨10, _⟩ => ⟨S400x10000, .f32⟩
  | .local _ .vmem, ⟨11, _⟩ => ⟨S10000x128, .f32⟩
  | .local _ .vmem, ⟨12, _⟩ => ⟨S128x128, .f32⟩
  | .local _ .vmem, ⟨13, _⟩ => ⟨S1x128, .f32⟩
  | .local _ .vmem, ⟨14, _⟩ => ⟨S1x1, .f32⟩
  | .local _ .vmem, ⟨15, _⟩ => ⟨S128x128, .f32⟩
  | .local _ .vmem, ⟨16, _⟩ => ⟨S1x128, .f32⟩
  | .local _ .vmem, ⟨17, _⟩ => ⟨S1x1, .f32⟩
  | .local _ .vmem, ⟨18, _⟩ => ⟨S128x2, .f32⟩
  | .local _ .vmem, ⟨19, _⟩ => ⟨S1x2, .f32⟩
  | .local _ .vmem, ⟨20, _⟩ => ⟨S400x2, .f32⟩
  | .local _ .vmem, ⟨21, _⟩ => ⟨S400x2, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg6_0 : Ref sig .tc := ⟨.vmem, 16, rfl⟩
abbrev cc2_stg7_0 : Ref sig .tc := ⟨.vmem, 17, rfl⟩
abbrev cc2_stg8_0 : Ref sig .tc := ⟨.vmem, 18, rfl⟩
abbrev cc2_stg9_0 : Ref sig .tc := ⟨.vmem, 19, rfl⟩
abbrev cc2_stg10_0 : Ref sig .tc := ⟨.vmem, 20, rfl⟩
abbrev cc2_stg10_1 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem6_0 : DmaSem sig := 16
abbrev cc2_sem7_0 : DmaSem sig := 17
abbrev cc2_sem8_0 : DmaSem sig := 18
abbrev cc2_sem9_0 : DmaSem sig := 19
abbrev cc2_sem10_0 : DmaSem sig := 20
abbrev cc2_sem10_1 : DmaSem sig := 21

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x2 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x2 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S400x2 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  shapeCasts_S128_S1x128 : S128.ShapeCasts S1x128
  shapeCasts_S2_S1x2 : S2.ShapeCasts S1x2
  shapeCasts_S1_S1x1 : S1.ShapeCasts S1x1
  inb_S10000x128_S10000x128_0_0 : ∀ a, (![0, 0] : Fin 2 → Nat) a + S10000x128.size a ≤ S10000x128.size a
  h_S10000x128 : 0 < S10000x128.numel
  reduces_S10000x128_S128 : S10000x128.Reduces [0] S128
  broadcasts_S1x128_S10000x128 : S1x128.Broadcasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S400x10000_S400x10000_0_0 : ∀ a, (![0, 0] : Fin 2 → Nat) a + S400x10000.size a ≤ S400x10000.size a
  h_S400x10000 : 0 < S400x10000.numel
  shapeCasts_S10000x128_S10000x128 : S10000x128.ShapeCasts S10000x128
  inb_S400x128_S400x128_0_0 : ∀ a, (![0, 0] : Fin 2 → Nat) a + S400x128.size a ≤ S400x128.size a
  h_S400x128 : 0 < S400x128.numel
  inb_S128x128_S128x128_0_0 : ∀ a, (![0, 0] : Fin 2 → Nat) a + S128x128.size a ≤ S128x128.size a
  h_S128x128 : 0 < S128x128.numel
  broadcasts_S1x128_S400x128 : S1x128.Broadcasts S400x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S400x2 : S1x2.Broadcasts S400x2
  reduces_S400x2_S400 : S400x2.Reduces [1] S400
  shapeCasts_S400_S400x1 : S400.ShapeCasts S400x1
  broadcasts_S400x1_S400x2 : S400x1.Broadcasts S400x2
  inb_S400x2_S400x2_0_0 : ∀ a, (![0, 0] : Fin 2 → Nat) a + S400x2.size a ≤ S400x2.size a
  h_S400x2 : 0 < S400x2.numel
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S400x128_S128x2_S400x2_1_0_0_1_n_n_wf : DotDims.WF S400x128 S128x2 S400x2 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .f32 = 32 ∨ (Rect.block (s := S10000x128) S400x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .f32 = 32 ∨ (Rect.block (s := S10000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x1.size a ≤ S1x1.size a
  hwx2_7 : ∀ i : grid2.Coords, EltTy.bits .f32 = 32 ∨ (Rect.block (s := S1x1) S1x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x2.size a ≤ S128x2.size a
  hwx2_8 : ∀ i : grid2.Coords, EltTy.bits .f32 = 32 ∨ (Rect.block (s := S128x2) S128x2.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x2.size a ≤ S1x2.size a
  hwx2_9 : ∀ i : grid2.Coords, EltTy.bits .f32 = 32 ∨ (Rect.block (s := S1x2) S1x2.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S400x2.size a ≤ S10000x2.size a
  hwx2_10 : ∀ i : grid2.Coords, EltTy.bits .f32 = 32 ∨ (Rect.block (s := S10000x2) S400x2.size (cc2_transform_10 i) (hinb2_10 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x128_S128x2_S400x2_1_0_0_1_n_n : DotDims S400x128 S128x2 S400x2 where
  lhsContracting := [1]
  rhsContracting := [0]
  lhsNonContracting := [0]
  rhsNonContracting := [1]
  lhsBatch := []
  rhsBatch := []
  wf := dot_S400x128_S128x2_S400x2_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v0) false false (stage0_1 0) (sem0_1 0) (Memref.isWhole_whole _) (hstage0_1 0)

abbrev win0_2 : Pipeline.Window sig grid0 :=
  Pipeline.Window.whole (Memref.whole main_v1) false false (stage0_2 0) (sem0_2 0) (Memref.isWhole_whole _) (hstage0_2 0)

abbrev win0_3 : Pipeline.Window sig grid0 :=
  Pipeline.Window.whole (Memref.whole main_v7) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S400x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v5) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v3) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v6) S1x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg10) S128x2.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v4) S1x2.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v9) S400x2.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128 : Shape := ⟨1, ![128]⟩
abbrev S128x128 : Shape := ⟨2, ![128, 128]⟩
abbrev S1 : Shape := ⟨1, ![1]⟩
abbrev S128x2 : Shape := ⟨2, ![128, 2]⟩
abbrev S2 : Shape := ⟨1, ![2]⟩
abbrev S_ : Shape := ⟨0, ![]⟩
abbrev S1x128 : Shape := ⟨2, ![1, 128]⟩
abbrev S1x1 : Shape := ⟨2, ![1, 1]⟩
abbrev S10000x2 : Shape := ⟨2, ![10000, 2]⟩
abbrev S1x2 : Shape := ⟨2, ![1, 2]⟩
abbrev S10000 : Shape := ⟨1, ![10000]⟩
abbrev S10000x1 : Shape := ⟨2, ![10000, 1]⟩

abbrev nBuf : Space → Nat
  | .hbm => 113
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1, .f32⟩
  | .hbm, ⟨7, _⟩ => ⟨S128x128, .f32⟩
  | .hbm, ⟨8, _⟩ => ⟨S128, .f32⟩
  | .hbm, ⟨9, _⟩ => ⟨S1, .f32⟩
  | .hbm, ⟨10, _⟩ => ⟨S128x2, .f32⟩
  | .hbm, ⟨11, _⟩ => ⟨S2, .f32⟩
  | .hbm, ⟨12, _⟩ => ⟨S_, .f32⟩
  | .hbm, ⟨13, _⟩ => ⟨S128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S_, .f32⟩
  | .hbm, ⟨22, _⟩ => ⟨S1x128, .f32⟩
  | .hbm, ⟨23, _⟩ => ⟨S1x128, .f32⟩
  | .hbm, ⟨24, _⟩ => ⟨S10000x128, .f32⟩
  | .hbm, ⟨25, _⟩ => ⟨S10000x128, .f32⟩
  | .hbm, ⟨26, _⟩ => ⟨S10000x128, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S128, .f32⟩
  | .hbm, ⟨32, _⟩ => ⟨S128, .f32⟩
  | .hbm, ⟨33, _⟩ => ⟨S128, .f32⟩
  | .hbm, ⟨34, _⟩ => ⟨S_, .f32⟩
  | .hbm, ⟨35, _⟩ => ⟨S_, .i1⟩
  | .hbm, ⟨36, _⟩ => ⟨S_, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S1x128, .f32⟩
  | .hbm, ⟨41, _⟩ => ⟨S10000x128, .f32⟩
  | .hbm, ⟨42, _⟩ => ⟨S10000x128, .f32⟩
  | .hbm, ⟨43, _⟩ => ⟨S_, .f32⟩
  | .hbm, ⟨44, _⟩ => ⟨S128, .f32⟩
  | .hbm, ⟨45, _⟩ => ⟨S128, .f32⟩
  | .hbm, ⟨46, _⟩ => ⟨S128, .f32⟩
  | .hbm, ⟨47, _⟩ => ⟨S1x128, .f32⟩
  | .hbm, ⟨48, _⟩ => ⟨S10000x128, .f32⟩
  | .hbm, ⟨49, _⟩ => ⟨S10000x128, .f32⟩
  | .hbm, ⟨50, _⟩ => ⟨S1x128, .f32⟩
  | .hbm, ⟨51, _⟩ => ⟨S10000x128, .f32⟩
  | .hbm, ⟨52, _⟩ => ⟨S10000x128, .f32⟩
  | .hbm, ⟨53, _⟩ => ⟨S1x128, .f32⟩
  | .hbm, ⟨54, _⟩ => ⟨S10000x128, .f32⟩
  | .hbm, ⟨55, _⟩ => ⟨S10000x128, .f32⟩
  | .hbm, ⟨56, _⟩ => ⟨S10000x128, .f32⟩
  | .hbm, ⟨57, _⟩ => ⟨S_, .f32⟩
  | .hbm, ⟨58, _⟩ => ⟨S10000x128, .f32⟩
  | .hbm, ⟨59, _⟩ => ⟨S10000x128, .f32⟩
  | .hbm, ⟨60, _⟩ => ⟨S_, .f32⟩
  | .hbm, ⟨61, _⟩ => ⟨S10000x128, .f32⟩
  | .hbm, ⟨62, _⟩ => ⟨S10000x128, .f32⟩
  | .hbm, ⟨63, _⟩ => ⟨S10000x128, .f32⟩
  | .hbm, ⟨64, _⟩ => ⟨S10000x128, .f32⟩
  | .hbm, ⟨65, _⟩ => ⟨S_, .f32⟩
  | .hbm, ⟨66, _⟩ => ⟨S10000x128, .f32⟩
  | .hbm, ⟨67, _⟩ => ⟨S10000x128, .f32⟩
  | .hbm, ⟨68, _⟩ => ⟨S_, .f32⟩
  | .hbm, ⟨69, _⟩ => ⟨S10000x128, .f32⟩
  | .hbm, ⟨70, _⟩ => ⟨S10000x128, .f32⟩
  | .hbm, ⟨71, _⟩ => ⟨S10000x128, .f32⟩
  | .hbm, ⟨72, _⟩ => ⟨S10000x128, .f32⟩
  | .hbm, ⟨73, _⟩ => ⟨S1x128, .f32⟩
  | .hbm, ⟨74, _⟩ => ⟨S10000x128, .f32⟩
  | .hbm, ⟨75, _⟩ => ⟨S10000x128, .f32⟩
  | .hbm, ⟨76, _⟩ => ⟨S_, .f32⟩
  | .hbm, ⟨77, _⟩ => ⟨S10000x128, .f32⟩
  | .hbm, ⟨78, _⟩ => ⟨S10000x128, .i1⟩
  | .hbm, ⟨79, _⟩ => ⟨S1x1, .f32⟩
  | .hbm, ⟨80, _⟩ => ⟨S10000x128, .f32⟩
  | .hbm, ⟨81, _⟩ => ⟨S10000x128, .f32⟩
  | .hbm, ⟨82, _⟩ => ⟨S10000x128, .f32⟩
  | .hbm, ⟨83, _⟩ => ⟨S10000x128, .f32⟩
  | .hbm, ⟨84, _⟩ => ⟨S1x128, .f32⟩
  | .hbm, ⟨85, _⟩ => ⟨S10000x128, .f32⟩
  | .hbm, ⟨86, _⟩ => ⟨S10000x128, .f32⟩
  | .hbm, ⟨87, _⟩ => ⟨S_, .f32⟩
  | .hbm, ⟨88, _⟩ => ⟨S10000x128, .f32⟩
  | .hbm, ⟨89, _⟩ => ⟨S10000x128, .i1⟩
  | .hbm, ⟨90, _⟩ => ⟨S1x1, .f32⟩
  | .hbm, ⟨91, _⟩ => ⟨S10000x128, .f32⟩
  | .hbm, ⟨92, _⟩ => ⟨S10000x128, .f32⟩
  | .hbm, ⟨93, _⟩ => ⟨S10000x128, .f32⟩
  | .hbm, ⟨94, _⟩ => ⟨S10000x2, .f32⟩
  | .hbm, ⟨95, _⟩ => ⟨S1x2, .f32⟩
  | .hbm, ⟨96, _⟩ => ⟨S10000x2, .f32⟩
  | .hbm, ⟨97, _⟩ => ⟨S10000x2, .f32⟩
  | .hbm, ⟨98, _⟩ => ⟨S_, .f32⟩
  | .hbm, ⟨99, _⟩ => ⟨S10000, .f32⟩
  | .hbm, ⟨100, _⟩ => ⟨S_, .f32⟩
  | .hbm, ⟨101, _⟩ => ⟨S10000, .f32⟩
  | .hbm, ⟨102, _⟩ => ⟨S10000, .f32⟩
  | .hbm, ⟨103, _⟩ => ⟨S10000x1, .f32⟩
  | .hbm, ⟨104, _⟩ => ⟨S10000x2, .f32⟩
  | .hbm, ⟨105, _⟩ => ⟨S10000x2, .f32⟩
  | .hbm, ⟨106, _⟩ => ⟨S10000x2, .f32⟩
  | .hbm, ⟨107, _⟩ => ⟨S_, .f32⟩
  | .hbm, ⟨108, _⟩ => ⟨S10000, .f32⟩
  | .hbm, ⟨109, _⟩ => ⟨S10000x1, .f32⟩
  | .hbm, ⟨110, _⟩ => ⟨S10000x1, .f32⟩
  | .hbm, ⟨111, _⟩ => ⟨S10000x2, .f32⟩
  | .hbm, ⟨112, _⟩ => ⟨S10000x2, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_c : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_cst_2 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_cst_3 : Ref sig .tc := ⟨.hbm, 34, rfl⟩
abbrev main_call0_v12 : Ref sig .tc := ⟨.hbm, 35, rfl⟩
abbrev main_call0_cst_4 : Ref sig .tc := ⟨.hbm, 36, rfl⟩
abbrev main_call0_call0_v0 : Ref sig .tc := ⟨.hbm, 37, rfl⟩
abbrev main_call0_call0_v1 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_cst_1 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_cst_2 : Ref sig .tc := ⟨.hbm, 57, rfl⟩
abbrev main_v20 : Ref sig .tc := ⟨.hbm, 58, rfl⟩
abbrev main_v21 : Ref sig .tc := ⟨.hbm, 59, rfl⟩
abbrev main_cst_3 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_cst_4 : Ref sig .tc := ⟨.hbm, 65, rfl⟩
abbrev main_v26 : Ref sig .tc := ⟨.hbm, 66, rfl⟩
abbrev main_v27 : Ref sig .tc := ⟨.hbm, 67, rfl⟩
abbrev main_cst_5 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_6 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_cst_7 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_call3_cst : Ref sig .tc := ⟨.hbm, 98, rfl⟩
abbrev main_call3_v0 : Ref sig .tc := ⟨.hbm, 99, rfl⟩
abbrev main_call3_cst_0 : Ref sig .tc := ⟨.hbm, 100, rfl⟩
abbrev main_call3_v1 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_call3_v5 : Ref sig .tc := ⟨.hbm, 105, rfl⟩
abbrev main_call3_v6 : Ref sig .tc := ⟨.hbm, 106, rfl⟩
abbrev main_call3_cst_1 : Ref sig .tc := ⟨.hbm, 107, rfl⟩
abbrev main_call3_v7 : Ref sig .tc := ⟨.hbm, 108, rfl⟩
abbrev main_call3_v8 : Ref sig .tc := ⟨.hbm, 109, rfl⟩
abbrev main_call3_v9 : Ref sig .tc := ⟨.hbm, 110, rfl⟩
abbrev main_call3_v10 : Ref sig .tc := ⟨.hbm, 111, rfl⟩
abbrev main_v55 : Ref sig .tc := ⟨.hbm, 112, rfl⟩

abbrev nD : Nat := 1
abbrev τ : Topo := Topo.v7x

variable {F : FTy → Type} [FloatOps F]

class Facts₀ : Prop where
  reducesTo_S10000x128_S128_d0 : S10000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S1_S1x1_1 : S1.BroadcastsInDim S1x1 (![1] : Fin 1 → Fin S1x1.rank)
  bcast_S1x1_S10000x128_0_1 : S1x1.BroadcastsInDim S10000x128 (![0, 1] : Fin 2 → Fin S10000x128.rank)
  bcast_S2_S1x2_1 : S2.BroadcastsInDim S1x2 (![1] : Fin 1 → Fin S1x2.rank)
  bcast_S1x2_S10000x2_0_1 : S1x2.BroadcastsInDim S10000x2 (![0, 1] : Fin 2 → Fin S10000x2.rank)
  reducesTo_S10000x2_S10000_d1 : S10000x2.ReducesTo [1] S10000
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x2_0_1 : S10000x1.BroadcastsInDim S10000x2 (![0, 1] : Fin 2 → Fin S10000x2.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []
  dot_S10000x128_S128x2_S10000x2_1_0_0_1_n_n_wf : DotDims.WF S10000x128 S128x2 S10000x2 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x2_S10000x2_1_0_0_1_n_n : DotDims S10000x128 S128x2 S10000x2 where
  lhsContracting := [1]
  rhsContracting := [0]
  lhsNonContracting := [0]
  rhsNonContracting := [1]
  lhsBatch := []
  rhsBatch := []
  wf := dot_S10000x128_S128x2_S10000x2_1_0_0_1_n_n_wf

class Facts : Prop extends Facts₀ where

variable [Facts]
-- ==== Proof.KRun.lean ====
/-
  The idealized kernel's run with its result buffer named.

  Every weakly fair execution of the three launches terminates without a fault, leaves the twelve argument arrays as
  launched, and leaves in the result buffer the contents the last launch's write-backs fold into it: the fold of the
  buffer contents through the host stretch and the three regions, read at the result's reference.
-/
import proofs.«109596_g1228360646957_cont_main3_661_2_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_named : θ_run defs (onTc (τ := τ) (main (F := F))) ⟨m, fun _ => 0, ρ⟩ (fun r => ∀ c : Dev nD,
      r.2.mem ((c.tc : Thread nD τ).loc main_v9) = W4 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v9 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.Hand

end
-- ==== Proof.Spec.lean ====
/-
  The mathematics of the graph network's forward pass, as functions of coordinates on the extended reals.

  A batch normalisation down the 10000 rows of a [10000, 128] feature matrix (per column: the mean, the biased
  variance, then centre, scale by the inverse root of variance + ε, times γ, plus β), two propagations by a dense
  [10000, 10000] matrix (a row of the matrix against a column of the features), and, row by row, a three-layer
  perceptron with a leaky slope on the negative side followed by a log-softmax over the two output lanes.

  The normalisation is written in two spellings — times the reciprocal root, and divided by the root — which agree
  on every extended real because variance + ε is positive whatever the data: a square is nonnegative on the extended
  reals, so is a sum of squares, and so is its quotient by 10000.
-/
import Idealize.ShloMosaic.PureOps.Ideal
import Idealize.ShloMosaic.PureOps.Ideal.Laws
import Idealize.ShloMosaic.Lib.ValueIdx

open scoped BigOperators

noncomputable section

namespace Cert.Spec

open Idealize.ShloMosaic

/-- The float literals of the two programs, as the extended reals their words denote. -/
abbrev lit0 : EReal := Ideal.ofBits .f32 0x00000000#32
abbrev lit1 : EReal := Ideal.ofBits .f32 0x3F800000#32
abbrev litN : EReal := Ideal.ofBits .f32 0x461C4000#32
abbrev litEps : EReal := Ideal.ofBits .f32 0x3727C5AC#32
abbrev litBot : EReal := Ideal.ofBits .f32 0xFF800000#32

/-- The mean of column `c`: the column's sum over 10000. -/
def colMean (x : Fin 10000 → Fin 128 → EReal) (c : Fin 128) : EReal :=
  Ideal.div (∑ r : Fin 10000, x r c) litN

/-- The biased variance of column `c`: the sum of the squared deviations over 10000. -/
def colVar (x : Fin 10000 → Fin 128 → EReal) (c : Fin 128) : EReal :=
  Ideal.div (∑ r : Fin 10000, (x r c - colMean x c) * (x r c - colMean x c)) litN

/-- Batch normalisation, the deviation TIMES the reciprocal root of variance + ε. -/
def bnMul (x : Fin 10000 → Fin 128 → EReal) (g b : Fin 128 → EReal) (r : Fin 10000) (c : Fin 128) : EReal :=
  (x r c - colMean x c) * Ideal.rsqrt (colVar x c + litEps) * g c + b c

/-- Batch normalisation, the deviation DIVIDED BY the root of variance + ε. -/
def bnDiv (x : Fin 10000 → Fin 128 → EReal) (g b : Fin 128 → EReal) (r : Fin 10000) (c : Fin 128) : EReal :=
  Ideal.div (x r c - colMean x c) (Ideal.sqrt (colVar x c + litEps)) * g c + b c

/-- One propagation: row `r` of the matrix against column `c` of the features. -/
def prop (A : Fin 10000 → Fin 10000 → EReal) (x : Fin 10000 → Fin 128 → EReal) (r : Fin 10000) (c : Fin 128) : EReal :=
  ∑ k : Fin 10000, A r k * x k c

/-- A dense layer on one row: the row against column `j` of the weights, plus the bias. -/
def dense {K N : ℕ} (v : Fin K → EReal) (W : Fin K → Fin N → EReal) (b : Fin N → EReal) (j : Fin N) : EReal :=
  (∑ k : Fin K, v k * W k j) + b j

/-- The leaky activation: `h` where `h ≥ 0`, else `a · h`. -/
def prelu (a h : EReal) : EReal := Scalar.select (Ideal.cmp .oge h lit0) h (a * h)

/-- The maximum of the two lanes, folded from the bottom element's word. -/
def rowMax (h : Fin 2 → EReal) : EReal := (Finset.univ : Finset (Fin 2)).fold max litBot h

/-- Log-softmax over two lanes: shift by the maximum, subtract the log of the sum of exponentials. -/
def logSoftmax (h : Fin 2 → EReal) (c : Fin 2) : EReal :=
  (h c - rowMax h) - Ideal.log (∑ c' : Fin 2, Ideal.exp (h c' - rowMax h))

/-- The head on one row of features: three dense layers, leaky activations after the first two, log-softmax. -/
def head (v : Fin 128 → EReal) (W1 : Fin 128 → Fin 128 → EReal) (b1 : Fin 128 → EReal) (a1 : EReal)
    (W2 : Fin 128 → Fin 128 → EReal) (b2 : Fin 128 → EReal) (a2 : EReal)
    (W3 : Fin 128 → Fin 2 → EReal) (b3 : Fin 2 → EReal) (c : Fin 2) : EReal :=
  logSoftmax (dense (fun j => prelu a2 (dense (fun i => prelu a1 (dense v W1 b1 i)) W2 b2 j)) W3 b3) c

/-- The whole forward pass at row `r`, lane `c`, with a given normalisation `bn`. -/
def forward (bn : Fin 10000 → Fin 128 → EReal) (A : Fin 10000 → Fin 10000 → EReal)
    (W1 : Fin 128 → Fin 128 → EReal) (b1 : Fin 128 → EReal) (a1 : EReal)
    (W2 : Fin 128 → Fin 128 → EReal) (b2 : Fin 128 → EReal) (a2 : EReal)
    (W3 : Fin 128 → Fin 2 → EReal) (b3 : Fin 2 → EReal) (r : Fin 10000) (c : Fin 2) : EReal :=
  head (fun k => prop A (prop A bn) r k) W1 b1 a1 W2 b2 a2 W3 b3 c

end Cert.Spec

end
-- ==== Proof.LibColumnSum.lean ====
/-
  The sum down the columns of a matrix, read at a column.

  Summing an [a, b] matrix over its FIRST axis leaves a vector of length b whose entry j is the sum of the a entries of
  column j. The general statement names the summed entries through the index "entry j with coordinate k inserted on the
  summed axis"; for a matrix and axis 0 that index is (k, j). (The companion for the second axis is the row sum.)
-/
import Idealize.ShloMosaic.PureOps.Ideal.Laws
import Idealize.ShloMosaic.Lib.ValueIdx

open scoped BigOperators

namespace Idealize.ShloMosaic.ValueIdx

open Idealize.ShloMosaic

/-- Inserting coordinate `k` on axis 0 over the column index `j` gives the matrix index `(k, j)`. -/
theorem reduces_cols_lift {a b : ℕ} (h : (⟨2, ![a, b]⟩ : Shape).Reduces [0] ⟨1, ![b]⟩) (j : Fin b) (k : Fin a) :
    h.lift (ix1 j) k = ix2 k j := by
  funext ax; apply Fin.ext
  show h.liftVal (ix1 j) k.val ax = (ix2 k j ax).val
  unfold Shape.Reduces.liftVal
  match ax with
  | ⟨0, _⟩ => rfl
  | ⟨1, _⟩ => rfl

/-- The sum of an `[a, b]` matrix over axis 0, at the exact extended reals, read at column `j`: the sum of that column. -/
theorem multiReduction_add_cols_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  exact Finset.sum_congr rfl fun k _ => congrArg src (reduces_cols_lift h j k)

end Idealize.ShloMosaic.ValueIdx
-- ==== Proof.PayBn.lean ====
/-
  The normalisation kernel's stored value at an entry: centre by the column mean, scale by the reciprocal root of the
  column's biased variance plus ε, times the γ row, plus the β row.
-/
import proofs.«109596_g1228360646957_cont_main3_661_2_alg».proof.Proof.Gen.KernelIdeal.Skeleton
import proofs.«109596_g1228360646957_cont_main3_661_2_alg».proof.Proof.Spec
import proofs.«109596_g1228360646957_cont_main3_661_2_alg».proof.Proof.LibColumnSum
import Idealize.ShloMosaic.PureOps.Ideal.Laws
import Idealize.ShloMosaic.Lib.ValueIdx
import Idealize.ShloMosaic.Lib.ValueLayout
import Idealize.ShloMosaic.Lib.Pipeline.Value

open scoped BigOperators

noncomputable section

namespace Cert.KernelIdeal.Pay

open Idealize.ShloMosaic Idealize.ShloMosaic.ValueIdx
open Cert.KernelIdeal Cert.KernelIdeal.Gen

/-- A column's sum over the 10000 rows, as a one-row matrix, divided by the row of 10000s, read at `(u, c)`:
    the sum of column `c` over 10000. -/
theorem colMeanRow_apply (hr : (⟨2, ![10000, 128]⟩ : Shape).Reduces [0] ⟨1, ![128]⟩) (hφ : FKind.Formats .f32)
    (hacc : (0x00000000#32 : BitVec FTy.f32.bits) = FKind.add.neutral .f32 hφ)
    (hc : (⟨1, ![128]⟩ : Shape).ShapeCasts ⟨2, ![1, 128]⟩)
    (v : FVec Ideal ⟨2, ![10000, 128]⟩ .f32) (u : Fin 1) (c : Fin 128) :
    divf (shapeCast ⟨2, ![1, 128]⟩ (multiReduction .add [0] ⟨1, ![128]⟩ v 0x00000000#32 hr hφ hacc) hc)
        (broadcast ⟨2, ![1, 128]⟩ (Scalar.ofBits (F := Ideal) .f32 0x461C4000#32)) (ix2 u c)
      = Ideal.div (∑ k : Fin 10000, (v (ix2 k c) : EReal)) Spec.litN := by
  refine (divf_apply _ _ _).trans ?_
  rw [shapeCast_a_1a_apply]
  exact congrArg (fun t : EReal => Ideal.div t Spec.litN) (multiReduction_add_cols_apply v _ hr hφ hacc c)

/-- An entry minus its column's mean (the mean row repeated down the rows), read at `(r, c)`. -/
theorem centred_apply (hr : (⟨2, ![10000, 128]⟩ : Shape).Reduces [0] ⟨1, ![128]⟩) (hφ : FKind.Formats .f32)
    (hacc : (0x00000000#32 : BitVec FTy.f32.bits) = FKind.add.neutral .f32 hφ)
    (hc : (⟨1, ![128]⟩ : Shape).ShapeCasts ⟨2, ![1, 128]⟩)
    (hb : (⟨2, ![1, 128]⟩ : Shape).Broadcasts ⟨2, ![10000, 128]⟩)
    (v : FVec Ideal ⟨2, ![10000, 128]⟩ .f32) (r : Fin 10000) (c : Fin 128) :
    subf v (broadcastTo ⟨2, ![10000, 128]⟩
        (divf (shapeCast ⟨2, ![1, 128]⟩ (multiReduction .add [0] ⟨1, ![128]⟩ v 0x00000000#32 hr hφ hacc) hc)
          (broadcast ⟨2, ![1, 128]⟩ (Scalar.ofBits (F := Ideal) .f32 0x461C4000#32))) hb) (ix2 r c)
      = (v (ix2 r c) : EReal) - Spec.colMean (fun r c => (v (ix2 r c) : EReal)) c := by
  refine (subf_apply _ _ _).trans ?_
  rw [broadcastTo_1b_ab_apply, colMeanRow_apply]
  rfl

/-- The column sums of the squared deviations, as a one-row matrix, over the row of 10000s, read at `(u, c)`:
    the biased variance of column `c`. -/
theorem varRow_apply (hr : (⟨2, ![10000, 128]⟩ : Shape).Reduces [0] ⟨1, ![128]⟩) (hφ : FKind.Formats .f32)
    (hacc : (0x00000000#32 : BitVec FTy.f32.bits) = FKind.add.neutral .f32 hφ)
    (hc : (⟨1, ![128]⟩ : Shape).ShapeCasts ⟨2, ![1, 128]⟩)
    (hb : (⟨2, ![1, 128]⟩ : Shape).Broadcasts ⟨2, ![10000, 128]⟩)
    (v : FVec Ideal ⟨2, ![10000, 128]⟩ .f32) (u : Fin 1) (c : Fin 128) :
    divf (shapeCast ⟨2, ![1, 128]⟩ (multiReduction .add [0] ⟨1, ![128]⟩
          (mulf
            (subf v (broadcastTo ⟨2, ![10000, 128]⟩
              (divf (shapeCast ⟨2, ![1, 128]⟩ (multiReduction .add [0] ⟨1, ![128]⟩ v 0x00000000#32 hr hφ hacc) hc)
                (broadcast ⟨2, ![1, 128]⟩ (Scalar.ofBits (F := Ideal) .f32 0x461C4000#32))) hb))
            (subf v (broadcastTo ⟨2, ![10000, 128]⟩
              (divf (shapeCast ⟨2, ![1, 128]⟩ (multiReduction .add [0] ⟨1, ![128]⟩ v 0x00000000#32 hr hφ hacc) hc)
                (broadcast ⟨2, ![1, 128]⟩ (Scalar.ofBits (F := Ideal) .f32 0x461C4000#32))) hb)))
          0x00000000#32 hr hφ hacc) hc)
        (broadcast ⟨2, ![1, 128]⟩ (Scalar.ofBits (F := Ideal) .f32 0x461C4000#32)) (ix2 u c)
      = Spec.colVar (fun r c => (v (ix2 r c) : EReal)) c := by
  refine (colMeanRow_apply hr hφ hacc hc _ u c).trans ?_
  unfold Spec.colVar
  refine congrArg (fun t : EReal => Ideal.div t Spec.litN) (Finset.sum_congr rfl fun k _ => ?_)
  refine (mulf_apply _ _ _).trans ?_
  rw [centred_apply]

/-- The normalised feature at row `r`, column `c`. -/
theorem bn_pay (x0 : Vec Ideal S10000x128 .f32) (x1 x2 : Vec Ideal S1x128 .f32) (r : Fin 10000) (c : Fin 128) :
    k0_pay1 (F := Ideal) x0 x1 x2 (ix2 r c)
      = Spec.bnMul (fun r c => x0 (ix2 r c)) (fun c => x1 (ix2 (0 : Fin 1) c)) (fun c => x2 (ix2 (0 : Fin 1) c)) r c := by
  unfold k0_pay1
  refine (addf_apply _ _ _).trans ?_
  unfold Spec.bnMul
  refine congrArg₂ (fun s t : EReal => s + t) ?_ ?_
  · refine (mulf_apply _ _ _).trans ?_
    refine congrArg₂ (fun s t : EReal => s * t) ?_ ?_
    · refine (mulf_apply _ _ _).trans ?_
      refine congrArg₂ (fun s t : EReal => s * t) ?_ ?_
      · exact centred_apply _ _ _ _ _ x0 r c
      · rw [broadcastTo_1b_ab_apply]
        refine congrArg Ideal.rsqrt ?_
        refine (addf_apply _ _ _).trans ?_
        refine congrArg (fun t : EReal => t + Spec.litEps) ?_
        exact varRow_apply _ _ _ _ _ x0 (0 : Fin 1) c
    · rw [broadcastTo_1b_ab_apply, shapeCast_self]
  · rw [broadcastTo_1b_ab_apply, shapeCast_self]

end Cert.KernelIdeal.Pay

end
-- ==== Proof.KVal0.lean ====
/-
  What the normalisation launch leaves in its output array.

  The launch has one grid point; every window is its whole array. The body reads the features, the γ row and the β
  row, and stores the normalised features, which are written back whole: the array ends holding, at (r, c), the
  deviation of entry (r, c) from its column mean, times the reciprocal root of the column's variance + ε, times γ(c),
  plus β(c).
-/
import proofs.«109596_g1228360646957_cont_main3_661_2_alg».proof.Proof.Gen.KernelIdeal.Frame
import proofs.«109596_g1228360646957_cont_main3_661_2_alg».proof.Proof.PayBn
import proofs.«109596_g1228360646957_cont_main3_661_2_alg».proof.Proof.Spec
import Idealize.ShloMosaic.Lib.Pipeline.Value
import Idealize.ShloMosaic.Lib.ValueIdx

set_option maxRecDepth 16384

open scoped BigOperators

noncomputable section

namespace Cert.KernelIdeal.Val0

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The normalised array: at (r, c), batch normalisation of the features with the γ and β rows. -/
def G0 (X : S10000x128.Idx → Elt Ideal .f32) (Gm Bt : S1x128.Idx → Elt Ideal .f32) : S10000x128.Idx → Elt Ideal .f32 :=
  fun i => Spec.bnMul (fun r c => (X (ix2 r c) : EReal)) (fun c => (Gm (ix2 (0 : Fin 1) c) : EReal)) (fun c => (Bt (ix2 (0 : Fin 1) c) : EReal)) (i 0) (i 1)

/-- The one point's block indices are all zero. -/
theorem idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The stored value at entry j is the normalised array at the same entry. -/
theorem point0 (X : S10000x128.Idx → Elt Ideal .f32) (Gm Bt : S1x128.Idx → Elt Ideal .f32)
    (x0 : Vec Ideal S10000x128 .f32) (x1 x2 : Vec Ideal S1x128 .f32)
    (j : S10000x128.Idx) (i : S10000x128.Idx) (hi0 : (i 0).val = (j 0).val) (hi1 : (i 1).val = (j 1).val)
    (h0 : x0 = X) (h1 : x1 = Gm) (h2 : x2 = Bt) :
    k0_pay1 (F := Ideal) x0 x1 x2 j = G0 X Gm Bt i := by
  obtain ⟨p, q, rfl⟩ : ∃ (p : Fin 10000) (q : Fin 128), j = ix2 p q := ⟨j 0, j 1, eq_ix2 j⟩
  subst h0 h1 h2
  refine (Pay.bn_pay x0 x1 x2 p q).trans ?_
  unfold G0
  have hp : p = i 0 := Fin.ext hi0.symm
  have hq : q = i 1 := Fin.ext hi1.symm
  rw [hp, hq]

/-- WHAT THE POINT WRITES BACK is the (one) block of the normalised array of the arrays as the region finds them. -/
theorem flushed0 (c : Dev nD) (t : Fin cfg0.N) :
    (dat0 V c).flushed 3 t = ((cfg0.win 3).blk t).view.read (Elt Ideal) (G0 (V c main_arg0) (V c main_v0) (V c main_v1)) := by
  show (cfg0.win 3).cut (grid0.coords t) ((dat0 V c).after 3 t) = _
  rw [after0_3]
  unfold out0_3
  rw [View.canon_unit_zero hz]
  simp only [View.ld_unit_zero (S := S10000x128) hz, View.ld_unit_zero (S := S1x128) hz]
  obtain ⟨e0, e1, e2, e3, e4, e5, e6, e7⟩ := idx0 t
  funext j
  refine point0 (V c main_arg0) (V c main_v0) (V c main_v1) (iblk0 V c 0 t) (iblk0 V c 1 t) (iblk0 V c 2 t) j
    (((cfg0.win 3).blk t).view.emb j) ?_ ?_ ?_ ?_ ?_
  · show win0_3.index t (0 : Fin 2) * 10000 + 1 * (j 0).val = _; omega
  · show win0_3.index t (1 : Fin 2) * 128 + 1 * (j 1).val = _; omega
  · funext z
    show V c main_arg0 (((cfg0.win 0).blk t).view.emb z) = V c main_arg0 z
    refine congrArg (V c main_arg0) (funext fun ax => Fin.ext ?_)
    match ax with
    | ⟨0, _⟩ => show win0_0.index t (0 : Fin 2) * 10000 + 1 * (z 0).val = (z 0).val; omega
    | ⟨1, _⟩ => show win0_0.index t (1 : Fin 2) * 128 + 1 * (z 1).val = (z 1).val; omega
  · funext z
    show V c main_v0 (((cfg0.win 1).blk t).view.emb z) = V c main_v0 z
    refine congrArg (V c main_v0) (funext fun ax => Fin.ext ?_)
    match ax with
    | ⟨0, _⟩ => show win0_1.index t (0 : Fin 2) * 1 + 1 * (z 0).val = (z 0).val; omega
    | ⟨1, _⟩ => show win0_1.index t (1 : Fin 2) * 128 + 1 * (z 1).val = (z 1).val; omega
  · funext z
    show V c main_v1 (((cfg0.win 2).blk t).view.emb z) = V c main_v1 z
    refine congrArg (V c main_v1) (funext fun ax => Fin.ext ?_)
    match ax with
    | ⟨0, _⟩ => show win0_2.index t (0 : Fin 2) * 1 + 1 * (z 0).val = (z 0).val; omega
    | ⟨1, _⟩ => show win0_2.index t (1 : Fin 2) * 128 + 1 * (z 1).val = (z 1).val; omega

/-- An index of the output is in the point's block iff each coordinate is in the block's range. -/
theorem mem_blk0 (t : Fin cfg0.N) (i : S10000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v7).slice (win0_3.rect t)).set ↔ _
  rw [View.set_slice_whole, Rect.mem_set_unit]
  exact Iff.rfl

/-- The one block covers the output. -/
theorem cover0 (i : S10000x128.Idx) : ∃ t : Fin cfg0.N, (cfg0.win 3).flush t = true ∧ i ∈ ((cfg0.win 3).blk t).view.set := by
  have hi0 : (i 0).val < 10000 := (i 0).isLt
  have hi1 : (i 1).val < 128 := (i 1).isLt
  refine ⟨t0_0, flush0_3 _, ?_⟩
  rw [mem_blk0]
  obtain ⟨e0, e1, e2, e3, e4, e5, e6, e7⟩ := idx0 t0_0
  intro a
  match a with
  | ⟨0, _⟩ => show win0_3.index _ (0 : Fin 2) * 10000 ≤ (i 0).val ∧ (i 0).val < win0_3.index _ (0 : Fin 2) * 10000 + 10000; rw [e6]; omega
  | ⟨1, _⟩ => show win0_3.index _ (1 : Fin 2) * 128 ≤ (i 1).val ∧ (i 1).val < win0_3.index _ (1 : Fin 2) * 128 + 128; rw [e7]; omega

/-- THE ARRAY after the launch: the normalised array of the arrays as the region finds them. -/
theorem final0 (c : Dev nD) : (dat0 V c).arrAt 3 cfg0.N = G0 (V c main_arg0) (V c main_v0) (V c main_v1) :=
  (dat0 V c).arrAt_eq_of_cover 3 _ (fun t _ => flushed0 V c t) cover0

end Cert.KernelIdeal.Val0

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.PayMm.lean ====
/-
  The propagation kernel's stored value at an entry: a block of 400 rows of the matrix times the whole feature
  array, accumulated from zero, has at (p, c) the sum over the 10000 contracted coordinates of A(p, k) · x(k, c).
-/
import proofs.«109596_g1228360646957_cont_main3_661_2_alg».proof.Proof.Gen.KernelIdeal.Skeleton
import proofs.«109596_g1228360646957_cont_main3_661_2_alg».proof.Proof.Spec
import proofs.«109596_g1228360646957_cont_main3_661_2_alg».proof.Proof.LibPlainMatmul
import Idealize.ShloMosaic.PureOps.Ideal.Laws
import Idealize.ShloMosaic.Lib.ValueIdx
import Idealize.ShloMosaic.Lib.ValueLayout
import Idealize.ShloMosaic.Lib.Pipeline.Value

open scoped BigOperators

noncomputable section

namespace Cert.KernelIdeal.Pay

open Idealize.ShloMosaic Idealize.ShloMosaic.ValueIdx
open Cert.KernelIdeal Cert.KernelIdeal.Gen

/-- The block product at an entry. -/
theorem mm_pay (a : Vec Ideal S400x10000 .f32) (x : Vec Ideal S10000x128 .f32) (p : Fin 400) (c : Fin 128) :
    k1_pay1 (F := Ideal) a x (ix2 p c) = ∑ k : Fin 10000, (a (ix2 p k) : EReal) * (x (ix2 k c) : EReal) := by
  unfold k1_pay1
  rw [shapeCast_self]
  exact matmul_plain_zero_apply _ none a x p c

end Cert.KernelIdeal.Pay

end
-- ==== Proof.KVal1.lean ====
/-
  What the propagation launch leaves in its output array.

  The launch walks 25 row blocks of the [10000, 10000] matrix. At block t its body multiplies rows 400·t … 400·t + 399
  of the matrix by the WHOLE feature array and stores the [400, 128] product, which is written back as rows
  400·t … 400·t + 399 of the output. The 25 blocks tile the output, so the array ends holding, at (r, c), row r of the
  matrix against column c of the features.
-/
import proofs.«109596_g1228360646957_cont_main3_661_2_alg».proof.Proof.Gen.KernelIdeal.Frame
import proofs.«109596_g1228360646957_cont_main3_661_2_alg».proof.Proof.PayMm
import proofs.«109596_g1228360646957_cont_main3_661_2_alg».proof.Proof.Spec
import Idealize.ShloMosaic.Lib.Pipeline.Value
import Idealize.ShloMosaic.Lib.ValueIdx

set_option maxRecDepth 16384

open scoped BigOperators

noncomputable section

namespace Cert.KernelIdeal.Val1

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The propagated array: at (r, c), row r of the matrix against column c of the features. -/
def G1 (A : S10000x10000.Idx → Elt Ideal .f32) (X : S10000x128.Idx → Elt Ideal .f32) : S10000x128.Idx → Elt Ideal .f32 :=
  fun i => Spec.prop (fun r k => A (ix2 r k)) (fun k c => X (ix2 k c)) (i 0) (i 1)

/-- The printed index maps over the grid: the matrix's block moves down with the output's, the features stay. -/
theorem idx1 : ∀ t : Fin cfg1.N, win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 ∧ win1_2.index t (0 : Fin 2) = t.val :=
  (by decide +kernel : ∀ t : Fin grid1.N, _)

/-- One point: if the matrix block is rows T·400 … of A and the feature block is all of X, the stored product at
    block entry j is the propagated array at the array entry j sits at. -/
theorem point1 (A : S10000x10000.Idx → Elt Ideal .f32) (X : S10000x128.Idx → Elt Ideal .f32)
    (a : Vec Ideal S400x10000 .f32) (x : Vec Ideal S10000x128 .f32) (T : ℕ)
    (j : S400x128.Idx) (i : S10000x128.Idx) (hi0 : (i 0).val = T * 400 + (j 0).val) (hi1 : (i 1).val = (j 1).val)
    (ha : ∀ (k : Fin 10000) (z : S10000x10000.Idx), (z 0).val = T * 400 + (j 0).val → (z 1).val = k.val → a (ix2 (j 0) k) = A z)
    (hx : ∀ z : S10000x128.Idx, x z = X z) :
    k1_pay1 (F := Ideal) a x j = G1 A X i := by
  obtain ⟨p, q, rfl⟩ : ∃ (p : Fin 400) (q : Fin 128), j = ix2 p q := ⟨j 0, j 1, eq_ix2 j⟩
  refine (Pay.mm_pay a x p q).trans ?_
  unfold G1 Spec.prop
  refine Finset.sum_congr rfl fun k _ => ?_
  have e1 : a (ix2 p k) = A (ix2 (i 0) k) := ha k _ hi0 rfl
  have e2 : x (ix2 k q) = X (ix2 k (i 1)) := by
    rw [hx]; exact congrArg X (funext fun ax => Fin.ext (by match ax with | ⟨0, _⟩ => rfl | ⟨1, _⟩ => exact hi1.symm))
  rw [e1, e2]

/-- WHAT POINT t WRITES BACK is block t of the propagated array of the arrays as the region finds them. -/
theorem flushed1 (c : Dev nD) (t : Fin cfg1.N) :
    (dat1 V c).flushed 2 t = ((cfg1.win 2).blk t).view.read (Elt Ideal) (G1 (V c main_arg1) (V c main_v7)) := by
  show (cfg1.win 2).cut (grid1.coords t) ((dat1 V c).after 2 t) = _
  rw [after1_2]
  unfold out1_2
  rw [View.canon_unit_zero hz]
  simp only [View.ld_unit_zero (S := S400x10000) hz, View.ld_unit_zero (S := S10000x128) hz]
  obtain ⟨e0, e1, e2, e3, e4, e5⟩ := idx1 t
  funext j
  refine point1 (V c main_arg1) (V c main_v7) (iblk1 V c 0 t) (iblk1 V c 1 t) (win1_2.index t (0 : Fin 2)) j
    (((cfg1.win 2).blk t).view.emb j) ?_ ?_ ?_ ?_
  · show win1_2.index t (0 : Fin 2) * 400 + 1 * (j 0).val = _; omega
  · show win1_2.index t (1 : Fin 2) * 128 + 1 * (j 1).val = _; omega
  · intro k z hz0 hz1
    show V c main_arg1 (((cfg1.win 0).blk t).view.emb (ix2 (j 0) k)) = V c main_arg1 z
    refine congrArg (V c main_arg1) (funext fun ax => Fin.ext ?_)
    match ax with
    | ⟨0, _⟩ => show win1_0.index t (0 : Fin 2) * 400 + 1 * (j 0).val = (z 0).val; omega
    | ⟨1, _⟩ => show win1_0.index t (1 : Fin 2) * 10000 + 1 * k.val = (z 1).val; omega
  · intro z
    show V c main_v7 (((cfg1.win 1).blk t).view.emb z) = V c main_v7 z
    refine congrArg (V c main_v7) (funext fun ax => Fin.ext ?_)
    match ax with
    | ⟨0, _⟩ => show win1_1.index t (0 : Fin 2) * 10000 + 1 * (z 0).val = (z 0).val; omega
    | ⟨1, _⟩ => show win1_1.index t (1 : Fin 2) * 128 + 1 * (z 1).val = (z 1).val; omega

/-- An index of the output is in point t's block iff its row is among rows 400·t … 400·t + 399. -/
theorem mem_blk1 (t : Fin cfg1.N) (i : S10000x128.Idx) :
    i ∈ ((cfg1.win 2).blk t).view.set ↔ ∀ a : Fin 2, win1_2.index t a * S400x128.size a ≤ (i a).val ∧ (i a).val < win1_2.index t a * S400x128.size a + S400x128.size a := by
  show i ∈ ((View.whole main_v8).slice (win1_2.rect t)).set ↔ _
  rw [View.set_slice_whole, Rect.mem_set_unit]
  exact Iff.rfl

/-- Every index of the output is in the block of the point its row falls in. -/
theorem cover1 (i : S10000x128.Idx) : ∃ t : Fin cfg1.N, (cfg1.win 2).flush t = true ∧ i ∈ ((cfg1.win 2).blk t).view.set := by
  have hi0 : (i 0).val < 10000 := (i 0).isLt
  have hi1 : (i 1).val < 128 := (i 1).isLt
  have hN : cfg1.N = 25 := N_1
  refine ⟨⟨(i 0).val / 400, by rw [hN]; omega⟩, flush1_2 _, ?_⟩
  rw [mem_blk1]
  obtain ⟨e0, e1, e2, e3, e4, e5⟩ := idx1 ⟨(i 0).val / 400, by rw [hN]; omega⟩
  intro a
  match a with
  | ⟨0, _⟩ => show win1_2.index _ (0 : Fin 2) * 400 ≤ (i 0).val ∧ (i 0).val < win1_2.index _ (0 : Fin 2) * 400 + 400; rw [e5]; show (i 0).val / 400 * 400 ≤ _ ∧ _ < (i 0).val / 400 * 400 + 400; omega
  | ⟨1, _⟩ => show win1_2.index _ (1 : Fin 2) * 128 ≤ (i 1).val ∧ (i 1).val < win1_2.index _ (1 : Fin 2) * 128 + 128; rw [e4]; omega

/-- THE ARRAY after the launch: the propagated array of the matrix and the features as the region finds them. -/
theorem final1 (c : Dev nD) : (dat1 V c).arrAt 2 cfg1.N = G1 (V c main_arg1) (V c main_v7) :=
  (dat1 V c).arrAt_eq_of_cover 2 (G1 (V c main_arg1) (V c main_v7)) (fun t _ => flushed1 V c t) cover1

end Cert.KernelIdeal.Val1

end
-- ==== Proof.LibLaneSum.lean ====
/-
  The sum along the rows of a matrix, read at a row.

  Summing an [a, b] matrix over its second axis leaves a vector of length a whose entry i is the sum of the b entries
  of row i. The general statement names the summed entries through the index "entry i with coordinate k inserted on the
  summed axis"; for a matrix that index is simply (i, k).
-/
import Idealize.ShloMosaic.PureOps.Ideal.Laws
import Idealize.ShloMosaic.Lib.ValueIdx

open scoped BigOperators

namespace Idealize.ShloMosaic.ValueIdx

open Idealize.ShloMosaic

/-- Inserting coordinate `k` on axis 1 over the row index `i` gives the matrix index `(i, k)`. -/
theorem reduces_rows_lift {a b : ℕ} (h : (⟨2, ![a, b]⟩ : Shape).Reduces [1] ⟨1, ![a]⟩) (i : Fin a) (k : Fin b) :
    h.lift (ix1 i) k = ix2 i k := by
  funext ax; apply Fin.ext
  show h.liftVal (ix1 i) k.val ax = (ix2 i k ax).val
  unfold Shape.Reduces.liftVal
  match ax with
  | ⟨0, _⟩ => rfl
  | ⟨1, _⟩ => rfl

/-- The sum of an `[a, b]` matrix over axis 1, at the exact extended reals, read at row `i`: the sum of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ c : Fin b, src (ix2 i c) := by
  refine (Ideal.multiReduction_add_single src acc h hφ hacc (ix1 i)).trans ?_
  exact Finset.sum_congr rfl fun c _ => congrArg src (reduces_rows_lift h i c)

end Idealize.ShloMosaic.ValueIdx
-- ==== Proof.LibLaneMax.lean ====
/-
  The maximum along the rows of a matrix, read at a row.

  Taking the maximum of an [a, b] matrix over its second axis, started from an accumulator word, leaves a vector of
  length a whose entry i is the maximum of that word's value and the b entries of row i — the fold of `max` over the
  row's coordinates. The general statement names the entries through the index "entry i with coordinate k inserted
  on the reduced axis"; for a matrix that index is (i, k). (The companion for a sum is `multiReduction_add_rows_apply`.)
-/
import proofs.«109596_g1228360646957_cont_main3_661_2_alg».proof.Proof.LibLaneSum

namespace Idealize.ShloMosaic.ValueIdx

open Idealize.ShloMosaic

/-- The maximum of an `[a, b]` matrix over axis 1, at the exact extended reals, read at row `i`: the fold of `max`
    from the accumulator's value over that row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (FloatOps.ofBits (F := Ideal) φ acc) (fun c => src (ix2 i c)) := by
  refine (Ideal.multiReduction_maximumf_single src acc h hφ hacc (ix1 i)).trans ?_
  exact congrArg (fun f => (Finset.univ : Finset (Fin b)).fold max (FloatOps.ofBits (F := Ideal) φ acc) f)
    (funext fun c => congrArg src (reduces_rows_lift h i c))

end Idealize.ShloMosaic.ValueIdx
-- ==== Proof.LibColumnCast.lean ====
/-
  A vector cast to a one-column matrix, read at an entry.

  The row-major position of entry (i, 0) of an [a, 1] matrix is i · 1 + 0 = i, the position of entry i of the
  [a] vector it was cast from; so the cast reads the vector's entry i there. (The companion forms for a leading
  unit axis, [a] → [1, a] and back, are the library's `shapeCast_a_1a_apply` and `shapeCast_1a_a_apply`.)
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.LibColumnBroadcast.lean ====
/-
  One column broadcast over many.

  An [a, 1] matrix broadcast to [a, b] repeats its one column: entry (p, c) of the result is entry (p, 0) of the
  operand, whatever the column c. (The companion form for one ROW, [1, b] → [a, b], is the library's
  `broadcastTo_1b_ab_apply`.)
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.PayHead.lean ====
/-
  The last kernel's stored value at an entry: row p of (block of the matrix times the features), through three dense
  layers with leaky activations after the first two, then log-softmax over the two lanes.
-/
import proofs.«109596_g1228360646957_cont_main3_661_2_alg».proof.Proof.Gen.KernelIdeal.Skeleton
import proofs.«109596_g1228360646957_cont_main3_661_2_alg».proof.Proof.Spec
import proofs.«109596_g1228360646957_cont_main3_661_2_alg».proof.Proof.LibPlainMatmul
import proofs.«109596_g1228360646957_cont_main3_661_2_alg».proof.Proof.LibLaneSum
import proofs.«109596_g1228360646957_cont_main3_661_2_alg».proof.Proof.LibLaneMax
import proofs.«109596_g1228360646957_cont_main3_661_2_alg».proof.Proof.LibColumnCast
import proofs.«109596_g1228360646957_cont_main3_661_2_alg».proof.Proof.LibColumnBroadcast
import Idealize.ShloMosaic.PureOps.Ideal.Laws
import Idealize.ShloMosaic.Lib.ValueIdx
import Idealize.ShloMosaic.Lib.ValueLayout
import Idealize.ShloMosaic.Lib.Pipeline.Value

open scoped BigOperators

noncomputable section

namespace Cert.KernelIdeal.Pay

open Idealize.ShloMosaic Idealize.ShloMosaic.ValueIdx
open Cert.KernelIdeal Cert.KernelIdeal.Gen

/-- The one entry of a `[1, 1]` matrix, read at position `[0, 0]`, is its entry `(0, 0)`. -/
theorem extractAt_00 {α : Type} (v : (⟨2, ![1, 1]⟩ : Shape).Idx → α)
    (h : ∀ a, (![0, 0] : Fin 2 → Nat) a < (⟨2, ![1, 1]⟩ : Shape).size a) :
    extractAt ![0, 0] v h = v (ix2 (0 : Fin 1) (0 : Fin 1)) :=
  congrArg v (funext fun a => by match a with | ⟨0, _⟩ => rfl | ⟨1, _⟩ => rfl)

/-- A dense layer: the product with the weights from a zero accumulator, plus the bias row repeated down the rows,
    read at `(p, j)`, is row `p` against column `j` of the weights plus the bias at `j`. -/
theorem dense_apply {m k n : ℕ}
    (w : DotDims.WF ⟨2, ![m, k]⟩ ⟨2, ![k, n]⟩ ⟨2, ![m, n]⟩ [1] [0] [0] [1] [] [])
    (hc : (⟨2, ![1, n]⟩ : Shape).ShapeCasts ⟨2, ![1, n]⟩) (hb : (⟨2, ![1, n]⟩ : Shape).Broadcasts ⟨2, ![m, n]⟩)
    (v : FVec Ideal ⟨2, ![m, k]⟩ .f32) (W : FVec Ideal ⟨2, ![k, n]⟩ .f32) (b : FVec Ideal ⟨2, ![1, n]⟩ .f32)
    (p : Fin m) (j : Fin n) :
    addf (matmul (⟨[1], [0], [0], [1], [], [], w⟩ : DotDims ⟨2, ![m, k]⟩ ⟨2, ![k, n]⟩ ⟨2, ![m, n]⟩) none v W
          (constant (F := Ideal) ⟨2, ![m, n]⟩ .f32 0x00000000#32))
        (broadcastTo ⟨2, ![m, n]⟩ (shapeCast ⟨2, ![1, n]⟩ b hc) hb) (ix2 p j)
      = Spec.dense (fun i => (v (ix2 p i) : EReal)) (fun i j => (W (ix2 i j) : EReal))
          (fun j => (b (ix2 (0 : Fin 1) j) : EReal)) j := by
  refine (addf_apply _ _ _).trans ?_
  rw [matmul_plain_zero_apply, broadcastTo_1b_ab_apply, shapeCast_self]
  rfl

/-- The leaky activation: where the value is at least zero the value, elsewhere the slope times the value. -/
theorem prelu_apply {m n : ℕ} (hp : ∀ a, (![0, 0] : Fin 2 → Nat) a < (⟨2, ![1, 1]⟩ : Shape).size a)
    (h : FVec Ideal ⟨2, ![m, n]⟩ .f32) (al : FVec Ideal ⟨2, ![1, 1]⟩ .f32) (p : Fin m) (j : Fin n) :
    select (cmpf .oge h (broadcast ⟨2, ![m, n]⟩ (Scalar.ofBits (F := Ideal) .f32 0x00000000#32))) h
        (mulf (broadcast ⟨2, ![m, n]⟩ (extractAt ![0, 0] al hp)) h) (ix2 p j)
      = Spec.prelu (al (ix2 (0 : Fin 1) (0 : Fin 1))) (h (ix2 p j)) := by
  refine (select_apply _ _ _ _).trans ?_
  rw [mulf_apply, broadcast_apply, extractAt_00]
  rfl

/-- The row maximum, kept as a column and repeated over the lanes, read at `(p, c)`: the maximum of row `p`. -/
theorem rowMax_apply (hr : (⟨2, ![400, 2]⟩ : Shape).Reduces [1] ⟨1, ![400]⟩) (hφ : FKind.Formats .f32)
    (hacc : (0xFF800000#32 : BitVec FTy.f32.bits) = FKind.maximumf.neutral .f32 hφ)
    (hc : (⟨1, ![400]⟩ : Shape).ShapeCasts ⟨2, ![400, 1]⟩) (hb : (⟨2, ![400, 1]⟩ : Shape).Broadcasts ⟨2, ![400, 2]⟩)
    (v : FVec Ideal ⟨2, ![400, 2]⟩ .f32) (p : Fin 400) (c : Fin 2) :
    broadcastTo ⟨2, ![400, 2]⟩
        (shapeCast ⟨2, ![400, 1]⟩ (multiReduction .maximumf [1] ⟨1, ![400]⟩ v 0xFF800000#32 hr hφ hacc) hc) hb (ix2 p c)
      = Spec.rowMax (fun c' => (v (ix2 p c') : EReal)) := by
  rw [broadcastTo_a1_ab_apply, shapeCast_a_a1_apply]
  exact multiReduction_maximumf_rows_apply v _ hr hφ hacc p

/-- The logarithm of the row sum, kept as a column and repeated over the lanes, read at `(p, c)`. -/
theorem logRowSum_apply (hr : (⟨2, ![400, 2]⟩ : Shape).Reduces [1] ⟨1, ![400]⟩) (hφ : FKind.Formats .f32)
    (hacc : (0x00000000#32 : BitVec FTy.f32.bits) = FKind.add.neutral .f32 hφ)
    (hc : (⟨1, ![400]⟩ : Shape).ShapeCasts ⟨2, ![400, 1]⟩) (hb : (⟨2, ![400, 1]⟩ : Shape).Broadcasts ⟨2, ![400, 2]⟩)
    (v : FVec Ideal ⟨2, ![400, 2]⟩ .f32) (p : Fin 400) (c : Fin 2) :
    broadcastTo ⟨2, ![400, 2]⟩
        (log (shapeCast ⟨2, ![400, 1]⟩ (multiReduction .add [1] ⟨1, ![400]⟩ v 0x00000000#32 hr hφ hacc) hc)) hb (ix2 p c)
      = Ideal.log (∑ c' : Fin 2, (v (ix2 p c') : EReal)) := by
  rw [broadcastTo_a1_ab_apply]
  show Ideal.log (shapeCast ⟨2, ![400, 1]⟩ (multiReduction .add [1] ⟨1, ![400]⟩ v 0x00000000#32 hr hφ hacc) hc
    (ix2 p (0 : Fin 1))) = _
  rw [shapeCast_a_a1_apply]
  exact congrArg Ideal.log (multiReduction_add_rows_apply v _ hr hφ hacc p)

/-- Shift each row by its maximum, then subtract the logarithm of the row's sum of exponentials: the log-softmax of
    the row, read at `(p, c)`. -/
theorem lsm_apply (hr : (⟨2, ![400, 2]⟩ : Shape).Reduces [1] ⟨1, ![400]⟩) (hφ : FKind.Formats .f32)
    (hmx : (0xFF800000#32 : BitVec FTy.f32.bits) = FKind.maximumf.neutral .f32 hφ)
    (hadd : (0x00000000#32 : BitVec FTy.f32.bits) = FKind.add.neutral .f32 hφ)
    (hc : (⟨1, ![400]⟩ : Shape).ShapeCasts ⟨2, ![400, 1]⟩) (hb : (⟨2, ![400, 1]⟩ : Shape).Broadcasts ⟨2, ![400, 2]⟩)
    (v : FVec Ideal ⟨2, ![400, 2]⟩ .f32) (p : Fin 400) (c : Fin 2) :
    subf
        (subf v (broadcastTo ⟨2, ![400, 2]⟩
          (shapeCast ⟨2, ![400, 1]⟩ (multiReduction .maximumf [1] ⟨1, ![400]⟩ v 0xFF800000#32 hr hφ hmx) hc) hb))
        (broadcastTo ⟨2, ![400, 2]⟩
          (log (shapeCast ⟨2, ![400, 1]⟩
            (multiReduction .add [1] ⟨1, ![400]⟩
              (exp (subf v (broadcastTo ⟨2, ![400, 2]⟩
                (shapeCast ⟨2, ![400, 1]⟩ (multiReduction .maximumf [1] ⟨1, ![400]⟩ v 0xFF800000#32 hr hφ hmx) hc) hb)))
              0x00000000#32 hr hφ hadd) hc)) hb) (ix2 p c)
      = Spec.logSoftmax (fun c' => (v (ix2 p c') : EReal)) c := by
  refine (subf_apply _ _ _).trans ?_
  rw [logRowSum_apply, subf_apply, rowMax_apply]
  unfold Spec.logSoftmax
  refine congrArg (fun t : EReal => ((v (ix2 p c) : EReal) - Spec.rowMax (fun c' => (v (ix2 p c') : EReal))) - Ideal.log t) ?_
  refine Finset.sum_congr rfl fun c' _ => ?_
  show Ideal.exp (subf v _ (ix2 p c')) = _
  rw [subf_apply, rowMax_apply]

/-- The last stage on a given matrix of logits: add the bias row, shift each row by its maximum, subtract the
    logarithm of the row's sum of exponentials. -/
theorem logSoftmax_pay (v31 : FVec Ideal S400x2 .f32) (b3 : Vec Ideal S1x2 .f32) (p : Fin 400) (c : Fin 2) :
    k2_pay1 (F := Ideal) v31 b3 (ix2 p c)
      = Spec.logSoftmax (fun c' => (v31 (ix2 p c') : EReal) + (b3 (ix2 (0 : Fin 1) c') : EReal)) c := by
  unfold k2_pay1
  refine (lsm_apply _ _ _ _ _ _ _ p c).trans ?_
  refine congrArg (fun f => Spec.logSoftmax f c) (funext fun c' => ?_)
  refine (addf_apply _ _ _).trans ?_
  rw [broadcastTo_1b_ab_apply, shapeCast_self]

/-- The three dense layers on row `p` of the block product, before the last bias: the second activation's row
    against column `c` of the last weights. -/
theorem logits_pay (a : Vec Ideal S400x10000 .f32) (x : Vec Ideal S10000x128 .f32) (W1 : Vec Ideal S128x128 .f32)
    (b1 : Vec Ideal S1x128 .f32) (a1 : Vec Ideal S1x1 .f32) (W2 : Vec Ideal S128x128 .f32) (b2 : Vec Ideal S1x128 .f32)
    (a2 : Vec Ideal S1x1 .f32) (W3 : Vec Ideal S128x2 .f32) (p : Fin 400) (c : Fin 2) :
    k2_pay2 (F := Ideal) a x W1 b1 a1 W2 b2 a2 W3 (ix2 p c)
      = ∑ k : Fin 128,
          Spec.prelu (a2 (ix2 (0 : Fin 1) (0 : Fin 1)))
            (Spec.dense
              (fun i => Spec.prelu (a1 (ix2 (0 : Fin 1) (0 : Fin 1)))
                (Spec.dense (fun k => ∑ j : Fin 10000, (a (ix2 p j) : EReal) * (x (ix2 j k) : EReal))
                  (fun i j => W1 (ix2 i j)) (fun j => b1 (ix2 (0 : Fin 1) j)) i))
              (fun i j => W2 (ix2 i j)) (fun j => b2 (ix2 (0 : Fin 1) j)) k)
            * (W3 (ix2 k c) : EReal) := by
  unfold k2_pay2
  refine (matmul_plain_zero_apply _ none _ _ p c).trans ?_
  refine Finset.sum_congr rfl fun k _ => congrArg (fun t : EReal => t * (W3 (ix2 k c) : EReal)) ?_
  refine (prelu_apply _ _ a2 p k).trans ?_
  refine congrArg (Spec.prelu _) ?_
  refine (dense_apply _ _ _ _ W2 b2 p k).trans ?_
  refine congrArg (fun f => Spec.dense f _ _ k) (funext fun i => ?_)
  refine (prelu_apply _ _ a1 p i).trans ?_
  refine congrArg (Spec.prelu _) ?_
  refine (dense_apply _ _ _ _ W1 b1 p i).trans ?_
  refine congrArg (fun f => Spec.dense f _ _ i) (funext fun k' => ?_)
  refine (matmul_plain_zero_apply _ none _ _ p k').trans ?_
  rw [shapeCast_self]

/-- The head of the network on row `p` of the block, lane `c`. -/
theorem head_pay (a : Vec Ideal S400x10000 .f32) (x : Vec Ideal S10000x128 .f32) (W1 : Vec Ideal S128x128 .f32)
    (b1 : Vec Ideal S1x128 .f32) (a1 : Vec Ideal S1x1 .f32) (W2 : Vec Ideal S128x128 .f32) (b2 : Vec Ideal S1x128 .f32)
    (a2 : Vec Ideal S1x1 .f32) (W3 : Vec Ideal S128x2 .f32) (b3 : Vec Ideal S1x2 .f32) (p : Fin 400) (c : Fin 2) :
    k2_pay1 (F := Ideal) (k2_pay2 a x W1 b1 a1 W2 b2 a2 W3) b3 (ix2 p c)
      = Spec.head (fun k => ∑ j : Fin 10000, (a (ix2 p j) : EReal) * (x (ix2 j k) : EReal))
          (fun i j => W1 (ix2 i j)) (fun j => b1 (ix2 (0 : Fin 1) j)) (a1 (ix2 (0 : Fin 1) (0 : Fin 1)))
          (fun i j => W2 (ix2 i j)) (fun j => b2 (ix2 (0 : Fin 1) j)) (a2 (ix2 (0 : Fin 1) (0 : Fin 1)))
          (fun i j => W3 (ix2 i j)) (fun j => b3 (ix2 (0 : Fin 1) j)) c := by
  refine (logSoftmax_pay _ b3 p c).trans ?_
  unfold Spec.head
  refine congrArg (fun f => Spec.logSoftmax f c) (funext fun c' => ?_)
  rw [logits_pay]
  rfl

end Cert.KernelIdeal.Pay

end
-- ==== Proof.KVal2.lean ====
/-
  What the last launch leaves in the result array.

  The launch walks the same 25 row blocks of the matrix. At block t its body multiplies rows 400·t … 400·t + 399 of
  the matrix by the whole (once propagated) feature array, sends each of the 400 product rows through the head of the
  network — every weight, bias row and slope read whole, at block index zero — and stores the [400, 2] result, which
  is written back as rows 400·t … of the output. The 25 blocks tile the output, so the array ends holding, at (r, c),
  the head applied to row r of the second propagation, lane c.
-/
import proofs.«109596_g1228360646957_cont_main3_661_2_alg».proof.Proof.Gen.KernelIdeal.Frame
import proofs.«109596_g1228360646957_cont_main3_661_2_alg».proof.Proof.PayHead
import proofs.«109596_g1228360646957_cont_main3_661_2_alg».proof.Proof.Spec
import Idealize.ShloMosaic.Lib.Pipeline.Value
import Idealize.ShloMosaic.Lib.ValueIdx

set_option maxRecDepth 16384

open scoped BigOperators

noncomputable section

namespace Cert.KernelIdeal.Val2

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The result array: at (r, c), the head of the network on row r of (matrix · features), lane c. -/
def G2 (A : S10000x10000.Idx → Elt Ideal .f32) (X : S10000x128.Idx → Elt Ideal .f32) (W1 : S128x128.Idx → Elt Ideal .f32) (B1 : S1x128.Idx → Elt Ideal .f32) (A1 : S1x1.Idx → Elt Ideal .f32) (W2 : S128x128.Idx → Elt Ideal .f32) (B2 : S1x128.Idx → Elt Ideal .f32) (A2 : S1x1.Idx → Elt Ideal .f32) (W3 : S128x2.Idx → Elt Ideal .f32) (B3 : S1x2.Idx → Elt Ideal .f32) : S10000x2.Idx → Elt Ideal .f32 :=
  fun i => Spec.head (fun k => Spec.prop (fun r k => A (ix2 r k)) (fun k c => X (ix2 k c)) (i 0) k)
      (fun i j => (W1 (ix2 i j) : EReal)) (fun j => (B1 (ix2 (0 : Fin 1) j) : EReal)) (A1 (ix2 (0 : Fin 1) (0 : Fin 1)) : EReal)
      (fun i j => (W2 (ix2 i j) : EReal)) (fun j => (B2 (ix2 (0 : Fin 1) j) : EReal)) (A2 (ix2 (0 : Fin 1) (0 : Fin 1)) : EReal)
      (fun i j => (W3 (ix2 i j) : EReal)) (fun j => (B3 (ix2 (0 : Fin 1) j) : EReal)) (i 1)

/-- The printed index maps over the grid: the matrix's block moves down with the output's, everything else stays. -/
theorem idx2 : ∀ t : Fin cfg2.N, win2_0.index t (0 : Fin 2) = win2_10.index t (0 : Fin 2)
    ∧ win2_0.index t (1 : Fin 2) = 0
    ∧ win2_10.index t (1 : Fin 2) = 0
    ∧ win2_10.index t (0 : Fin 2) = t.val
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = 0
    ∧ win2_9.index t (1 : Fin 2) = 0 :=
  (by decide +kernel : ∀ t : Fin grid2.N, _)

/-- One point: if the matrix block is rows T·400 … of A and every other block is its whole array, the stored result
    at block entry j is the result array at the array entry j sits at. -/
theorem point2 (A : S10000x10000.Idx → Elt Ideal .f32) (X : S10000x128.Idx → Elt Ideal .f32) (W1 : S128x128.Idx → Elt Ideal .f32) (B1 : S1x128.Idx → Elt Ideal .f32) (A1 : S1x1.Idx → Elt Ideal .f32) (W2 : S128x128.Idx → Elt Ideal .f32) (B2 : S1x128.Idx → Elt Ideal .f32) (A2 : S1x1.Idx → Elt Ideal .f32) (W3 : S128x2.Idx → Elt Ideal .f32) (B3 : S1x2.Idx → Elt Ideal .f32)
    (a : Vec Ideal S400x10000 .f32) (x : Vec Ideal S10000x128 .f32) (w1 : Vec Ideal S128x128 .f32) (b1 : Vec Ideal S1x128 .f32) (a1 : Vec Ideal S1x1 .f32) (w2 : Vec Ideal S128x128 .f32) (b2 : Vec Ideal S1x128 .f32) (a2 : Vec Ideal S1x1 .f32) (w3 : Vec Ideal S128x2 .f32) (b3 : Vec Ideal S1x2 .f32) (b3' : Unit) (T : ℕ)
    (j : S400x2.Idx) (i : S10000x2.Idx) (hi0 : (i 0).val = T * 400 + (j 0).val) (hi1 : (i 1).val = (j 1).val)
    (ha : ∀ (k : Fin 10000) (z : S10000x10000.Idx), (z 0).val = T * 400 + (j 0).val → (z 1).val = k.val → a (ix2 (j 0) k) = A z)
    (hx : x = X) (hw1 : w1 = W1) (hb1 : b1 = B1) (ha1 : a1 = A1) (hw2 : w2 = W2) (hb2 : b2 = B2) (ha2 : a2 = A2) (hw3 : w3 = W3) (hb3 : b3 = B3) :
    k2_pay1 (F := Ideal) (k2_pay2 a x w1 b1 a1 w2 b2 a2 w3) b3 j = G2 A X W1 B1 A1 W2 B2 A2 W3 B3 i := by
  obtain ⟨p, q, rfl⟩ : ∃ (p : Fin 400) (q : Fin 2), j = ix2 p q := ⟨j 0, j 1, eq_ix2 j⟩
  subst hx hw1 hb1 ha1 hw2 hb2 ha2 hw3 hb3
  refine (Pay.head_pay a x w1 b1 a1 w2 b2 a2 w3 b3 p q).trans ?_
  unfold G2
  have hv : (fun k : Fin 128 => ∑ j' : Fin 10000, (a (ix2 p j') : EReal) * (x (ix2 j' k) : EReal))
      = (fun k : Fin 128 => Spec.prop (fun r k => A (ix2 r k)) (fun k c => x (ix2 k c)) (i 0) k) := by
    funext k
    unfold Spec.prop
    exact Finset.sum_congr rfl fun j' _ => by rw [ha j' (ix2 (i 0) j') hi0 rfl]
  have hq : q = i 1 := Fin.ext hi1.symm
  rw [hv, hq]

/-- WHAT POINT t WRITES BACK is block t of the result array of the arrays as the region finds them. -/
theorem flushed2 (c : Dev nD) (t : Fin cfg2.N) :
    (dat2 V c).flushed 10 t = ((cfg2.win 10).blk t).view.read (Elt Ideal)
      (G2 (V c main_arg1) (V c main_v8) (V c main_arg4) (V c main_v2) (V c main_v5) (V c main_arg7) (V c main_v3) (V c main_v6) (V c main_arg10) (V c main_v4)) := by
  show (cfg2.win 10).cut (grid2.coords t) ((dat2 V c).after 10 t) = _
  rw [after2_10]
  unfold out2_10
  rw [View.canon_unit_zero hz]
  simp only [View.ld_unit_zero (S := S400x10000) hz, View.ld_unit_zero (S := S10000x128) hz, View.ld_unit_zero (S := S128x128) hz,
    View.ld_unit_zero (S := S1x128) hz, View.ld_unit_zero (S := S1x1) hz, View.ld_unit_zero (S := S128x2) hz, View.ld_unit_zero (S := S1x2) hz]
  obtain ⟨e0, e1, e2, e3, e4, e5, e6, e7, e8, e9, e10, e11, e12, e13, e14, e15, e16, e17, e18, e19, e20, e21⟩ := idx2 t
  funext j
  refine point2 (V c main_arg1) (V c main_v8) (V c main_arg4) (V c main_v2) (V c main_v5) (V c main_arg7) (V c main_v3) (V c main_v6) (V c main_arg10) (V c main_v4)
    (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) () (win2_10.index t (0 : Fin 2)) j
    (((cfg2.win 10).blk t).view.emb j) ?_ ?_ ?_ ?_ ?_ ?_ ?_ ?_ ?_ ?_ ?_ ?_
  · show win2_10.index t (0 : Fin 2) * 400 + 1 * (j 0).val = _; omega
  · show win2_10.index t (1 : Fin 2) * 2 + 1 * (j 1).val = _; omega
  · intro k z hz0 hz1
    show V c main_arg1 (((cfg2.win 0).blk t).view.emb (ix2 (j 0) k)) = V c main_arg1 z
    refine congrArg (V c main_arg1) (funext fun ax => Fin.ext ?_)
    match ax with
    | ⟨0, _⟩ => show win2_0.index t (0 : Fin 2) * 400 + 1 * (j 0).val = (z 0).val; omega
    | ⟨1, _⟩ => show win2_0.index t (1 : Fin 2) * 10000 + 1 * k.val = (z 1).val; omega
  · funext z
    show V c main_v8 (((cfg2.win 1).blk t).view.emb z) = V c main_v8 z
    refine congrArg (V c main_v8) (funext fun ax => Fin.ext ?_)
    match ax with
    | ⟨0, _⟩ => show win2_1.index t (0 : Fin 2) * 10000 + 1 * (z 0).val = (z 0).val; omega
    | ⟨1, _⟩ => show win2_1.index t (1 : Fin 2) * 128 + 1 * (z 1).val = (z 1).val; omega
  · funext z
    show V c main_arg4 (((cfg2.win 2).blk t).view.emb z) = V c main_arg4 z
    refine congrArg (V c main_arg4) (funext fun ax => Fin.ext ?_)
    match ax with
    | ⟨0, _⟩ => show win2_2.index t (0 : Fin 2) * 128 + 1 * (z 0).val = (z 0).val; omega
    | ⟨1, _⟩ => show win2_2.index t (1 : Fin 2) * 128 + 1 * (z 1).val = (z 1).val; omega
  · funext z
    show V c main_v2 (((cfg2.win 3).blk t).view.emb z) = V c main_v2 z
    refine congrArg (V c main_v2) (funext fun ax => Fin.ext ?_)
    match ax with
    | ⟨0, _⟩ => show win2_3.index t (0 : Fin 2) * 1 + 1 * (z 0).val = (z 0).val; omega
    | ⟨1, _⟩ => show win2_3.index t (1 : Fin 2) * 128 + 1 * (z 1).val = (z 1).val; omega
  · funext z
    show V c main_v5 (((cfg2.win 4).blk t).view.emb z) = V c main_v5 z
    refine congrArg (V c main_v5) (funext fun ax => Fin.ext ?_)
    match ax with
    | ⟨0, _⟩ => show win2_4.index t (0 : Fin 2) * 1 + 1 * (z 0).val = (z 0).val; omega
    | ⟨1, _⟩ => show win2_4.index t (1 : Fin 2) * 1 + 1 * (z 1).val = (z 1).val; omega
  · funext z
    show V c main_arg7 (((cfg2.win 5).blk t).view.emb z) = V c main_arg7 z
    refine congrArg (V c main_arg7) (funext fun ax => Fin.ext ?_)
    match ax with
    | ⟨0, _⟩ => show win2_5.index t (0 : Fin 2) * 128 + 1 * (z 0).val = (z 0).val; omega
    | ⟨1, _⟩ => show win2_5.index t (1 : Fin 2) * 128 + 1 * (z 1).val = (z 1).val; omega
  · funext z
    show V c main_v3 (((cfg2.win 6).blk t).view.emb z) = V c main_v3 z
    refine congrArg (V c main_v3) (funext fun ax => Fin.ext ?_)
    match ax with
    | ⟨0, _⟩ => show win2_6.index t (0 : Fin 2) * 1 + 1 * (z 0).val = (z 0).val; omega
    | ⟨1, _⟩ => show win2_6.index t (1 : Fin 2) * 128 + 1 * (z 1).val = (z 1).val; omega
  · funext z
    show V c main_v6 (((cfg2.win 7).blk t).view.emb z) = V c main_v6 z
    refine congrArg (V c main_v6) (funext fun ax => Fin.ext ?_)
    match ax with
    | ⟨0, _⟩ => show win2_7.index t (0 : Fin 2) * 1 + 1 * (z 0).val = (z 0).val; omega
    | ⟨1, _⟩ => show win2_7.index t (1 : Fin 2) * 1 + 1 * (z 1).val = (z 1).val; omega
  · funext z
    show V c main_arg10 (((cfg2.win 8).blk t).view.emb z) = V c main_arg10 z
    refine congrArg (V c main_arg10) (funext fun ax => Fin.ext ?_)
    match ax with
    | ⟨0, _⟩ => show win2_8.index t (0 : Fin 2) * 128 + 1 * (z 0).val = (z 0).val; omega
    | ⟨1, _⟩ => show win2_8.index t (1 : Fin 2) * 2 + 1 * (z 1).val = (z 1).val; omega
  · funext z
    show V c main_v4 (((cfg2.win 9).blk t).view.emb z) = V c main_v4 z
    refine congrArg (V c main_v4) (funext fun ax => Fin.ext ?_)
    match ax with
    | ⟨0, _⟩ => show win2_9.index t (0 : Fin 2) * 1 + 1 * (z 0).val = (z 0).val; omega
    | ⟨1, _⟩ => show win2_9.index t (1 : Fin 2) * 2 + 1 * (z 1).val = (z 1).val; omega

/-- An index of the output is in point t's block iff its row is among rows 400·t … 400·t + 399. -/
theorem mem_blk2 (t : Fin cfg2.N) (i : S10000x2.Idx) :
    i ∈ ((cfg2.win 10).blk t).view.set ↔ ∀ a : Fin 2, win2_10.index t a * S400x2.size a ≤ (i a).val ∧ (i a).val < win2_10.index t a * S400x2.size a + S400x2.size a := by
  show i ∈ ((View.whole main_v9).slice (win2_10.rect t)).set ↔ _
  rw [View.set_slice_whole, Rect.mem_set_unit]
  exact Iff.rfl

/-- Every index of the output is in the block of the point its row falls in. -/
theorem cover2 (i : S10000x2.Idx) : ∃ t : Fin cfg2.N, (cfg2.win 10).flush t = true ∧ i ∈ ((cfg2.win 10).blk t).view.set := by
  have hi0 : (i 0).val < 10000 := (i 0).isLt
  have hi1 : (i 1).val < 2 := (i 1).isLt
  have hN : cfg2.N = 25 := N_2
  refine ⟨⟨(i 0).val / 400, by rw [hN]; omega⟩, flush2_10 _, ?_⟩
  rw [mem_blk2]
  obtain ⟨e0, e1, e2, e3, e4, e5, e6, e7, e8, e9, e10, e11, e12, e13, e14, e15, e16, e17, e18, e19, e20, e21⟩ := idx2 ⟨(i 0).val / 400, by rw [hN]; omega⟩
  intro a
  match a with
  | ⟨0, _⟩ => show win2_10.index _ (0 : Fin 2) * 400 ≤ (i 0).val ∧ (i 0).val < win2_10.index _ (0 : Fin 2) * 400 + 400; rw [e3]; show (i 0).val / 400 * 400 ≤ _ ∧ _ < (i 0).val / 400 * 400 + 400; omega
  | ⟨1, _⟩ => show win2_10.index _ (1 : Fin 2) * 2 ≤ (i 1).val ∧ (i 1).val < win2_10.index _ (1 : Fin 2) * 2 + 2; rw [e2]; omega

/-- THE ARRAY after the launch: the result array of the arrays as the region finds them. -/
theorem final2 (c : Dev nD) : (dat2 V c).arrAt 10 cfg2.N = G2 (V c main_arg1) (V c main_v8) (V c main_arg4) (V c main_v2) (V c main_v5) (V c main_arg7) (V c main_v3) (V c main_v6) (V c main_arg10) (V c main_v4) :=
  (dat2 V c).arrAt_eq_of_cover 10 _ (fun t _ => flushed2 V c t) cover2

end Cert.KernelIdeal.Val2

end
-- ==== Proof.KChain.lean ====
/-
  The kernel's result buffer as one function of the twelve argument arrays.

  The buffer contents are folded through @main: seven reshapes (γ, β, the three biases to one-row matrices, the two
  slopes to [1, 1]), then the three launches, each leaving its output array at the function of its entry arrays the
  launch's own module names. Every array a launch reads is walked back to the launch memory: an argument no
  operation writes is what was launched; a reshaped bias is the cast of its argument; the second launch reads the
  first's output and the third reads the second's.
-/
import proofs.«109596_g1228360646957_cont_main3_661_2_alg».proof.Proof.KRun
import proofs.«109596_g1228360646957_cont_main3_661_2_alg».proof.Proof.KVal0
import proofs.«109596_g1228360646957_cont_main3_661_2_alg».proof.Proof.KVal1
import proofs.«109596_g1228360646957_cont_main3_661_2_alg».proof.Proof.KVal2
import Idealize.ShloMosaic.Lib.StableHlo.Run

set_option maxRecDepth 16384

noncomputable section

namespace Cert.KernelIdeal.Chain

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-! ## After the seven reshapes -/

/-- No reshape writes this argument. -/
theorem W1_main_arg0 (c : Dev nD) : W1 m ρ c (Proc.devRef .tc main_arg0) = m ((c : Thread nD τ).loc main_arg0) := by
  show StableHlo.after hostOps0 (W0 m ρ c) (Proc.devRef .tc main_arg0) = _
  after_results
/-- No reshape writes this argument. -/
theorem W1_main_arg1 (c : Dev nD) : W1 m ρ c (Proc.devRef .tc main_arg1) = m ((c : Thread nD τ).loc main_arg1) := by
  show StableHlo.after hostOps0 (W0 m ρ c) (Proc.devRef .tc main_arg1) = _
  after_results
/-- No reshape writes this argument. -/
theorem W1_main_arg4 (c : Dev nD) : W1 m ρ c (Proc.devRef .tc main_arg4) = m ((c : Thread nD τ).loc main_arg4) := by
  show StableHlo.after hostOps0 (W0 m ρ c) (Proc.devRef .tc main_arg4) = _
  after_results
/-- No reshape writes this argument. -/
theorem W1_main_arg7 (c : Dev nD) : W1 m ρ c (Proc.devRef .tc main_arg7) = m ((c : Thread nD τ).loc main_arg7) := by
  show StableHlo.after hostOps0 (W0 m ρ c) (Proc.devRef .tc main_arg7) = _
  after_results
/-- No reshape writes this argument. -/
theorem W1_main_arg10 (c : Dev nD) : W1 m ρ c (Proc.devRef .tc main_arg10) = m ((c : Thread nD τ).loc main_arg10) := by
  show StableHlo.after hostOps0 (W0 m ρ c) (Proc.devRef .tc main_arg10) = _
  after_results

/-- The reshaped array is the cast of its argument. -/
theorem W1_main_v0 (c : Dev nD) : (W1 m ρ c (Proc.devRef .tc main_v0) : S1x128.Idx → Elt Ideal .f32) = shapeCast S1x128 (m ((c : Thread nD τ).loc main_arg2)) shapeCasts_S128_S1x128 := by
  show StableHlo.after hostOps0 (W0 m ρ c) (Proc.devRef .tc main_v0) = _
  after_results
  rfl
/-- The reshaped array is the cast of its argument. -/
theorem W1_main_v1 (c : Dev nD) : (W1 m ρ c (Proc.devRef .tc main_v1) : S1x128.Idx → Elt Ideal .f32) = shapeCast S1x128 (m ((c : Thread nD τ).loc main_arg3)) shapeCasts_S128_S1x128 := by
  show StableHlo.after hostOps0 (W0 m ρ c) (Proc.devRef .tc main_v1) = _
  after_results
  rfl
/-- The reshaped array is the cast of its argument. -/
theorem W1_main_v2 (c : Dev nD) : (W1 m ρ c (Proc.devRef .tc main_v2) : S1x128.Idx → Elt Ideal .f32) = shapeCast S1x128 (m ((c : Thread nD τ).loc main_arg5)) shapeCasts_S128_S1x128 := by
  show StableHlo.after hostOps0 (W0 m ρ c) (Proc.devRef .tc main_v2) = _
  after_results
  rfl
/-- The reshaped array is the cast of its argument. -/
theorem W1_main_v3 (c : Dev nD) : (W1 m ρ c (Proc.devRef .tc main_v3) : S1x128.Idx → Elt Ideal .f32) = shapeCast S1x128 (m ((c : Thread nD τ).loc main_arg8)) shapeCasts_S128_S1x128 := by
  show StableHlo.after hostOps0 (W0 m ρ c) (Proc.devRef .tc main_v3) = _
  after_results
  rfl
/-- The reshaped array is the cast of its argument. -/
theorem W1_main_v4 (c : Dev nD) : (W1 m ρ c (Proc.devRef .tc main_v4) : S1x2.Idx → Elt Ideal .f32) = shapeCast S1x2 (m ((c : Thread nD τ).loc main_arg11)) shapeCasts_S2_S1x2 := by
  show StableHlo.after hostOps0 (W0 m ρ c) (Proc.devRef .tc main_v4) = _
  after_results
  rfl
/-- The reshaped array is the cast of its argument. -/
theorem W1_main_v5 (c : Dev nD) : (W1 m ρ c (Proc.devRef .tc main_v5) : S1x1.Idx → Elt Ideal .f32) = shapeCast S1x1 (m ((c : Thread nD τ).loc main_arg6)) shapeCasts_S1_S1x1 := by
  show StableHlo.after hostOps0 (W0 m ρ c) (Proc.devRef .tc main_v5) = _
  after_results
  rfl
/-- The reshaped array is the cast of its argument. -/
theorem W1_main_v6 (c : Dev nD) : (W1 m ρ c (Proc.devRef .tc main_v6) : S1x1.Idx → Elt Ideal .f32) = shapeCast S1x1 (m ((c : Thread nD τ).loc main_arg9)) shapeCasts_S1_S1x1 := by
  show StableHlo.after hostOps0 (W0 m ρ c) (Proc.devRef .tc main_v6) = _
  after_results
  rfl

/-! ## After the normalisation launch -/

/-- The normalised features. -/
def xn (c : Dev nD) : S10000x128.Idx → Elt Ideal .f32 :=
  Val0.G0 (m ((c : Thread nD τ).loc main_arg0)) (shapeCast S1x128 (m ((c : Thread nD τ).loc main_arg2)) shapeCasts_S128_S1x128) (shapeCast S1x128 (m ((c : Thread nD τ).loc main_arg3)) shapeCasts_S128_S1x128)

theorem W2_v7 (c : Dev nD) : W2 m ρ c (Proc.devRef .tc main_v7) = xn m c := by
  refine (W2_arr m ρ c 3).trans ((Val0.final0 (V1 m ρ) c).trans ?_)
  unfold xn
  rw [show V1 m ρ c main_arg0 = _ from W1_main_arg0 m ρ c, show V1 m ρ c main_v0 = _ from W1_main_v0 m ρ c,
    show V1 m ρ c main_v1 = _ from W1_main_v1 m ρ c]

theorem W2_arg1 (c : Dev nD) : W2 m ρ c (Proc.devRef .tc main_arg1) = m ((c : Thread nD τ).loc main_arg1) :=
  (W2_of_ne m ρ c main_arg1 (by decide)).trans (W1_main_arg1 m ρ c)

/-! ## After the first propagation -/

/-- The once propagated features. -/
def x1 (c : Dev nD) : S10000x128.Idx → Elt Ideal .f32 := Val1.G1 (m ((c : Thread nD τ).loc main_arg1)) (xn m c)

theorem W3_v8 (c : Dev nD) : W3 m ρ c (Proc.devRef .tc main_v8) = x1 m c := by
  refine (W3_arr m ρ c 2).trans ((Val1.final1 (V2 m ρ) c).trans ?_)
  unfold x1
  rw [show V2 m ρ c main_arg1 = _ from W2_arg1 m ρ c, show V2 m ρ c main_v7 = _ from W2_v7 m ρ c]

theorem W3_arg1 (c : Dev nD) : W3 m ρ c (Proc.devRef .tc main_arg1) = m ((c : Thread nD τ).loc main_arg1) :=
  ((W3_arr m ρ c 0).trans (((dat1 (V2 m ρ) c).arrAt_in 0 rfl _).trans (A_eq1 (V2 m ρ) c 0))).trans (W2_arg1 m ρ c)

theorem W3_main_arg4 (c : Dev nD) : W3 m ρ c (Proc.devRef .tc main_arg4) = m ((c : Thread nD τ).loc main_arg4) :=
  (W3_of_ne m ρ c main_arg4 (by decide)).trans ((W2_of_ne m ρ c main_arg4 (by decide)).trans (W1_main_arg4 m ρ c))
theorem W3_main_arg7 (c : Dev nD) : W3 m ρ c (Proc.devRef .tc main_arg7) = m ((c : Thread nD τ).loc main_arg7) :=
  (W3_of_ne m ρ c main_arg7 (by decide)).trans ((W2_of_ne m ρ c main_arg7 (by decide)).trans (W1_main_arg7 m ρ c))
theorem W3_main_arg10 (c : Dev nD) : W3 m ρ c (Proc.devRef .tc main_arg10) = m ((c : Thread nD τ).loc main_arg10) :=
  (W3_of_ne m ρ c main_arg10 (by decide)).trans ((W2_of_ne m ρ c main_arg10 (by decide)).trans (W1_main_arg10 m ρ c))

theorem W3_main_v2 (c : Dev nD) : (W3 m ρ c (Proc.devRef .tc main_v2) : S1x128.Idx → Elt Ideal .f32) = shapeCast S1x128 (m ((c : Thread nD τ).loc main_arg5)) shapeCasts_S128_S1x128 :=
  (W3_of_ne m ρ c main_v2 (by decide)).trans ((W2_of_ne m ρ c main_v2 (by decide)).trans (W1_main_v2 m ρ c))
theorem W3_main_v3 (c : Dev nD) : (W3 m ρ c (Proc.devRef .tc main_v3) : S1x128.Idx → Elt Ideal .f32) = shapeCast S1x128 (m ((c : Thread nD τ).loc main_arg8)) shapeCasts_S128_S1x128 :=
  (W3_of_ne m ρ c main_v3 (by decide)).trans ((W2_of_ne m ρ c main_v3 (by decide)).trans (W1_main_v3 m ρ c))
theorem W3_main_v4 (c : Dev nD) : (W3 m ρ c (Proc.devRef .tc main_v4) : S1x2.Idx → Elt Ideal .f32) = shapeCast S1x2 (m ((c : Thread nD τ).loc main_arg11)) shapeCasts_S2_S1x2 :=
  (W3_of_ne m ρ c main_v4 (by decide)).trans ((W2_of_ne m ρ c main_v4 (by decide)).trans (W1_main_v4 m ρ c))
theorem W3_main_v5 (c : Dev nD) : (W3 m ρ c (Proc.devRef .tc main_v5) : S1x1.Idx → Elt Ideal .f32) = shapeCast S1x1 (m ((c : Thread nD τ).loc main_arg6)) shapeCasts_S1_S1x1 :=
  (W3_of_ne m ρ c main_v5 (by decide)).trans ((W2_of_ne m ρ c main_v5 (by decide)).trans (W1_main_v5 m ρ c))
theorem W3_main_v6 (c : Dev nD) : (W3 m ρ c (Proc.devRef .tc main_v6) : S1x1.Idx → Elt Ideal .f32) = shapeCast S1x1 (m ((c : Thread nD τ).loc main_arg9)) shapeCasts_S1_S1x1 :=
  (W3_of_ne m ρ c main_v6 (by decide)).trans ((W2_of_ne m ρ c main_v6 (by decide)).trans (W1_main_v6 m ρ c))

/-! ## After the last launch -/

/-- The result array. -/
def out (c : Dev nD) : S10000x2.Idx → Elt Ideal .f32 :=
  Val2.G2 (m ((c : Thread nD τ).loc main_arg1)) (x1 m c) (m ((c : Thread nD τ).loc main_arg4)) (shapeCast S1x128 (m ((c : Thread nD τ).loc main_arg5)) shapeCasts_S128_S1x128) (shapeCast S1x1 (m ((c : Thread nD τ).loc main_arg6)) shapeCasts_S1_S1x1) (m ((c : Thread nD τ).loc main_arg7)) (shapeCast S1x128 (m ((c : Thread nD τ).loc main_arg8)) shapeCasts_S128_S1x128) (shapeCast S1x1 (m ((c : Thread nD τ).loc main_arg9)) shapeCasts_S1_S1x1) (m ((c : Thread nD τ).loc main_arg10)) (shapeCast S1x2 (m ((c : Thread nD τ).loc main_arg11)) shapeCasts_S2_S1x2)

theorem W4_v9 (c : Dev nD) : W4 m ρ c (Proc.devRef .tc main_v9) = out m c := by
  refine (W4_arr m ρ c 10).trans ((Val2.final2 (V3 m ρ) c).trans ?_)
  unfold out
  rw [show V3 m ρ c main_arg1 = _ from W3_arg1 m ρ c, show V3 m ρ c main_v8 = _ from W3_v8 m ρ c,
    show V3 m ρ c main_arg4 = _ from W3_main_arg4 m ρ c, show V3 m ρ c main_v2 = _ from W3_main_v2 m ρ c,
    show V3 m ρ c main_v5 = _ from W3_main_v5 m ρ c, show V3 m ρ c main_arg7 = _ from W3_main_arg7 m ρ c,
    show V3 m ρ c main_v3 = _ from W3_main_v3 m ρ c, show V3 m ρ c main_v6 = _ from W3_main_v6 m ρ c,
    show V3 m ρ c main_arg10 = _ from W3_main_arg10 m ρ c, show V3 m ρ c main_v4 = _ from W3_main_v4 m ρ c]

/-- The run, read: the result buffer ends at `out`, the arguments as launched. -/
theorem run : θ_run (defs (F := Ideal)) (onTc (τ := τ) (main (F := Ideal))) ⟨m, fun _ => 0, ρ⟩ (fun r => ∀ c : Dev nD,
      r.2.mem ((c.tc : Thread nD τ).loc main_v9) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (W4_v9 m ρ c), (h c).2⟩) (Cert.KernelIdeal.Hand.run_named m ρ)

end Cert.KernelIdeal.Chain

end
-- ==== Proof.RefDefs.lean ====
/-
  The reference's result as a whole-array function of its twelve arguments, stage by stage: column means and
  variances and the normalization, the two propagation steps, the three dense layers and the row-wise log-softmax.
  Each stage is the composed term of the reference's operations for it, at the ideal instance.
-/
import proofs.«109596_g1228360646957_cont_main3_661_2_alg».proof.Proof.Gen.ReferenceIdeal
import Idealize.ShloMosaic.PureOps.Ideal

noncomputable section

namespace Cert.ReferenceIdeal.RefRun

open Cert.ReferenceIdeal Cert.ReferenceIdeal.Gen Idealize.ShloMosaic Idealize.SL.Sem

/-! ## The reference's value, stage by stage (at the ideal instance) -/

/-- The column means of `x`: the column sums divided by the row count. -/
def refMean (x : FVec Ideal S10000x128 .f32) : FVec Ideal S128 .f32 :=
  Host.divf (Host.reduceAdd x (constant (F := Ideal) S_ .f32 0x00000000#32) reducesTo_S10000x128_S128_d0 h_S_)
    (broadcastInDim S128 ![] bcast_S_S128 (constant (F := Ideal) S_ .f32 0x461C4000#32))

/-- `x` minus its column means, as the variance computes them (the sums broadcast to a row, then divided). -/
def refVarDev (x : FVec Ideal S10000x128 .f32) : FVec Ideal S10000x128 .f32 :=
  subf x (broadcastInDim S10000x128 ![0, 1] bcast_S1x128_S10000x128_0_1
    (Host.divf (broadcastInDim S1x128 ![1] bcast_S128_S1x128_1
        (Host.reduceAdd x (constant (F := Ideal) S_ .f32 0x00000000#32) reducesTo_S10000x128_S128_d0 h_S_))
      (broadcastInDim S1x128 ![] bcast_S_S1x128 (constant (F := Ideal) S_ .f32 0x461C4000#32))))

/-- The variance's divisor: the row count minus the correction `0`. -/
def refVarN : FVec Ideal S_ .f32 :=
  subf (constant (F := Ideal) S_ .f32 0x461C4000#32) (sitofp (F := Ideal) .f32 (constantI S_ 32 0#32))

/-- The column variances of `x`: the sums of squared deviations over the divisor where the divisor is positive. -/
def refVar (x : FVec Ideal S10000x128 .f32) : FVec Ideal S128 .f32 :=
  select (broadcastInDim S128 ![] bcast_S_S128 (cmpf .ogt refVarN (constant (F := Ideal) S_ .f32 0x00000000#32)))
    (Host.divf (Host.reduceAdd (mulf (refVarDev x) (refVarDev x)) (constant (F := Ideal) S_ .f32 0x00000000#32) reducesTo_S10000x128_S128_d0 h_S_)
      (broadcastInDim S128 ![] bcast_S_S128 refVarN))
    (broadcastInDim S128 ![] bcast_S_S128 (id (constant (F := Ideal) S_ .f32 0x7FC00000#32)))

/-- The normalization: `(x - mean) / sqrt (var + ε) * g + b`, columnwise. -/
def refBn (x : FVec Ideal S10000x128 .f32) (g b : FVec Ideal S128 .f32) : FVec Ideal S10000x128 .f32 :=
  addf
    (mulf
      (Host.divf
        (subf x (broadcastInDim S10000x128 ![0, 1] bcast_S1x128_S10000x128_0_1 (broadcastInDim S1x128 ![1] bcast_S128_S1x128_1 (refMean x))))
        (broadcastInDim S10000x128 ![0, 1] bcast_S1x128_S10000x128_0_1 (broadcastInDim S1x128 ![1] bcast_S128_S1x128_1
          (Host.sqrt (addf (refVar x) (broadcastInDim S128 ![] bcast_S_S128 (constant (F := Ideal) S_ .f32 0x3727C5AC#32)))))))
      (broadcastInDim S10000x128 ![0, 1] bcast_S1x128_S10000x128_0_1 (broadcastInDim S1x128 ![1] bcast_S128_S1x128_1 g)))
    (broadcastInDim S10000x128 ![0, 1] bcast_S1x128_S10000x128_0_1 (broadcastInDim S1x128 ![1] bcast_S128_S1x128_1 b))

/-- One propagation step: `1 * (adj · x) + 0 * f0`. -/
def refProp (adj : FVec Ideal S10000x10000 .f32) (x f0 : FVec Ideal S10000x128 .f32) : FVec Ideal S10000x128 .f32 :=
  addf
    (mulf (broadcastInDim S10000x128 ![] bcast_S_S10000x128 (constant (F := Ideal) S_ .f32 0x3F800000#32))
      (Host.dotGeneral dot_S10000x10000_S10000x128_S10000x128_1_0_0_1_n_n none adj x))
    (mulf (broadcastInDim S10000x128 ![] bcast_S_S10000x128 (constant (F := Ideal) S_ .f32 0x00000000#32)) f0)

/-- A dense layer before its activation: `x · W + b`. -/
def refPre (x : FVec Ideal S10000x128 .f32) (W : FVec Ideal S128x128 .f32) (b : FVec Ideal S128 .f32) : FVec Ideal S10000x128 .f32 :=
  addf (Host.dotGeneral dot_S10000x128_S128x128_S10000x128_1_0_0_1_n_n none x W)
    (broadcastInDim S10000x128 ![0, 1] bcast_S1x128_S10000x128_0_1 (broadcastInDim S1x128 ![1] bcast_S128_S1x128_1 b))

/-- The activation: `z` where `z ≥ 0`, else `a * z`. -/
def refAct (z : FVec Ideal S10000x128 .f32) (a : FVec Ideal S1 .f32) : FVec Ideal S10000x128 .f32 :=
  select (cmpf .oge z (broadcastInDim S10000x128 ![] bcast_S_S10000x128 (constant (F := Ideal) S_ .f32 0x00000000#32))) z
    (mulf (broadcastInDim S10000x128 ![0, 1] bcast_S1x1_S10000x128_0_1 (broadcastInDim S1x1 ![1] bcast_S1_S1x1_1 a)) z)

/-- A dense layer with its activation. -/
def refDense (x : FVec Ideal S10000x128 .f32) (W : FVec Ideal S128x128 .f32) (b : FVec Ideal S128 .f32) (a : FVec Ideal S1 .f32) :
    FVec Ideal S10000x128 .f32 :=
  refAct (refPre x W b) a

/-- The last dense layer: `x · W + b`, two columns. -/
def refLogits (x : FVec Ideal S10000x128 .f32) (W : FVec Ideal S128x2 .f32) (b : FVec Ideal S2 .f32) : FVec Ideal S10000x2 .f32 :=
  addf (Host.dotGeneral dot_S10000x128_S128x2_S10000x2_1_0_0_1_n_n none x W)
    (broadcastInDim S10000x2 ![0, 1] bcast_S1x2_S10000x2_0_1 (broadcastInDim S1x2 ![1] bcast_S2_S1x2_1 b))

/-- `z` minus its row maximum. -/
def refLsmShift (z : FVec Ideal S10000x2 .f32) : FVec Ideal S10000x2 .f32 :=
  subf z (broadcastInDim S10000x2 ![0, 1] bcast_S10000x1_S10000x2_0_1 (broadcastInDim S10000x1 ![0] bcast_S10000_S10000x1_0
    (maximumf (broadcastInDim S10000 ![] bcast_S_S10000 (constant (F := Ideal) S_ .f32 0xFF800000#32))
      (Host.reduce FloatOps.maximumf z (constant (F := Ideal) S_ .f32 0xFF800000#32) reducesTo_S10000x2_S10000_d1 h_S_))))

/-- The row-wise log-softmax: the shifted row minus the logarithm of the sum of its exponentials. -/
def refLogSoftmax (z : FVec Ideal S10000x2 .f32) : FVec Ideal S10000x2 .f32 :=
  subf (refLsmShift z) (broadcastInDim S10000x2 ![0, 1] bcast_S10000x1_S10000x2_0_1
    (Host.log (broadcastInDim S10000x1 ![0] bcast_S10000_S10000x1_0
      (Host.reduceAdd (Host.exp (refLsmShift z)) (constant (F := Ideal) S_ .f32 0x00000000#32) reducesTo_S10000x2_S10000_d1 h_S_))))

/-- The three dense layers and the log-softmax. -/
def refHead (x : FVec Ideal S10000x128 .f32) (W1 : FVec Ideal S128x128 .f32) (b1 : FVec Ideal S128 .f32) (a1 : FVec Ideal S1 .f32)
    (W2 : FVec Ideal S128x128 .f32) (b2 : FVec Ideal S128 .f32) (a2 : FVec Ideal S1 .f32)
    (W3 : FVec Ideal S128x2 .f32) (b3 : FVec Ideal S2 .f32) : FVec Ideal S10000x2 .f32 :=
  refLogSoftmax (refLogits (refDense (refDense x W1 b1 a1) W2 b2 a2) W3 b3)

/-- The reference's result as a function of its twelve arguments. -/
def refOut (x : FVec Ideal S10000x128 .f32) (adj : FVec Ideal S10000x10000 .f32) (g b : FVec Ideal S128 .f32)
    (W1 : FVec Ideal S128x128 .f32) (b1 : FVec Ideal S128 .f32) (a1 : FVec Ideal S1 .f32)
    (W2 : FVec Ideal S128x128 .f32) (b2 : FVec Ideal S128 .f32) (a2 : FVec Ideal S1 .f32)
    (W3 : FVec Ideal S128x2 .f32) (b3 : FVec Ideal S2 .f32) : FVec Ideal S10000x2 .f32 :=
  refHead (refProp adj (refProp adj (refBn x g b) (refBn x g b)) (refBn x g b)) W1 b1 a1 W2 b2 a2 W3 b3

end Cert.ReferenceIdeal.RefRun

end
-- ==== Proof.RefRun.lean ====
/-
  The reference's run, read back. Its @main is a straight line of 101 host operations once the four outlined
  functions are unfolded at their calls (the variance with its select, the two activations' selects, the
  log-softmax). The line is cut into eight consecutive stages; what each stage leaves at its one live result is
  a stage of the whole-array function (RefDefs), by computation over that stage's operations only, and a buffer a
  stage does not write keeps its contents. Composing the stages gives the result buffer at `refOut` of the
  arguments' launch contents, and the arguments unchanged.
-/
import proofs.«109596_g1228360646957_cont_main3_661_2_alg».proof.Proof.RefDefs
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

/-! ## Two general facts about a line of operations -/

section General

variable {τ' : Topo} {sig' : RefSig} {Val : EltTy → Type}

/-- The contents after two lines run one after the other: the second's fold over the first's. -/
theorem after_append (l₁ l₂ : List (HloOp τ' sig' Val)) (V : Valuation τ' sig' Val) :
    after (l₁ ++ l₂) V = after l₂ (after l₁ V) := by
  induction l₁ generalizing V with
  | nil => rfl
  | cons op l ih => simp only [List.cons_append, after_cons, ih]

/-- An operation whose one written buffer is among the references `W` writes inside `W`. -/
theorem writes_sub {W : List (Ref sig' .tc)} {op : HloOp τ' sig' Val} (y : Ref sig' .tc)
    (hw : op.writes = {Proc.devRef .tc y}) (hy : y ∈ W) :
    op.writes ⊆ (W.map (Proc.devRef (τ := τ') .tc)).toFinset := by
  rw [hw, Finset.singleton_subset_iff, List.mem_toFinset]
  exact List.mem_map_of_mem hy

end General

variable {F : FTy → Type} [FloatOps F]

/-! ## The operations, stage by stage -/

/-- The column statistics: the sums and their quotient by the row count (the means), the constant `0` the variance takes as its correction, and the variance's operations with its select's three inlined. -/
def opsStat : List (HloOp τ sig (Elt F)) :=
  [ StableHlo.nullary main_cst (constant S_ .f32 0x00000000#32),
    StableHlo.binary main_arg0 main_cst main_v0 ((fun x v => Host.reduceAdd x v reducesTo_S10000x128_S128_d0 h_S_) : (⟨S10000x128, .f32⟩ : BufTy).Contents (Elt F) → (⟨S_, .f32⟩ : BufTy).Contents (Elt F) → (⟨S128, .f32⟩ : BufTy).Contents (Elt F)),
    StableHlo.nullary main_cst_0 (constant S_ .f32 0x461C4000#32),
    StableHlo.unary main_cst_0 main_v1 (broadcastInDim S128 ![] bcast_S_S128 : (⟨S_, .f32⟩ : BufTy).Contents (Elt F) → (⟨S128, .f32⟩ : BufTy).Contents (Elt F)),
    StableHlo.binary main_v0 main_v1 main_v2 (Host.divf : (⟨S128, .f32⟩ : BufTy).Contents (Elt F) → (⟨S128, .f32⟩ : BufTy).Contents (Elt F) → (⟨S128, .f32⟩ : BufTy).Contents (Elt F)),
    StableHlo.nullary main_c (constantI S_ 32 0#32),
    TRef.nullary main_call0.cst (constant S_ .f32 0x00000000#32),
    TRef.binary (.of main_arg0 : TRef sig ⟨S10000x128, .f32⟩) main_call0.cst main_call0.v0 (fun x v => Host.reduceAdd x v reducesTo_S10000x128_S128_d0 h_S_),
    TRef.unary main_call0.v0 main_call0.v1 (broadcastInDim S1x128 ![1] bcast_S128_S1x128_1),
    TRef.nullary main_call0.cst_0 (constant S_ .f32 0x461C4000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S10000x128 ![0, 1] bcast_S1x128_S10000x128_0_1),
    TRef.binary (.of main_arg0 : TRef sig ⟨S10000x128, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x461C4000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S10000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b) ]

/-- The normalization: the centred input over the square root of the variance plus `ε`, times the scale, plus the shift. -/
def opsNorm : List (HloOp τ sig (Elt F)) :=
  [ StableHlo.unary main_v2 main_v4 (broadcastInDim S1x128 ![1] bcast_S128_S1x128_1 : (⟨S128, .f32⟩ : BufTy).Contents (Elt F) → (⟨S1x128, .f32⟩ : BufTy).Contents (Elt F)),
    StableHlo.unary main_v4 main_v5 (broadcastInDim S10000x128 ![0, 1] bcast_S1x128_S10000x128_0_1 : (⟨S1x128, .f32⟩ : BufTy).Contents (Elt F) → (⟨S10000x128, .f32⟩ : BufTy).Contents (Elt F)),
    StableHlo.binary main_arg0 main_v5 main_v6 (subf : (⟨S10000x128, .f32⟩ : BufTy).Contents (Elt F) → (⟨S10000x128, .f32⟩ : BufTy).Contents (Elt F) → (⟨S10000x128, .f32⟩ : BufTy).Contents (Elt F)),
    StableHlo.nullary main_cst_1 (constant S_ .f32 0x3727C5AC#32),
    StableHlo.unary main_cst_1 main_v7 (broadcastInDim S128 ![] bcast_S_S128 : (⟨S_, .f32⟩ : BufTy).Contents (Elt F) → (⟨S128, .f32⟩ : BufTy).Contents (Elt F)),
    StableHlo.binary main_v3 main_v7 main_v8 (addf : (⟨S128, .f32⟩ : BufTy).Contents (Elt F) → (⟨S128, .f32⟩ : BufTy).Contents (Elt F) → (⟨S128, .f32⟩ : BufTy).Contents (Elt F)),
    StableHlo.unary main_v8 main_v9 (Host.sqrt : (⟨S128, .f32⟩ : BufTy).Contents (Elt F) → (⟨S128, .f32⟩ : BufTy).Contents (Elt F)),
    StableHlo.unary main_v9 main_v10 (broadcastInDim S1x128 ![1] bcast_S128_S1x128_1 : (⟨S128, .f32⟩ : BufTy).Contents (Elt F) → (⟨S1x128, .f32⟩ : BufTy).Contents (Elt F)),
    StableHlo.unary main_v10 main_v11 (broadcastInDim S10000x128 ![0, 1] bcast_S1x128_S10000x128_0_1 : (⟨S1x128, .f32⟩ : BufTy).Contents (Elt F) → (⟨S10000x128, .f32⟩ : BufTy).Contents (Elt F)),
    StableHlo.binary main_v6 main_v11 main_v12 (Host.divf : (⟨S10000x128, .f32⟩ : BufTy).Contents (Elt F) → (⟨S10000x128, .f32⟩ : BufTy).Contents (Elt F) → (⟨S10000x128, .f32⟩ : BufTy).Contents (Elt F)),
    StableHlo.unary main_arg2 main_v13 (broadcastInDim S1x128 ![1] bcast_S128_S1x128_1 : (⟨S128, .f32⟩ : BufTy).Contents (Elt F) → (⟨S1x128, .f32⟩ : BufTy).Contents (Elt F)),
    StableHlo.unary main_v13 main_v14 (broadcastInDim S10000x128 ![0, 1] bcast_S1x128_S10000x128_0_1 : (⟨S1x128, .f32⟩ : BufTy).Contents (Elt F) → (⟨S10000x128, .f32⟩ : BufTy).Contents (Elt F)),
    StableHlo.binary main_v12 main_v14 main_v15 (mulf : (⟨S10000x128, .f32⟩ : BufTy).Contents (Elt F) → (⟨S10000x128, .f32⟩ : BufTy).Contents (Elt F) → (⟨S10000x128, .f32⟩ : BufTy).Contents (Elt F)),
    StableHlo.unary main_arg3 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S10000x128 ![0, 1] bcast_S1x128_S10000x128_0_1 : (⟨S1x128, .f32⟩ : BufTy).Contents (Elt F) → (⟨S10000x128, .f32⟩ : BufTy).Contents (Elt F)),
    StableHlo.binary main_v15 main_v17 main_v18 (addf : (⟨S10000x128, .f32⟩ : BufTy).Contents (Elt F) → (⟨S10000x128, .f32⟩ : BufTy).Contents (Elt F) → (⟨S10000x128, .f32⟩ : BufTy).Contents (Elt F)) ]

/-- The first propagation step. -/
def opsP1 : List (HloOp τ sig (Elt F)) :=
  [ StableHlo.binary main_arg1 main_v18 main_v19 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    StableHlo.nullary main_cst_2 (constant S_ .f32 0x3F800000#32),
    StableHlo.unary main_cst_2 main_v20 (broadcastInDim S10000x128 ![] bcast_S_S10000x128 : (⟨S_, .f32⟩ : BufTy).Contents (Elt F) → (⟨S10000x128, .f32⟩ : BufTy).Contents (Elt F)),
    StableHlo.binary main_v20 main_v19 main_v21 (mulf : (⟨S10000x128, .f32⟩ : BufTy).Contents (Elt F) → (⟨S10000x128, .f32⟩ : BufTy).Contents (Elt F) → (⟨S10000x128, .f32⟩ : BufTy).Contents (Elt F)),
    StableHlo.nullary main_cst_3 (constant S_ .f32 0x00000000#32),
    StableHlo.unary main_cst_3 main_v22 (broadcastInDim S10000x128 ![] bcast_S_S10000x128 : (⟨S_, .f32⟩ : BufTy).Contents (Elt F) → (⟨S10000x128, .f32⟩ : BufTy).Contents (Elt F)),
    StableHlo.binary main_v22 main_v18 main_v23 (mulf : (⟨S10000x128, .f32⟩ : BufTy).Contents (Elt F) → (⟨S10000x128, .f32⟩ : BufTy).Contents (Elt F) → (⟨S10000x128, .f32⟩ : BufTy).Contents (Elt F)),
    StableHlo.binary main_v21 main_v23 main_v24 (addf : (⟨S10000x128, .f32⟩ : BufTy).Contents (Elt F) → (⟨S10000x128, .f32⟩ : BufTy).Contents (Elt F) → (⟨S10000x128, .f32⟩ : BufTy).Contents (Elt F)) ]

/-- The second propagation step. -/
def opsP2 : List (HloOp τ sig (Elt F)) :=
  [ StableHlo.binary main_arg1 main_v24 main_v25 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    StableHlo.nullary main_cst_4 (constant S_ .f32 0x3F800000#32),
    StableHlo.unary main_cst_4 main_v26 (broadcastInDim S10000x128 ![] bcast_S_S10000x128 : (⟨S_, .f32⟩ : BufTy).Contents (Elt F) → (⟨S10000x128, .f32⟩ : BufTy).Contents (Elt F)),
    StableHlo.binary main_v26 main_v25 main_v27 (mulf : (⟨S10000x128, .f32⟩ : BufTy).Contents (Elt F) → (⟨S10000x128, .f32⟩ : BufTy).Contents (Elt F) → (⟨S10000x128, .f32⟩ : BufTy).Contents (Elt F)),
    StableHlo.nullary main_cst_5 (constant S_ .f32 0x00000000#32),
    StableHlo.unary main_cst_5 main_v28 (broadcastInDim S10000x128 ![] bcast_S_S10000x128 : (⟨S_, .f32⟩ : BufTy).Contents (Elt F) → (⟨S10000x128, .f32⟩ : BufTy).Contents (Elt F)),
    StableHlo.binary main_v28 main_v18 main_v29 (mulf : (⟨S10000x128, .f32⟩ : BufTy).Contents (Elt F) → (⟨S10000x128, .f32⟩ : BufTy).Contents (Elt F) → (⟨S10000x128, .f32⟩ : BufTy).Contents (Elt F)),
    StableHlo.binary main_v27 main_v29 main_v30 (addf : (⟨S10000x128, .f32⟩ : BufTy).Contents (Elt F) → (⟨S10000x128, .f32⟩ : BufTy).Contents (Elt F) → (⟨S10000x128, .f32⟩ : BufTy).Contents (Elt F)) ]

/-- The first dense layer and its activation (the select inlined). -/
def opsD1 : List (HloOp τ sig (Elt F)) :=
  [ StableHlo.binary main_v30 main_arg4 main_v31 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.unary main_arg5 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S10000x128 ![0, 1] bcast_S1x128_S10000x128_0_1 : (⟨S1x128, .f32⟩ : BufTy).Contents (Elt F) → (⟨S10000x128, .f32⟩ : BufTy).Contents (Elt F)),
    StableHlo.binary main_v31 main_v33 main_v34 (addf : (⟨S10000x128, .f32⟩ : BufTy).Contents (Elt F) → (⟨S10000x128, .f32⟩ : BufTy).Contents (Elt F) → (⟨S10000x128, .f32⟩ : BufTy).Contents (Elt F)),
    StableHlo.nullary main_cst_6 (constant S_ .f32 0x00000000#32),
    StableHlo.unary main_cst_6 main_v35 (broadcastInDim S10000x128 ![] bcast_S_S10000x128 : (⟨S_, .f32⟩ : BufTy).Contents (Elt F) → (⟨S10000x128, .f32⟩ : BufTy).Contents (Elt F)),
    StableHlo.binary main_v34 main_v35 main_v36 (cmpf .oge : (⟨S10000x128, .f32⟩ : BufTy).Contents (Elt F) → (⟨S10000x128, .f32⟩ : BufTy).Contents (Elt F) → (⟨S10000x128, .i1⟩ : BufTy).Contents (Elt F)),
    StableHlo.unary main_arg6 main_v37 (broadcastInDim S1x1 ![1] bcast_S1_S1x1_1 : (⟨S1, .f32⟩ : BufTy).Contents (Elt F) → (⟨S1x1, .f32⟩ : BufTy).Contents (Elt F)),
    StableHlo.unary main_v37 main_v38 (broadcastInDim S10000x128 ![0, 1] bcast_S1x1_S10000x128_0_1 : (⟨S1x1, .f32⟩ : BufTy).Contents (Elt F) → (⟨S10000x128, .f32⟩ : BufTy).Contents (Elt F)),
    StableHlo.binary main_v38 main_v34 main_v39 (mulf : (⟨S10000x128, .f32⟩ : BufTy).Contents (Elt F) → (⟨S10000x128, .f32⟩ : BufTy).Contents (Elt F) → (⟨S10000x128, .f32⟩ : BufTy).Contents (Elt F)),
    TRef.ternary (.of main_v36 : TRef sig ⟨S10000x128, .i1⟩) (.of main_v34 : TRef sig ⟨S10000x128, .f32⟩) (.of main_v39 : TRef sig ⟨S10000x128, .f32⟩) main_call1.v0 select ]

/-- The second dense layer and its activation (the select inlined). -/
def opsD2 : List (HloOp τ sig (Elt F)) :=
  [ StableHlo.binary main_v40 main_arg7 main_v41 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.unary main_arg8 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S10000x128 ![0, 1] bcast_S1x128_S10000x128_0_1 : (⟨S1x128, .f32⟩ : BufTy).Contents (Elt F) → (⟨S10000x128, .f32⟩ : BufTy).Contents (Elt F)),
    StableHlo.binary main_v41 main_v43 main_v44 (addf : (⟨S10000x128, .f32⟩ : BufTy).Contents (Elt F) → (⟨S10000x128, .f32⟩ : BufTy).Contents (Elt F) → (⟨S10000x128, .f32⟩ : BufTy).Contents (Elt F)),
    StableHlo.nullary main_cst_7 (constant S_ .f32 0x00000000#32),
    StableHlo.unary main_cst_7 main_v45 (broadcastInDim S10000x128 ![] bcast_S_S10000x128 : (⟨S_, .f32⟩ : BufTy).Contents (Elt F) → (⟨S10000x128, .f32⟩ : BufTy).Contents (Elt F)),
    StableHlo.binary main_v44 main_v45 main_v46 (cmpf .oge : (⟨S10000x128, .f32⟩ : BufTy).Contents (Elt F) → (⟨S10000x128, .f32⟩ : BufTy).Contents (Elt F) → (⟨S10000x128, .i1⟩ : BufTy).Contents (Elt F)),
    StableHlo.unary main_arg9 main_v47 (broadcastInDim S1x1 ![1] bcast_S1_S1x1_1 : (⟨S1, .f32⟩ : BufTy).Contents (Elt F) → (⟨S1x1, .f32⟩ : BufTy).Contents (Elt F)),
    StableHlo.unary main_v47 main_v48 (broadcastInDim S10000x128 ![0, 1] bcast_S1x1_S10000x128_0_1 : (⟨S1x1, .f32⟩ : BufTy).Contents (Elt F) → (⟨S10000x128, .f32⟩ : BufTy).Contents (Elt F)),
    StableHlo.binary main_v48 main_v44 main_v49 (mulf : (⟨S10000x128, .f32⟩ : BufTy).Contents (Elt F) → (⟨S10000x128, .f32⟩ : BufTy).Contents (Elt F) → (⟨S10000x128, .f32⟩ : BufTy).Contents (Elt F)),
    TRef.ternary (.of main_v46 : TRef sig ⟨S10000x128, .i1⟩) (.of main_v44 : TRef sig ⟨S10000x128, .f32⟩) (.of main_v49 : TRef sig ⟨S10000x128, .f32⟩) main_call2.v0 select ]

/-- The last dense layer. -/
def opsLogits : List (HloOp τ sig (Elt F)) :=
  [ StableHlo.binary main_v50 main_arg10 main_v51 ((fun l r => Host.dotGeneral dot_S10000x128_S128x2_S10000x2_1_0_0_1_n_n none l r) : (⟨S10000x128, .f32⟩ : BufTy).Contents (Elt F) → (⟨S128x2, .f32⟩ : BufTy).Contents (Elt F) → (⟨S10000x2, .f32⟩ : BufTy).Contents (Elt F)),
    StableHlo.unary main_arg11 main_v52 (broadcastInDim S1x2 ![1] bcast_S2_S1x2_1 : (⟨S2, .f32⟩ : BufTy).Contents (Elt F) → (⟨S1x2, .f32⟩ : BufTy).Contents (Elt F)),
    StableHlo.unary main_v52 main_v53 (broadcastInDim S10000x2 ![0, 1] bcast_S1x2_S10000x2_0_1 : (⟨S1x2, .f32⟩ : BufTy).Contents (Elt F) → (⟨S10000x2, .f32⟩ : BufTy).Contents (Elt F)),
    StableHlo.binary main_v51 main_v53 main_v54 (addf : (⟨S10000x2, .f32⟩ : BufTy).Contents (Elt F) → (⟨S10000x2, .f32⟩ : BufTy).Contents (Elt F) → (⟨S10000x2, .f32⟩ : BufTy).Contents (Elt F)) ]

/-- The row-wise log-softmax, inlined. -/
def opsLsm : List (HloOp τ sig (Elt F)) :=
  [ TRef.nullary main_call3.cst (constant S_ .f32 0xFF800000#32),
    TRef.binary (.of main_v54 : TRef sig ⟨S10000x2, .f32⟩) main_call3.cst main_call3.v0 (fun x v => Host.reduce FloatOps.maximumf x v reducesTo_S10000x2_S10000_d1 h_S_),
    TRef.nullary main_call3.cst_0 (constant S_ .f32 0xFF800000#32),
    TRef.unary main_call3.cst_0 main_call3.v1 (broadcastInDim S10000 ![] bcast_S_S10000),
    TRef.binary main_call3.v1 main_call3.v0 main_call3.v2 maximumf,
    TRef.unary main_call3.v2 main_call3.v3 (broadcastInDim S10000x1 ![0] bcast_S10000_S10000x1_0),
    TRef.unary main_call3.v3 main_call3.v4 (broadcastInDim S10000x2 ![0, 1] bcast_S10000x1_S10000x2_0_1),
    TRef.binary (.of main_v54 : TRef sig ⟨S10000x2, .f32⟩) main_call3.v4 main_call3.v5 subf,
    TRef.unary main_call3.v5 main_call3.v6 Host.exp,
    TRef.nullary main_call3.cst_1 (constant S_ .f32 0x00000000#32),
    TRef.binary main_call3.v6 main_call3.cst_1 main_call3.v7 (fun x v => Host.reduceAdd x v reducesTo_S10000x2_S10000_d1 h_S_),
    TRef.unary main_call3.v7 main_call3.v8 (broadcastInDim S10000x1 ![0] bcast_S10000_S10000x1_0),
    TRef.unary main_call3.v8 main_call3.v9 Host.log,
    TRef.unary main_call3.v9 main_call3.v10 (broadcastInDim S10000x2 ![0, 1] bcast_S10000x1_S10000x2_0_1),
    TRef.binary main_call3.v5 main_call3.v10 main_call3.v11 subf ]

/-- @main's 101 operations, in order, the calls unfolded. -/
abbrev ops : List (HloOp τ sig (Elt F)) :=
  [ StableHlo.nullary main_cst (constant S_ .f32 0x00000000#32),
    StableHlo.binary main_arg0 main_cst main_v0 ((fun x v => Host.reduceAdd x v reducesTo_S10000x128_S128_d0 h_S_) : (⟨S10000x128, .f32⟩ : BufTy).Contents (Elt F) → (⟨S_, .f32⟩ : BufTy).Contents (Elt F) → (⟨S128, .f32⟩ : BufTy).Contents (Elt F)),
    StableHlo.nullary main_cst_0 (constant S_ .f32 0x461C4000#32),
    StableHlo.unary main_cst_0 main_v1 (broadcastInDim S128 ![] bcast_S_S128 : (⟨S_, .f32⟩ : BufTy).Contents (Elt F) → (⟨S128, .f32⟩ : BufTy).Contents (Elt F)),
    StableHlo.binary main_v0 main_v1 main_v2 (Host.divf : (⟨S128, .f32⟩ : BufTy).Contents (Elt F) → (⟨S128, .f32⟩ : BufTy).Contents (Elt F) → (⟨S128, .f32⟩ : BufTy).Contents (Elt F)),
    StableHlo.nullary main_c (constantI S_ 32 0#32),
    TRef.nullary main_call0.cst (constant S_ .f32 0x00000000#32),
    TRef.binary (.of main_arg0 : TRef sig ⟨S10000x128, .f32⟩) main_call0.cst main_call0.v0 (fun x v => Host.reduceAdd x v reducesTo_S10000x128_S128_d0 h_S_),
    TRef.unary main_call0.v0 main_call0.v1 (broadcastInDim S1x128 ![1] bcast_S128_S1x128_1),
    TRef.nullary main_call0.cst_0 (constant S_ .f32 0x461C4000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S10000x128 ![0, 1] bcast_S1x128_S10000x128_0_1),
    TRef.binary (.of main_arg0 : TRef sig ⟨S10000x128, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x461C4000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S10000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    StableHlo.unary main_v2 main_v4 (broadcastInDim S1x128 ![1] bcast_S128_S1x128_1 : (⟨S128, .f32⟩ : BufTy).Contents (Elt F) → (⟨S1x128, .f32⟩ : BufTy).Contents (Elt F)),
    StableHlo.unary main_v4 main_v5 (broadcastInDim S10000x128 ![0, 1] bcast_S1x128_S10000x128_0_1 : (⟨S1x128, .f32⟩ : BufTy).Contents (Elt F) → (⟨S10000x128, .f32⟩ : BufTy).Contents (Elt F)),
    StableHlo.binary main_arg0 main_v5 main_v6 (subf : (⟨S10000x128, .f32⟩ : BufTy).Contents (Elt F) → (⟨S10000x128, .f32⟩ : BufTy).Contents (Elt F) → (⟨S10000x128, .f32⟩ : BufTy).Contents (Elt F)),
    StableHlo.nullary main_cst_1 (constant S_ .f32 0x3727C5AC#32),
    StableHlo.unary main_cst_1 main_v7 (broadcastInDim S128 ![] bcast_S_S128 : (⟨S_, .f32⟩ : BufTy).Contents (Elt F) → (⟨S128, .f32⟩ : BufTy).Contents (Elt F)),
    StableHlo.binary main_v3 main_v7 main_v8 (addf : (⟨S128, .f32⟩ : BufTy).Contents (Elt F) → (⟨S128, .f32⟩ : BufTy).Contents (Elt F) → (⟨S128, .f32⟩ : BufTy).Contents (Elt F)),
    StableHlo.unary main_v8 main_v9 (Host.sqrt : (⟨S128, .f32⟩ : BufTy).Contents (Elt F) → (⟨S128, .f32⟩ : BufTy).Contents (Elt F)),
    StableHlo.unary main_v9 main_v10 (broadcastInDim S1x128 ![1] bcast_S128_S1x128_1 : (⟨S128, .f32⟩ : BufTy).Contents (Elt F) → (⟨S1x128, .f32⟩ : BufTy).Contents (Elt F)),
    StableHlo.unary main_v10 main_v11 (broadcastInDim S10000x128 ![0, 1] bcast_S1x128_S10000x128_0_1 : (⟨S1x128, .f32⟩ : BufTy).Contents (Elt F) → (⟨S10000x128, .f32⟩ : BufTy).Contents (Elt F)),
    StableHlo.binary main_v6 main_v11 main_v12 (Host.divf : (⟨S10000x128, .f32⟩ : BufTy).Contents (Elt F) → (⟨S10000x128, .f32⟩ : BufTy).Contents (Elt F) → (⟨S10000x128, .f32⟩ : BufTy).Contents (Elt F)),
    StableHlo.unary main_arg2 main_v13 (broadcastInDim S1x128 ![1] bcast_S128_S1x128_1 : (⟨S128, .f32⟩ : BufTy).Contents (Elt F) → (⟨S1x128, .f32⟩ : BufTy).Contents (Elt F)),
    StableHlo.unary main_v13 main_v14 (broadcastInDim S10000x128 ![0, 1] bcast_S1x128_S10000x128_0_1 : (⟨S1x128, .f32⟩ : BufTy).Contents (Elt F) → (⟨S10000x128, .f32⟩ : BufTy).Contents (Elt F)),
    StableHlo.binary main_v12 main_v14 main_v15 (mulf : (⟨S10000x128, .f32⟩ : BufTy).Contents (Elt F) → (⟨S10000x128, .f32⟩ : BufTy).Contents (Elt F) → (⟨S10000x128, .f32⟩ : BufTy).Contents (Elt F)),
    StableHlo.unary main_arg3 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S10000x128 ![0, 1] bcast_S1x128_S10000x128_0_1 : (⟨S1x128, .f32⟩ : BufTy).Contents (Elt F) → (⟨S10000x128, .f32⟩ : BufTy).Contents (Elt F)),
    StableHlo.binary main_v15 main_v17 main_v18 (addf : (⟨S10000x128, .f32⟩ : BufTy).Contents (Elt F) → (⟨S10000x128, .f32⟩ : BufTy).Contents (Elt F) → (⟨S10000x128, .f32⟩ : BufTy).Contents (Elt F)),
    StableHlo.binary main_arg1 main_v18 main_v19 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    StableHlo.nullary main_cst_2 (constant S_ .f32 0x3F800000#32),
    StableHlo.unary main_cst_2 main_v20 (broadcastInDim S10000x128 ![] bcast_S_S10000x128 : (⟨S_, .f32⟩ : BufTy).Contents (Elt F) → (⟨S10000x128, .f32⟩ : BufTy).Contents (Elt F)),
    StableHlo.binary main_v20 main_v19 main_v21 (mulf : (⟨S10000x128, .f32⟩ : BufTy).Contents (Elt F) → (⟨S10000x128, .f32⟩ : BufTy).Contents (Elt F) → (⟨S10000x128, .f32⟩ : BufTy).Contents (Elt F)),
    StableHlo.nullary main_cst_3 (constant S_ .f32 0x00000000#32),
    StableHlo.unary main_cst_3 main_v22 (broadcastInDim S10000x128 ![] bcast_S_S10000x128 : (⟨S_, .f32⟩ : BufTy).Contents (Elt F) → (⟨S10000x128, .f32⟩ : BufTy).Contents (Elt F)),
    StableHlo.binary main_v22 main_v18 main_v23 (mulf : (⟨S10000x128, .f32⟩ : BufTy).Contents (Elt F) → (⟨S10000x128, .f32⟩ : BufTy).Contents (Elt F) → (⟨S10000x128, .f32⟩ : BufTy).Contents (Elt F)),
    StableHlo.binary main_v21 main_v23 main_v24 (addf : (⟨S10000x128, .f32⟩ : BufTy).Contents (Elt F) → (⟨S10000x128, .f32⟩ : BufTy).Contents (Elt F) → (⟨S10000x128, .f32⟩ : BufTy).Contents (Elt F)),
    StableHlo.binary main_arg1 main_v24 main_v25 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    StableHlo.nullary main_cst_4 (constant S_ .f32 0x3F800000#32),
    StableHlo.unary main_cst_4 main_v26 (broadcastInDim S10000x128 ![] bcast_S_S10000x128 : (⟨S_, .f32⟩ : BufTy).Contents (Elt F) → (⟨S10000x128, .f32⟩ : BufTy).Contents (Elt F)),
    StableHlo.binary main_v26 main_v25 main_v27 (mulf : (⟨S10000x128, .f32⟩ : BufTy).Contents (Elt F) → (⟨S10000x128, .f32⟩ : BufTy).Contents (Elt F) → (⟨S10000x128, .f32⟩ : BufTy).Contents (Elt F)),
    StableHlo.nullary main_cst_5 (constant S_ .f32 0x00000000#32),
    StableHlo.unary main_cst_5 main_v28 (broadcastInDim S10000x128 ![] bcast_S_S10000x128 : (⟨S_, .f32⟩ : BufTy).Contents (Elt F) → (⟨S10000x128, .f32⟩ : BufTy).Contents (Elt F)),
    StableHlo.binary main_v28 main_v18 main_v29 (mulf : (⟨S10000x128, .f32⟩ : BufTy).Contents (Elt F) → (⟨S10000x128, .f32⟩ : BufTy).Contents (Elt F) → (⟨S10000x128, .f32⟩ : BufTy).Contents (Elt F)),
    StableHlo.binary main_v27 main_v29 main_v30 (addf : (⟨S10000x128, .f32⟩ : BufTy).Contents (Elt F) → (⟨S10000x128, .f32⟩ : BufTy).Contents (Elt F) → (⟨S10000x128, .f32⟩ : BufTy).Contents (Elt F)),
    StableHlo.binary main_v30 main_arg4 main_v31 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.unary main_arg5 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S10000x128 ![0, 1] bcast_S1x128_S10000x128_0_1 : (⟨S1x128, .f32⟩ : BufTy).Contents (Elt F) → (⟨S10000x128, .f32⟩ : BufTy).Contents (Elt F)),
    StableHlo.binary main_v31 main_v33 main_v34 (addf : (⟨S10000x128, .f32⟩ : BufTy).Contents (Elt F) → (⟨S10000x128, .f32⟩ : BufTy).Contents (Elt F) → (⟨S10000x128, .f32⟩ : BufTy).Contents (Elt F)),
    StableHlo.nullary main_cst_6 (constant S_ .f32 0x00000000#32),
    StableHlo.unary main_cst_6 main_v35 (broadcastInDim S10000x128 ![] bcast_S_S10000x128 : (⟨S_, .f32⟩ : BufTy).Contents (Elt F) → (⟨S10000x128, .f32⟩ : BufTy).Contents (Elt F)),
    StableHlo.binary main_v34 main_v35 main_v36 (cmpf .oge : (⟨S10000x128, .f32⟩ : BufTy).Contents (Elt F) → (⟨S10000x128, .f32⟩ : BufTy).Contents (Elt F) → (⟨S10000x128, .i1⟩ : BufTy).Contents (Elt F)),
    StableHlo.unary main_arg6 main_v37 (broadcastInDim S1x1 ![1] bcast_S1_S1x1_1 : (⟨S1, .f32⟩ : BufTy).Contents (Elt F) → (⟨S1x1, .f32⟩ : BufTy).Contents (Elt F)),
    StableHlo.unary main_v37 main_v38 (broadcastInDim S10000x128 ![0, 1] bcast_S1x1_S10000x128_0_1 : (⟨S1x1, .f32⟩ : BufTy).Contents (Elt F) → (⟨S10000x128, .f32⟩ : BufTy).Contents (Elt F)),
    StableHlo.binary main_v38 main_v34 main_v39 (mulf : (⟨S10000x128, .f32⟩ : BufTy).Contents (Elt F) → (⟨S10000x128, .f32⟩ : BufTy).Contents (Elt F) → (⟨S10000x128, .f32⟩ : BufTy).Contents (Elt F)),
    TRef.ternary (.of main_v36 : TRef sig ⟨S10000x128, .i1⟩) (.of main_v34 : TRef sig ⟨S10000x128, .f32⟩) (.of main_v39 : TRef sig ⟨S10000x128, .f32⟩) main_call1.v0 select,
    StableHlo.binary main_v40 main_arg7 main_v41 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.unary main_arg8 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S10000x128 ![0, 1] bcast_S1x128_S10000x128_0_1 : (⟨S1x128, .f32⟩ : BufTy).Contents (Elt F) → (⟨S10000x128, .f32⟩ : BufTy).Contents (Elt F)),
    StableHlo.binary main_v41 main_v43 main_v44 (addf : (⟨S10000x128, .f32⟩ : BufTy).Contents (Elt F) → (⟨S10000x128, .f32⟩ : BufTy).Contents (Elt F) → (⟨S10000x128, .f32⟩ : BufTy).Contents (Elt F)),
    StableHlo.nullary main_cst_7 (constant S_ .f32 0x00000000#32),
    StableHlo.unary main_cst_7 main_v45 (broadcastInDim S10000x128 ![] bcast_S_S10000x128 : (⟨S_, .f32⟩ : BufTy).Contents (Elt F) → (⟨S10000x128, .f32⟩ : BufTy).Contents (Elt F)),
    StableHlo.binary main_v44 main_v45 main_v46 (cmpf .oge : (⟨S10000x128, .f32⟩ : BufTy).Contents (Elt F) → (⟨S10000x128, .f32⟩ : BufTy).Contents (Elt F) → (⟨S10000x128, .i1⟩ : BufTy).Contents (Elt F)),
    StableHlo.unary main_arg9 main_v47 (broadcastInDim S1x1 ![1] bcast_S1_S1x1_1 : (⟨S1, .f32⟩ : BufTy).Contents (Elt F) → (⟨S1x1, .f32⟩ : BufTy).Contents (Elt F)),
    StableHlo.unary main_v47 main_v48 (broadcastInDim S10000x128 ![0, 1] bcast_S1x1_S10000x128_0_1 : (⟨S1x1, .f32⟩ : BufTy).Contents (Elt F) → (⟨S10000x128, .f32⟩ : BufTy).Contents (Elt F)),
    StableHlo.binary main_v48 main_v44 main_v49 (mulf : (⟨S10000x128, .f32⟩ : BufTy).Contents (Elt F) → (⟨S10000x128, .f32⟩ : BufTy).Contents (Elt F) → (⟨S10000x128, .f32⟩ : BufTy).Contents (Elt F)),
    TRef.ternary (.of main_v46 : TRef sig ⟨S10000x128, .i1⟩) (.of main_v44 : TRef sig ⟨S10000x128, .f32⟩) (.of main_v49 : TRef sig ⟨S10000x128, .f32⟩) main_call2.v0 select,
    StableHlo.binary main_v50 main_arg10 main_v51 ((fun l r => Host.dotGeneral dot_S10000x128_S128x2_S10000x2_1_0_0_1_n_n none l r) : (⟨S10000x128, .f32⟩ : BufTy).Contents (Elt F) → (⟨S128x2, .f32⟩ : BufTy).Contents (Elt F) → (⟨S10000x2, .f32⟩ : BufTy).Contents (Elt F)),
    StableHlo.unary main_arg11 main_v52 (broadcastInDim S1x2 ![1] bcast_S2_S1x2_1 : (⟨S2, .f32⟩ : BufTy).Contents (Elt F) → (⟨S1x2, .f32⟩ : BufTy).Contents (Elt F)),
    StableHlo.unary main_v52 main_v53 (broadcastInDim S10000x2 ![0, 1] bcast_S1x2_S10000x2_0_1 : (⟨S1x2, .f32⟩ : BufTy).Contents (Elt F) → (⟨S10000x2, .f32⟩ : BufTy).Contents (Elt F)),
    StableHlo.binary main_v51 main_v53 main_v54 (addf : (⟨S10000x2, .f32⟩ : BufTy).Contents (Elt F) → (⟨S10000x2, .f32⟩ : BufTy).Contents (Elt F) → (⟨S10000x2, .f32⟩ : BufTy).Contents (Elt F)),
    TRef.nullary main_call3.cst (constant S_ .f32 0xFF800000#32),
    TRef.binary (.of main_v54 : TRef sig ⟨S10000x2, .f32⟩) main_call3.cst main_call3.v0 (fun x v => Host.reduce FloatOps.maximumf x v reducesTo_S10000x2_S10000_d1 h_S_),
    TRef.nullary main_call3.cst_0 (constant S_ .f32 0xFF800000#32),
    TRef.unary main_call3.cst_0 main_call3.v1 (broadcastInDim S10000 ![] bcast_S_S10000),
    TRef.binary main_call3.v1 main_call3.v0 main_call3.v2 maximumf,
    TRef.unary main_call3.v2 main_call3.v3 (broadcastInDim S10000x1 ![0] bcast_S10000_S10000x1_0),
    TRef.unary main_call3.v3 main_call3.v4 (broadcastInDim S10000x2 ![0, 1] bcast_S10000x1_S10000x2_0_1),
    TRef.binary (.of main_v54 : TRef sig ⟨S10000x2, .f32⟩) main_call3.v4 main_call3.v5 subf,
    TRef.unary main_call3.v5 main_call3.v6 Host.exp,
    TRef.nullary main_call3.cst_1 (constant S_ .f32 0x00000000#32),
    TRef.binary main_call3.v6 main_call3.cst_1 main_call3.v7 (fun x v => Host.reduceAdd x v reducesTo_S10000x2_S10000_d1 h_S_),
    TRef.unary main_call3.v7 main_call3.v8 (broadcastInDim S10000x1 ![0] bcast_S10000_S10000x1_0),
    TRef.unary main_call3.v8 main_call3.v9 Host.log,
    TRef.unary main_call3.v9 main_call3.v10 (broadcastInDim S10000x2 ![0, 1] bcast_S10000x1_S10000x2_0_1),
    TRef.binary main_call3.v5 main_call3.v10 main_call3.v11 subf ]

/-- The line is its eight stages, one after the other. -/
theorem ops_eq : (ops : List (HloOp τ sig (Elt F))) = opsStat ++ (opsNorm ++ (opsP1 ++ (opsP2 ++ (opsD1 ++ (opsD2 ++ (opsLogits ++ (opsLsm))))))) := rfl

/-! ## The program is that line -/

-- one hundred and one binds re-associated: the rewriting under the chain recurses once per statement
set_option maxRecDepth 8192 in
set_option maxHeartbeats 4000000 in
/-- @main is the straight line: the two windows and the four functions unfolded at their calls, both sides are one
    chain of operation steps once sequencing is re-associated. -/
theorem main_eq (c : Dev nD) : main (F := F) c = seq ops := by
  simp only [main, main_part0, main_part1, fn_var.body, fn_where.body, fn_where_0.body, fn_log_softmax.body, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore references only. -/
theorem ops_sub : (ops : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-! ## What each stage writes, and that it keeps the rest -/

/-- The buffers stage `opsStat` writes. -/
abbrev opsStat_W : List (Ref sig .tc) := [main_cst, main_v0, main_cst_0, main_v1, main_v2, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v3]
theorem opsStat_writes : (opsStat : List (HloOp τ sig (Elt F))).Forall fun op => op.writes ⊆ (opsStat_W.map (Proc.devRef (τ := τ) .tc)).toFinset := by
  unfold opsStat
  exact ⟨writes_sub main_cst rfl (by decide),
    writes_sub main_v0 rfl (by decide),
    writes_sub main_cst_0 rfl (by decide),
    writes_sub main_v1 rfl (by decide),
    writes_sub main_v2 rfl (by decide),
    writes_sub main_c rfl (by decide),
    writes_sub main_call0_cst rfl (by decide),
    writes_sub main_call0_v0 rfl (by decide),
    writes_sub main_call0_v1 rfl (by decide),
    writes_sub main_call0_cst_0 rfl (by decide),
    writes_sub main_call0_v2 rfl (by decide),
    writes_sub main_call0_v3 rfl (by decide),
    writes_sub main_call0_v4 rfl (by decide),
    writes_sub main_call0_v5 rfl (by decide),
    writes_sub main_call0_v6 rfl (by decide),
    writes_sub main_call0_v7 rfl (by decide),
    writes_sub main_call0_cst_1 rfl (by decide),
    writes_sub main_call0_v8 rfl (by decide),
    writes_sub main_call0_cst_2 rfl (by decide),
    writes_sub main_call0_v9 rfl (by decide),
    writes_sub main_call0_v10 rfl (by decide),
    writes_sub main_call0_v11 rfl (by decide),
    writes_sub main_call0_cst_3 rfl (by decide),
    writes_sub main_call0_v12 rfl (by decide),
    writes_sub main_call0_cst_4 rfl (by decide),
    writes_sub main_call0_call0_v0 rfl (by decide),
    writes_sub main_call0_call0_v1 rfl (by decide),
    writes_sub main_v3 rfl (by decide)⟩
/-- A buffer stage `opsStat` does not write keeps its contents through it. -/
theorem opsStat_keep (V : Valuation τ sig (Elt F)) {r : Ref sig .tc} (h : r ∉ opsStat_W) :
    after (opsStat (F := F)) V (no_index (Proc.devRef .tc r)) = V (Proc.devRef .tc r) :=
  after_of_writes_sub opsStat V opsStat_writes h

/-- The buffers stage `opsNorm` writes. -/
abbrev opsNorm_W : List (Ref sig .tc) := [main_v4, main_v5, main_v6, main_cst_1, main_v7, main_v8, main_v9, main_v10, main_v11, main_v12, main_v13, main_v14, main_v15, main_v16, main_v17, main_v18]
theorem opsNorm_writes : (opsNorm : List (HloOp τ sig (Elt F))).Forall fun op => op.writes ⊆ (opsNorm_W.map (Proc.devRef (τ := τ) .tc)).toFinset := by
  unfold opsNorm
  exact ⟨writes_sub main_v4 rfl (by decide),
    writes_sub main_v5 rfl (by decide),
    writes_sub main_v6 rfl (by decide),
    writes_sub main_cst_1 rfl (by decide),
    writes_sub main_v7 rfl (by decide),
    writes_sub main_v8 rfl (by decide),
    writes_sub main_v9 rfl (by decide),
    writes_sub main_v10 rfl (by decide),
    writes_sub main_v11 rfl (by decide),
    writes_sub main_v12 rfl (by decide),
    writes_sub main_v13 rfl (by decide),
    writes_sub main_v14 rfl (by decide),
    writes_sub main_v15 rfl (by decide),
    writes_sub main_v16 rfl (by decide),
    writes_sub main_v17 rfl (by decide),
    writes_sub main_v18 rfl (by decide)⟩
/-- A buffer stage `opsNorm` does not write keeps its contents through it. -/
theorem opsNorm_keep (V : Valuation τ sig (Elt F)) {r : Ref sig .tc} (h : r ∉ opsNorm_W) :
    after (opsNorm (F := F)) V (no_index (Proc.devRef .tc r)) = V (Proc.devRef .tc r) :=
  after_of_writes_sub opsNorm V opsNorm_writes h

/-- The buffers stage `opsP1` writes. -/
abbrev opsP1_W : List (Ref sig .tc) := [main_v19, main_cst_2, main_v20, main_v21, main_cst_3, main_v22, main_v23, main_v24]
theorem opsP1_writes : (opsP1 : List (HloOp τ sig (Elt F))).Forall fun op => op.writes ⊆ (opsP1_W.map (Proc.devRef (τ := τ) .tc)).toFinset := by
  unfold opsP1
  exact ⟨writes_sub main_v19 rfl (by decide),
    writes_sub main_cst_2 rfl (by decide),
    writes_sub main_v20 rfl (by decide),
    writes_sub main_v21 rfl (by decide),
    writes_sub main_cst_3 rfl (by decide),
    writes_sub main_v22 rfl (by decide),
    writes_sub main_v23 rfl (by decide),
    writes_sub main_v24 rfl (by decide)⟩
/-- A buffer stage `opsP1` does not write keeps its contents through it. -/
theorem opsP1_keep (V : Valuation τ sig (Elt F)) {r : Ref sig .tc} (h : r ∉ opsP1_W) :
    after (opsP1 (F := F)) V (no_index (Proc.devRef .tc r)) = V (Proc.devRef .tc r) :=
  after_of_writes_sub opsP1 V opsP1_writes h

/-- The buffers stage `opsP2` writes. -/
abbrev opsP2_W : List (Ref sig .tc) := [main_v25, main_cst_4, main_v26, main_v27, main_cst_5, main_v28, main_v29, main_v30]
theorem opsP2_writes : (opsP2 : List (HloOp τ sig (Elt F))).Forall fun op => op.writes ⊆ (opsP2_W.map (Proc.devRef (τ := τ) .tc)).toFinset := by
  unfold opsP2
  exact ⟨writes_sub main_v25 rfl (by decide),
    writes_sub main_cst_4 rfl (by decide),
    writes_sub main_v26 rfl (by decide),
    writes_sub main_v27 rfl (by decide),
    writes_sub main_cst_5 rfl (by decide),
    writes_sub main_v28 rfl (by decide),
    writes_sub main_v29 rfl (by decide),
    writes_sub main_v30 rfl (by decide)⟩
/-- A buffer stage `opsP2` does not write keeps its contents through it. -/
theorem opsP2_keep (V : Valuation τ sig (Elt F)) {r : Ref sig .tc} (h : r ∉ opsP2_W) :
    after (opsP2 (F := F)) V (no_index (Proc.devRef .tc r)) = V (Proc.devRef .tc r) :=
  after_of_writes_sub opsP2 V opsP2_writes h

/-- The buffers stage `opsD1` writes. -/
abbrev opsD1_W : List (Ref sig .tc) := [main_v31, main_v32, main_v33, main_v34, main_cst_6, main_v35, main_v36, main_v37, main_v38, main_v39, main_v40]
theorem opsD1_writes : (opsD1 : List (HloOp τ sig (Elt F))).Forall fun op => op.writes ⊆ (opsD1_W.map (Proc.devRef (τ := τ) .tc)).toFinset := by
  unfold opsD1
  exact ⟨writes_sub main_v31 rfl (by decide),
    writes_sub main_v32 rfl (by decide),
    writes_sub main_v33 rfl (by decide),
    writes_sub main_v34 rfl (by decide),
    writes_sub main_cst_6 rfl (by decide),
    writes_sub main_v35 rfl (by decide),
    writes_sub main_v36 rfl (by decide),
    writes_sub main_v37 rfl (by decide),
    writes_sub main_v38 rfl (by decide),
    writes_sub main_v39 rfl (by decide),
    writes_sub main_v40 rfl (by decide)⟩
/-- A buffer stage `opsD1` does not write keeps its contents through it. -/
theorem opsD1_keep (V : Valuation τ sig (Elt F)) {r : Ref sig .tc} (h : r ∉ opsD1_W) :
    after (opsD1 (F := F)) V (no_index (Proc.devRef .tc r)) = V (Proc.devRef .tc r) :=
  after_of_writes_sub opsD1 V opsD1_writes h

/-- The buffers stage `opsD2` writes. -/
abbrev opsD2_W : List (Ref sig .tc) := [main_v41, main_v42, main_v43, main_v44, main_cst_7, main_v45, main_v46, main_v47, main_v48, main_v49, main_v50]
theorem opsD2_writes : (opsD2 : List (HloOp τ sig (Elt F))).Forall fun op => op.writes ⊆ (opsD2_W.map (Proc.devRef (τ := τ) .tc)).toFinset := by
  unfold opsD2
  exact ⟨writes_sub main_v41 rfl (by decide),
    writes_sub main_v42 rfl (by decide),
    writes_sub main_v43 rfl (by decide),
    writes_sub main_v44 rfl (by decide),
    writes_sub main_cst_7 rfl (by decide),
    writes_sub main_v45 rfl (by decide),
    writes_sub main_v46 rfl (by decide),
    writes_sub main_v47 rfl (by decide),
    writes_sub main_v48 rfl (by decide),
    writes_sub main_v49 rfl (by decide),
    writes_sub main_v50 rfl (by decide)⟩
/-- A buffer stage `opsD2` does not write keeps its contents through it. -/
theorem opsD2_keep (V : Valuation τ sig (Elt F)) {r : Ref sig .tc} (h : r ∉ opsD2_W) :
    after (opsD2 (F := F)) V (no_index (Proc.devRef .tc r)) = V (Proc.devRef .tc r) :=
  after_of_writes_sub opsD2 V opsD2_writes h

/-- The buffers stage `opsLogits` writes. -/
abbrev opsLogits_W : List (Ref sig .tc) := [main_v51, main_v52, main_v53, main_v54]
theorem opsLogits_writes : (opsLogits : List (HloOp τ sig (Elt F))).Forall fun op => op.writes ⊆ (opsLogits_W.map (Proc.devRef (τ := τ) .tc)).toFinset := by
  unfold opsLogits
  exact ⟨writes_sub main_v51 rfl (by decide),
    writes_sub main_v52 rfl (by decide),
    writes_sub main_v53 rfl (by decide),
    writes_sub main_v54 rfl (by decide)⟩
/-- A buffer stage `opsLogits` does not write keeps its contents through it. -/
theorem opsLogits_keep (V : Valuation τ sig (Elt F)) {r : Ref sig .tc} (h : r ∉ opsLogits_W) :
    after (opsLogits (F := F)) V (no_index (Proc.devRef .tc r)) = V (Proc.devRef .tc r) :=
  after_of_writes_sub opsLogits V opsLogits_writes h

/-- The buffers stage `opsLsm` writes. -/
abbrev opsLsm_W : List (Ref sig .tc) := [main_call3_cst, main_call3_v0, main_call3_cst_0, main_call3_v1, main_call3_v2, main_call3_v3, main_call3_v4, main_call3_v5, main_call3_v6, main_call3_cst_1, main_call3_v7, main_call3_v8, main_call3_v9, main_call3_v10, main_v55]
theorem opsLsm_writes : (opsLsm : List (HloOp τ sig (Elt F))).Forall fun op => op.writes ⊆ (opsLsm_W.map (Proc.devRef (τ := τ) .tc)).toFinset := by
  unfold opsLsm
  exact ⟨writes_sub main_call3_cst rfl (by decide),
    writes_sub main_call3_v0 rfl (by decide),
    writes_sub main_call3_cst_0 rfl (by decide),
    writes_sub main_call3_v1 rfl (by decide),
    writes_sub main_call3_v2 rfl (by decide),
    writes_sub main_call3_v3 rfl (by decide),
    writes_sub main_call3_v4 rfl (by decide),
    writes_sub main_call3_v5 rfl (by decide),
    writes_sub main_call3_v6 rfl (by decide),
    writes_sub main_call3_cst_1 rfl (by decide),
    writes_sub main_call3_v7 rfl (by decide),
    writes_sub main_call3_v8 rfl (by decide),
    writes_sub main_call3_v9 rfl (by decide),
    writes_sub main_call3_v10 rfl (by decide),
    writes_sub main_v55 rfl (by decide)⟩
/-- A buffer stage `opsLsm` does not write keeps its contents through it. -/
theorem opsLsm_keep (V : Valuation τ sig (Elt F)) {r : Ref sig .tc} (h : r ∉ opsLsm_W) :
    after (opsLsm (F := F)) V (no_index (Proc.devRef .tc r)) = V (Proc.devRef .tc r) :=
  after_of_writes_sub opsLsm V opsLsm_writes h

/-! ## What each stage leaves at its result -/

/-- The normalization over given means and variances. -/
def refNorm (x : FVec Ideal S10000x128 .f32) (mu var g b : FVec Ideal S128 .f32) : FVec Ideal S10000x128 .f32 :=
  addf
    (mulf
      (Host.divf (subf x (broadcastInDim S10000x128 ![0, 1] bcast_S1x128_S10000x128_0_1 (broadcastInDim S1x128 ![1] bcast_S128_S1x128_1 mu)))
        (broadcastInDim S10000x128 ![0, 1] bcast_S1x128_S10000x128_0_1 (broadcastInDim S1x128 ![1] bcast_S128_S1x128_1 (Host.sqrt (addf var (broadcastInDim S128 ![] bcast_S_S128 (constant (F := Ideal) S_ .f32 0x3727C5AC#32)))))))
      (broadcastInDim S10000x128 ![0, 1] bcast_S1x128_S10000x128_0_1 (broadcastInDim S1x128 ![1] bcast_S128_S1x128_1 g)))
    (broadcastInDim S10000x128 ![0, 1] bcast_S1x128_S10000x128_0_1 (broadcastInDim S1x128 ![1] bcast_S128_S1x128_1 b))

theorem refBn_eq (x : FVec Ideal S10000x128 .f32) (g b : FVec Ideal S128 .f32) :
    refBn x g b = refNorm x (refMean x) (refVar x) g b := rfl

set_option maxRecDepth 8192 in
theorem stat_mean (V : Valuation τ sig (Elt Ideal)) :
    after (opsStat (F := Ideal)) V (no_index (Proc.devRef .tc main_v2)) = refMean (V (Proc.devRef .tc main_arg0)) := by
  unfold opsStat
  after_results_simp <;> rfl

set_option maxRecDepth 8192 in
theorem stat_var (V : Valuation τ sig (Elt Ideal)) :
    after (opsStat (F := Ideal)) V (no_index (Proc.devRef .tc main_v3)) = refVar (V (Proc.devRef .tc main_arg0)) := by
  unfold opsStat
  after_results_simp <;> rfl

set_option maxRecDepth 8192 in
theorem norm_val (V : Valuation τ sig (Elt Ideal)) :
    after (opsNorm (F := Ideal)) V (no_index (Proc.devRef .tc main_v18)) = refNorm (V (Proc.devRef .tc main_arg0)) (V (Proc.devRef .tc main_v2)) (V (Proc.devRef .tc main_v3)) (V (Proc.devRef .tc main_arg2)) (V (Proc.devRef .tc main_arg3)) := by
  unfold opsNorm
  after_results_simp <;> rfl

theorem p1_val (V : Valuation τ sig (Elt Ideal)) :
    after (opsP1 (F := Ideal)) V (no_index (Proc.devRef .tc main_v24)) = refProp (V (Proc.devRef .tc main_arg1)) (V (Proc.devRef .tc main_v18)) (V (Proc.devRef .tc main_v18)) := by
  unfold opsP1
  after_results_simp <;> rfl

theorem p2_val (V : Valuation τ sig (Elt Ideal)) :
    after (opsP2 (F := Ideal)) V (no_index (Proc.devRef .tc main_v30)) = refProp (V (Proc.devRef .tc main_arg1)) (V (Proc.devRef .tc main_v24)) (V (Proc.devRef .tc main_v18)) := by
  unfold opsP2
  after_results_simp <;> rfl

theorem d1_val (V : Valuation τ sig (Elt Ideal)) :
    after (opsD1 (F := Ideal)) V (no_index (Proc.devRef .tc main_v40)) = refDense (V (Proc.devRef .tc main_v30)) (V (Proc.devRef .tc main_arg4)) (V (Proc.devRef .tc main_arg5)) (V (Proc.devRef .tc main_arg6)) := by
  unfold opsD1
  after_results_simp <;> rfl

theorem d2_val (V : Valuation τ sig (Elt Ideal)) :
    after (opsD2 (F := Ideal)) V (no_index (Proc.devRef .tc main_v50)) = refDense (V (Proc.devRef .tc main_v40)) (V (Proc.devRef .tc main_arg7)) (V (Proc.devRef .tc main_arg8)) (V (Proc.devRef .tc main_arg9)) := by
  unfold opsD2
  after_results_simp <;> rfl

theorem logits_val (V : Valuation τ sig (Elt Ideal)) :
    after (opsLogits (F := Ideal)) V (no_index (Proc.devRef .tc main_v54)) = refLogits (V (Proc.devRef .tc main_v50)) (V (Proc.devRef .tc main_arg10)) (V (Proc.devRef .tc main_arg11)) := by
  unfold opsLogits
  after_results_simp <;> rfl

-- the row maximum, the sum and the shape operations stay folded: the two sides differ only by the typed references'
-- transports, the identity at these literal references
attribute [local irreducible] Host.reduce Host.reduceAdd Host.exp Host.log broadcastInDim maximumf subf constant in
set_option maxRecDepth 8192 in
theorem lsm_val (V : Valuation τ sig (Elt Ideal)) :
    after (opsLsm (F := Ideal)) V (no_index (Proc.devRef .tc main_v55)) = refLogSoftmax (V (Proc.devRef .tc main_v54)) := by
  unfold opsLsm
  after_results_simp
  rfl

/-! ## The whole line -/

/-- The result buffer after the line: `refOut` of the arguments' contents. -/
theorem out_eq (V : Valuation τ sig (Elt Ideal)) :
    after (ops (F := Ideal)) V (Proc.devRef .tc main_v55)
      = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [ops_eq]
  simp only [after_append]
  simp (disch := decide) only [lsm_val, logits_val, d2_val, d1_val, p2_val, p1_val, norm_val, stat_mean, stat_var, opsStat_keep, opsNorm_keep, opsP1_keep, opsP2_keep, opsD1_keep, opsD2_keep, opsLogits_keep, opsLsm_keep]
  rfl

/-- An argument's buffer after the line: unchanged (no operation writes it). -/
theorem arg_eq (V : Valuation τ sig (Elt Ideal)) {r : Ref sig .tc}
    (h0 : r ∉ opsStat_W) (h1 : r ∉ opsNorm_W) (h2 : r ∉ opsP1_W) (h3 : r ∉ opsP2_W) (h4 : r ∉ opsD1_W) (h5 : r ∉ opsD2_W) (h6 : r ∉ opsLogits_W) (h7 : r ∉ opsLsm_W) :
    after (ops (F := Ideal)) V (Proc.devRef .tc r) = V (Proc.devRef .tc r) := by
  rw [ops_eq]
  simp only [after_append]
  rw [opsLsm_keep _ h7, opsLogits_keep _ h6, opsD2_keep _ h5, opsD1_keep _ h4, opsP2_keep _ h3, opsP1_keep _ h2, opsNorm_keep _ h1, opsStat_keep _ h0]

/-- At the compiled mesh, from any memory with zero counters: every weakly fair execution of @main terminates with
    the result at `refOut` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v55) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c main_v55).trans (out_eq (launchContents m c)),
      (h c main_arg0).trans (arg_eq (launchContents m c) (by decide) (by decide) (by decide) (by decide) (by decide) (by decide) (by decide) (by decide)),
      (h c main_arg1).trans (arg_eq (launchContents m c) (by decide) (by decide) (by decide) (by decide) (by decide) (by decide) (by decide) (by decide)),
      (h c main_arg2).trans (arg_eq (launchContents m c) (by decide) (by decide) (by decide) (by decide) (by decide) (by decide) (by decide) (by decide)),
      (h c main_arg3).trans (arg_eq (launchContents m c) (by decide) (by decide) (by decide) (by decide) (by decide) (by decide) (by decide) (by decide)),
      (h c main_arg4).trans (arg_eq (launchContents m c) (by decide) (by decide) (by decide) (by decide) (by decide) (by decide) (by decide) (by decide)),
      (h c main_arg5).trans (arg_eq (launchContents m c) (by decide) (by decide) (by decide) (by decide) (by decide) (by decide) (by decide) (by decide)),
      (h c main_arg6).trans (arg_eq (launchContents m c) (by decide) (by decide) (by decide) (by decide) (by decide) (by decide) (by decide) (by decide)),
      (h c main_arg7).trans (arg_eq (launchContents m c) (by decide) (by decide) (by decide) (by decide) (by decide) (by decide) (by decide) (by decide)),
      (h c main_arg8).trans (arg_eq (launchContents m c) (by decide) (by decide) (by decide) (by decide) (by decide) (by decide) (by decide) (by decide)),
      (h c main_arg9).trans (arg_eq (launchContents m c) (by decide) (by decide) (by decide) (by decide) (by decide) (by decide) (by decide) (by decide)),
      (h c main_arg10).trans (arg_eq (launchContents m c) (by decide) (by decide) (by decide) (by decide) (by decide) (by decide) (by decide) (by decide)),
      (h c main_arg11).trans (arg_eq (launchContents m c) (by decide) (by decide) (by decide) (by decide) (by decide) (by decide) (by decide) (by decide))⟩)
    (run_seq scopedRefs_eq scopedSems_eq defs main (fun _ => ops) main_eq (fun _ => ops_sub) m ρ)

end Cert.ReferenceIdeal.RefRun

end
-- ==== Proof.KOut.lean ====
/-
  The kernel's result array at an entry.

  Unfolding the three launches' functions: entry (r, q) of the result is the head of the network on row r of the
  twice propagated normalised features, lane q — with γ, β, the biases and the slopes read from the arguments
  themselves, a one-row cast of a vector having at (0, j) the vector's entry j.
-/
import proofs.«109596_g1228360646957_cont_main3_661_2_alg».proof.Proof.KChain
import Idealize.ShloMosaic.Lib.ValueLayout

open scoped BigOperators

noncomputable section

namespace Cert.KernelIdeal.Chain

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The kernel's forward pass at row `r`, lane `q`, in coordinates of the argument arrays. -/
def kForward (c : Dev nD) (r : Fin 10000) (q : Fin 2) : EReal :=
  Spec.forward
    (Spec.bnMul (fun r k => ((m ((c : Thread nD τ).loc main_arg0)) (ix2 r k) : EReal)) (fun j => ((m ((c : Thread nD τ).loc main_arg2)) (ix1 j) : EReal)) (fun j => ((m ((c : Thread nD τ).loc main_arg3)) (ix1 j) : EReal)))
    (fun r k => ((m ((c : Thread nD τ).loc main_arg1)) (ix2 r k) : EReal))
    (fun i j => ((m ((c : Thread nD τ).loc main_arg4)) (ix2 i j) : EReal)) (fun j => ((m ((c : Thread nD τ).loc main_arg5)) (ix1 j) : EReal)) ((m ((c : Thread nD τ).loc main_arg6)) (ix1 (0 : Fin 1)) : EReal)
    (fun i j => ((m ((c : Thread nD τ).loc main_arg7)) (ix2 i j) : EReal)) (fun j => ((m ((c : Thread nD τ).loc main_arg8)) (ix1 j) : EReal)) ((m ((c : Thread nD τ).loc main_arg9)) (ix1 (0 : Fin 1)) : EReal)
    (fun i j => ((m ((c : Thread nD τ).loc main_arg10)) (ix2 i j) : EReal)) (fun j => ((m ((c : Thread nD τ).loc main_arg11)) (ix1 j) : EReal)) r q

/-- Entry (r, q) of the kernel's result. -/
theorem out_apply (c : Dev nD) (r : Fin 10000) (q : Fin 2) : (out m c (ix2 r q) : EReal) = kForward m c r q := by
  unfold out Val2.G2 x1 Val1.G1 xn Val0.G0 kForward Spec.forward
  simp only [shapeCast_a_1a_apply]

end Cert.KernelIdeal.Chain

end
-- ==== Proof.BnLaw.lean ====
/-
  The two spellings of batch normalisation agree on the extended reals.

  A square is nonnegative on the extended reals (⊥ · ⊥ = ⊤), so a column's sum of squared deviations is nonnegative,
  and so is its quotient by 10000; adding the positive ε gives a positive number, possibly ⊤. For a positive v —
  finite or ⊤ — a deviation times the reciprocal root of v is the deviation divided by the root of v: for finite v
  both are d · (√v)⁻¹, and for v = ⊤ both are d · 0.
-/
import proofs.«109596_g1228360646957_cont_main3_661_2_alg».proof.Proof.Spec

open scoped BigOperators

noncomputable section

namespace Cert.Spec

open Idealize.ShloMosaic

/-- The word 0x461C4000 denotes 10000. -/
theorem litN_val : litN = ((10000 : ℝ) : EReal) := by
  simp [litN, Ideal.ofBits, Ideal.ieee, -EReal.coe_mul]; norm_num

/-- The word 0x3727C5AC denotes a positive real. -/
theorem litEps_pos : 0 < litEps := by
  simp [litEps, Ideal.ofBits, Ideal.ieee, -EReal.coe_mul]

/-- A square is nonnegative on the extended reals. -/
theorem mul_self_nonneg_ereal (a : EReal) : 0 ≤ a * a := by
  induction a using EReal.rec with
  | bot => simp
  | coe r => rw [← EReal.coe_mul]; exact EReal.coe_nonneg.2 (mul_self_nonneg r)
  | top => simp

/-- A column's variance is nonnegative, whatever the data. -/
theorem colVar_nonneg (x : Fin 10000 → Fin 128 → EReal) (c : Fin 128) : 0 ≤ colVar x c := by
  unfold colVar
  rw [litN_val, Ideal.div_coe (by norm_num)]
  exact mul_nonneg (Finset.sum_nonneg fun r _ => mul_self_nonneg_ereal _) (EReal.coe_nonneg.2 (by norm_num))

/-- For a positive `v`, times the reciprocal root is divided by the root. -/
theorem mul_rsqrt_eq_div_sqrt (d v : EReal) (hv : 0 < v) : d * Ideal.rsqrt v = Ideal.div d (Ideal.sqrt v) := by
  induction v using EReal.rec with
  | bot => exact absurd hv (by simp)
  | top => simp [Ideal.div]
  | coe r =>
    have hr : 0 < r := EReal.coe_pos.1 hv
    have hs : Real.sqrt r ≠ 0 := (Real.sqrt_pos.2 hr).ne'
    rw [Ideal.rsqrt_coe, Ideal.sqrt_coe, if_neg (not_lt.2 hr.le), if_neg hr.ne', if_neg (not_lt.2 hr.le)]
    unfold Ideal.div
    rw [if_neg (by exact_mod_cast hs), EReal.coe_inv]

/-- The two spellings of batch normalisation are one function. -/
theorem bnMul_eq_bnDiv (x : Fin 10000 → Fin 128 → EReal) (g b : Fin 128 → EReal) : bnMul x g b = bnDiv x g b := by
  funext r c
  unfold bnMul bnDiv
  rw [mul_rsqrt_eq_div_sqrt _ _ (lt_of_lt_of_le litEps_pos (le_add_of_nonneg_left (colVar_nonneg x c)))]

end Cert.Spec

end
-- ==== Proof.LibBiasRows.lean ====
/-
  A vector repeated down the rows, or across the columns, of a matrix, the way the host writes it.

  A vector b of length n is first made a 1 × n row (broadcast along a new leading axis) and the row is then repeated
  M times (broadcast along that axis). Entry (r, a) of the result is b(a), whatever the row r. Likewise a vector
  v of length E made an E × 1 column and repeated across C columns has v(e) at entry (e, l).
-/
import Idealize.ShloMosaic.Lib.Pipeline.Value
import Idealize.ShloMosaic.Lib.ValueIdx

namespace Idealize.ShloMosaic.ValueIdx

open Idealize.ShloMosaic

variable {α : Type}

/-- A length-`n` vector broadcast to `[1, n]` and then to `[M, n]` reads, at `(r, a)`, the vector at `a`. -/
theorem bias_rows_apply {M n : ℕ} (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![M, n]⟩ (![0, 1] : Fin 2 → Fin 2))
    (r : Fin M) (a : Fin n) :
    broadcastInDim ⟨2, ![M, n]⟩ (![0, 1] : Fin 2 → Fin 2) h2 (broadcastInDim ⟨2, ![1, n]⟩ (![1] : Fin 1 → Fin 2) h1 b) (ix2 r a)
      = b (ix1 a) := by
  refine (broadcastInDim_apply _ h2 _ (ix2 r a) (ix2 (0 : Fin 1) a) (fun ax => ?_)).trans
    (broadcastInDim_apply _ h1 b (ix2 (0 : Fin 1) a) (ix1 a) (fun ax => ?_))
  · match ax with
    | ⟨0, _⟩ => show 0 = if (1 : ℕ) = 1 then 0 else r.val; rw [if_pos rfl]
    | ⟨1, _⟩ =>
      show a.val = if n = 1 then 0 else a.val
      split
      · have := a.isLt; omega
      · rfl
  · match ax with
    | ⟨0, _⟩ =>
      show a.val = if n = 1 then 0 else a.val
      split
      · have := a.isLt; omega
      · rfl

/-- A length-`E` vector broadcast to one column `[E, 1]` and then across `C` columns reads, at `(e, l)`, the vector
    at `e`: one factor per row, repeated along the row. -/
theorem row_factors_apply {E C : ℕ} (v : (⟨1, ![E]⟩ : Shape).Idx → α)
    (h1 : (⟨1, ![E]⟩ : Shape).BroadcastsInDim ⟨2, ![E, 1]⟩ (![0] : Fin 1 → Fin 2))
    (h2 : (⟨2, ![E, 1]⟩ : Shape).BroadcastsInDim ⟨2, ![E, C]⟩ (![0, 1] : Fin 2 → Fin 2))
    (e : Fin E) (l : Fin C) :
    broadcastInDim ⟨2, ![E, C]⟩ (![0, 1] : Fin 2 → Fin 2) h2 (broadcastInDim ⟨2, ![E, 1]⟩ (![0] : Fin 1 → Fin 2) h1 v) (ix2 e l)
      = v (ix1 e) := by
  refine (broadcastInDim_apply _ h2 _ (ix2 e l) (ix2 e (0 : Fin 1)) (fun ax => ?_)).trans
    (broadcastInDim_apply _ h1 v (ix2 e (0 : Fin 1)) (ix1 e) (fun ax => ?_))
  · match ax with
    | ⟨0, _⟩ =>
      show e.val = if E = 1 then 0 else e.val
      split
      · have := e.isLt; omega
      · rfl
    | ⟨1, _⟩ => show 0 = if (1 : ℕ) = 1 then 0 else l.val; rw [if_pos rfl]
  · match ax with
    | ⟨0, _⟩ =>
      show e.val = if E = 1 then 0 else e.val
      split
      · have := e.isLt; omega
      · rfl

end Idealize.ShloMosaic.ValueIdx
-- ==== Proof.RefReadBn.lean ====
/-
  The reference's batch normalisation read at an entry: centre by the column mean, divide by the root of the column's
  biased variance plus ε, times the γ vector, plus the β vector.

  The host's column sum is the initial value 0 plus the sum down the column; its scalars are broadcast from a
  rank-zero array, so each reads that array's one entry; the variance's divisor is 10000 minus the integer 0, which
  is 10000, and since 10000 is positive the guarded selection takes the quotient, not the not-a-number filler. The
  variance's own mean is computed as (sums broadcast to a row) over (10000 broadcast to a row) where the mean proper
  is (sums) over (10000 broadcast to a vector): at every entry both are the column's sum over 10000.
-/
import proofs.«109596_g1228360646957_cont_main3_661_2_alg».proof.Proof.RefDefs
import proofs.«109596_g1228360646957_cont_main3_661_2_alg».proof.Proof.Spec
import proofs.«109596_g1228360646957_cont_main3_661_2_alg».proof.Proof.BnLaw
import proofs.«109596_g1228360646957_cont_main3_661_2_alg».proof.Proof.LibBiasRows
import proofs.«109596_g1228360646957_cont_main3_661_2_alg».proof.Proof.LibColumnSum
import Idealize.ShloMosaic.PureOps.Ideal.Laws
import Idealize.ShloMosaic.Lib.ValueIdx
import Idealize.ShloMosaic.Lib.Pipeline.Value

open scoped BigOperators

noncomputable section

namespace Cert.ReferenceIdeal.RefRead

open Idealize.ShloMosaic Idealize.ShloMosaic.ValueIdx
open Cert.ReferenceIdeal Cert.ReferenceIdeal.Gen

/-- An array broadcast from a rank-zero one reads, everywhere, that one's single entry. -/
theorem scalar_bcast_apply {α : Type} {t : Shape} (dims : Fin 0 → Fin t.rank)
    (h : (⟨0, ![]⟩ : Shape).BroadcastsInDim t dims) (z : (⟨0, ![]⟩ : Shape).Idx → α) (j : t.Idx) :
    broadcastInDim t dims h z j = z ix0 :=
  broadcastInDim_apply dims h z j ix0 (fun a => a.elim0)

/-- A one-row matrix repeated down `M` rows reads, at `(r, a)`, its row at `a`. -/
theorem rows_apply {α : Type} {M n : ℕ} (v : (⟨2, ![1, n]⟩ : Shape).Idx → α)
    (h2 : (⟨2, ![1, n]⟩ : Shape).BroadcastsInDim ⟨2, ![M, n]⟩ (![0, 1] : Fin 2 → Fin 2)) (r : Fin M) (a : Fin n) :
    broadcastInDim ⟨2, ![M, n]⟩ (![0, 1] : Fin 2 → Fin 2) h2 v (ix2 r a) = v (ix2 (0 : Fin 1) a) := by
  refine broadcastInDim_apply _ h2 v (ix2 r a) (ix2 (0 : Fin 1) a) (fun ax => ?_)
  match ax with
  | ⟨0, _⟩ => show 0 = if (1 : ℕ) = 1 then 0 else r.val; rw [if_pos rfl]
  | ⟨1, _⟩ =>
    show a.val = if n = 1 then 0 else a.val
    split
    · have := a.isLt; omega
    · rfl

/-- A vector made a one-row matrix reads, at `(u, a)`, the vector at `a`. -/
theorem row_apply {α : Type} {n : ℕ} (b : (⟨1, ![n]⟩ : Shape).Idx → α)
    (h1 : (⟨1, ![n]⟩ : Shape).BroadcastsInDim ⟨2, ![1, n]⟩ (![1] : Fin 1 → Fin 2)) (u : Fin 1) (a : Fin n) :
    broadcastInDim ⟨2, ![1, n]⟩ (![1] : Fin 1 → Fin 2) h1 b (ix2 u a) = b (ix1 a) := by
  refine broadcastInDim_apply _ h1 b (ix2 u a) (ix1 a) (fun ax => ?_)
  match ax with
  | ⟨0, _⟩ =>
    show a.val = if n = 1 then 0 else a.val
    split
    · have := a.isLt; omega
    · rfl

/-- The host's sum down the columns from the initial value zero, read at column `c`: the sum of that column. -/
theorem hostColSum_apply (hRT : (⟨2, ![10000, 128]⟩ : Shape).ReducesTo [0] ⟨1, ![128]⟩)
    (hS : 0 < (⟨0, ![]⟩ : Shape).numel) (v : FVec Ideal ⟨2, ![10000, 128]⟩ .f32) (c : Fin 128) :
    (Host.reduceAdd v (constant (F := Ideal) ⟨0, ![]⟩ .f32 0x00000000#32) hRT hS (ix1 c) : EReal)
      = ∑ k : Fin 10000, (v (ix2 k c) : EReal) := by
  have hR : (⟨2, ![10000, 128]⟩ : Shape).Reduces [0] ⟨1, ![128]⟩ := by decide
  refine (Ideal.hostReduceAdd_single hRT hR v _ (ix1 c)).trans ?_
  show Ideal.ofBits .f32 0x00000000#32 + _ = _
  rw [Ideal.ofBits_zero_f32, zero_add]
  exact Finset.sum_congr rfl fun k _ => congrArg v (reduces_cols_lift hR c k)

/-- The host's quotient of two arrays, read at an index, is the quotient of the entries. -/
theorem hostDivf_apply {s : Shape} {φ : FTy} (a b : FVec Ideal s φ) (i : s.Idx) :
    Host.divf a b i = Ideal.div (a i) (b i) := rfl

/-- The host's square root of an array, read at an index, is the root of the entry. -/
theorem hostSqrt_apply {s : Shape} {φ : FTy} (a : FVec Ideal s φ) (i : s.Idx) :
    Host.sqrt a i = Ideal.sqrt (a i) := rfl

/-- The reference's column mean at column `c`. -/
theorem refMean_apply (x : FVec Ideal S10000x128 .f32) (c : Fin 128) :
    (RefRun.refMean x (ix1 c) : EReal) = Spec.colMean (fun r c => (x (ix2 r c) : EReal)) c := by
  unfold RefRun.refMean
  refine (hostDivf_apply _ _ _).trans ?_
  rw [hostColSum_apply, scalar_bcast_apply]
  rfl

/-- The deviation the variance squares, at `(r, c)`: the entry minus its column's mean. -/
theorem refVarDev_apply (x : FVec Ideal S10000x128 .f32) (r : Fin 10000) (c : Fin 128) :
    (RefRun.refVarDev x (ix2 r c) : EReal)
      = (x (ix2 r c) : EReal) - Spec.colMean (fun r c => (x (ix2 r c) : EReal)) c := by
  unfold RefRun.refVarDev
  refine (subf_apply _ _ _).trans ?_
  rw [rows_apply]
  refine congrArg (fun t : EReal => (x (ix2 r c) : EReal) - t) ?_
  refine (hostDivf_apply _ _ _).trans ?_
  rw [row_apply, hostColSum_apply, scalar_bcast_apply]
  rfl

/-- The variance's divisor: 10000 minus the integer 0, which is 10000. -/
theorem refVarN_apply : (RefRun.refVarN ix0 : EReal) = Spec.litN := by
  unfold RefRun.refVarN
  show Ideal.ofBits .f32 0x461C4000#32 - (((0#32 : BitVec 32).toInt : ℝ) : EReal) = _
  rw [BitVec.toInt_zero, Int.cast_zero, EReal.coe_zero, sub_zero]

/-- The divisor is positive, so the guard's bit is set. -/
theorem refVarN_pos_bit :
    Ideal.cmp .ogt (RefRun.refVarN ix0 : EReal) (Ideal.ofBits .f32 0x00000000#32) = 1#1 := by
  rw [refVarN_apply, Ideal.ofBits_zero_f32, Spec.litN_val]
  show BitVec.ofBool (decide ((0 : EReal) < ((10000 : ℝ) : EReal))) = 1#1
  rw [decide_eq_true (EReal.coe_pos.2 (by norm_num))]
  rfl

/-- The reference's column variance at column `c`. -/
theorem refVar_apply (x : FVec Ideal S10000x128 .f32) (c : Fin 128) :
    (RefRun.refVar x (ix1 c) : EReal) = Spec.colVar (fun r c => (x (ix2 r c) : EReal)) c := by
  unfold RefRun.refVar
  refine (select_apply _ _ _ _).trans ?_
  rw [scalar_bcast_apply]
  refine (congrArg (fun t => Scalar.select t _ _) refVarN_pos_bit).trans ?_
  rw [select_one]
  refine (hostDivf_apply _ _ _).trans ?_
  rw [hostColSum_apply, scalar_bcast_apply, refVarN_apply]
  unfold Spec.colVar
  refine congrArg (fun t : EReal => Ideal.div t Spec.litN) (Finset.sum_congr rfl fun k _ => ?_)
  refine (mulf_apply _ _ _).trans ?_
  rw [refVarDev_apply]

/-- The reference's normalised feature at row `r`, column `c`. -/
theorem refBn_apply (x : FVec Ideal S10000x128 .f32) (g b : FVec Ideal S128 .f32) (r : Fin 10000) (c : Fin 128) :
    (RefRun.refBn x g b (ix2 r c) : EReal) = Spec.bnDiv (fun r c => (x (ix2 r c) : EReal)) (fun c => (g (ix1 c) : EReal)) (fun c => (b (ix1 c) : EReal)) r c := by
  unfold RefRun.refBn
  refine (addf_apply _ _ _).trans ?_
  unfold Spec.bnDiv
  refine congrArg₂ (fun s t : EReal => s + t) ?_ (bias_rows_apply b _ _ r c)
  refine (mulf_apply _ _ _).trans ?_
  refine congrArg₂ (fun s t : EReal => s * t) ?_ (bias_rows_apply g _ _ r c)
  refine (hostDivf_apply _ _ _).trans ?_
  refine congrArg₂ Ideal.div ?_ ?_
  · refine (subf_apply _ _ _).trans ?_
    rw [bias_rows_apply, refMean_apply]
  · rw [bias_rows_apply]
    refine (hostSqrt_apply _ _).trans ?_
    refine congrArg Ideal.sqrt ?_
    refine (addf_apply _ _ _).trans ?_
    rw [refVar_apply, scalar_bcast_apply]
    rfl

end Cert.ReferenceIdeal.RefRead

end
-- ==== Proof.LibPlainDotGeneral.lean ====
/-
  The host's product of an m × k matrix by a k × n matrix, read at an entry.

  A `dot_general` with the left operand contracted on its second axis and the right on its first has, at the exact
  extended reals, at entry (a, b) the sum over the k contracted coordinates c of A(a, c) · B(c, b). The general
  statement sums over the indices of a one-axis "contraction shape"; that index set is carried onto the k coordinates,
  and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- The host's `A · B`, at the exact extended reals, read at `(a, b)`: `∑ c, A (a, c) * B (c, b)`. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.RefReadProp.lean ====
/-
  The reference's propagation step at an entry: 1 · (matrix · features) + 0 · (the unpropagated features) is
  the matrix's row against the features' column — one times a number is the number, and zero times ANY extended
  real, the infinities included, is zero.
-/
import proofs.«109596_g1228360646957_cont_main3_661_2_alg».proof.Proof.RefDefs
import proofs.«109596_g1228360646957_cont_main3_661_2_alg».proof.Proof.Spec
import proofs.«109596_g1228360646957_cont_main3_661_2_alg».proof.Proof.LibPlainDotGeneral
import Idealize.ShloMosaic.PureOps.Ideal.Laws
import Idealize.ShloMosaic.Lib.ValueIdx
import Idealize.ShloMosaic.Lib.ValueLayout
import Idealize.ShloMosaic.Lib.Pipeline.Value

open scoped BigOperators

noncomputable section

namespace Cert.ReferenceIdeal.RefRead

open Idealize.ShloMosaic Idealize.ShloMosaic.ValueIdx
open Cert.ReferenceIdeal Cert.ReferenceIdeal.Gen Cert.ReferenceIdeal.RefRun

/-- A scalar broadcast to every entry of a [10000, 128] array reads the scalar. -/
theorem bcast_scalar_apply (w : BitVec 32) (i : S10000x128.Idx) :
    (broadcastInDim S10000x128 ![] bcast_S_S10000x128 (constant (F := Ideal) S_ .f32 w) i : EReal) = Ideal.ofBits .f32 w :=
  broadcastInDim_apply _ bcast_S_S10000x128 _ i ix0 (fun a => a.elim0)

/-- The word 0x3F800000 denotes 1. -/
theorem lit1_val : Ideal.ofBits .f32 0x3F800000#32 = 1 := by
  simp [Ideal.ofBits, Ideal.ieee, -EReal.coe_mul]; norm_num

/-- One propagation step at row `r`, column `c`. -/
theorem refProp_apply (adj : FVec Ideal S10000x10000 .f32) (x f0 : FVec Ideal S10000x128 .f32) (r : Fin 10000) (c : Fin 128) :
    (refProp adj x f0 (ix2 r c) : EReal)
      = Spec.prop (fun r k => (adj (ix2 r k) : EReal)) (fun k c => (x (ix2 k c) : EReal)) r c := by
  unfold refProp Spec.prop
  rw [addf_apply, mulf_apply, mulf_apply, bcast_scalar_apply, bcast_scalar_apply, lit1_val, Ideal.ofBits_zero_f32,
    one_mul, zero_mul, add_zero]
  exact dotGeneral_plain_apply _ none adj x r c

end Cert.ReferenceIdeal.RefRead

end
-- ==== Proof.RefReadHead.lean ====
/-
  The reference's head at an entry: three dense layers (the host's product plus the bias repeated down the rows), the
  leaky activation after the first two (the slope, one number, repeated everywhere), and the row-wise log-softmax —
  the row maximum (a further maximum with -∞ changes nothing: -∞ is the bottom element), the shifted row, the
  logarithm of the sum of its exponentials (the sum's initial value is zero).
-/
import proofs.«109596_g1228360646957_cont_main3_661_2_alg».proof.Proof.RefDefs
import proofs.«109596_g1228360646957_cont_main3_661_2_alg».proof.Proof.Spec
import proofs.«109596_g1228360646957_cont_main3_661_2_alg».proof.Proof.RefReadProp
import proofs.«109596_g1228360646957_cont_main3_661_2_alg».proof.Proof.LibPlainDotGeneral
import proofs.«109596_g1228360646957_cont_main3_661_2_alg».proof.Proof.LibBiasRows
import proofs.«109596_g1228360646957_cont_main3_661_2_alg».proof.Proof.LibLaneSum
import Idealize.ShloMosaic.PureOps.Ideal.Laws
import Idealize.ShloMosaic.Lib.ValueIdx
import Idealize.ShloMosaic.Lib.ValueLayout
import Idealize.ShloMosaic.Lib.Pipeline.Value

open scoped BigOperators

noncomputable section

namespace Cert.ReferenceIdeal.RefRead

open Idealize.ShloMosaic Idealize.ShloMosaic.ValueIdx
open Cert.ReferenceIdeal Cert.ReferenceIdeal.Gen Cert.ReferenceIdeal.RefRun

/-- A host dense layer at `(r, j)`: row `r` against column `j` of the weights, plus the bias at `j`. -/
theorem hostDense_apply {M K N : ℕ}
    (w : DotDims.WF ⟨2, ![M, K]⟩ ⟨2, ![K, N]⟩ ⟨2, ![M, N]⟩ [1] [0] [0] [1] [] [])
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (x : FVec Ideal ⟨2, ![M, K]⟩ .f32) (W : FVec Ideal ⟨2, ![K, N]⟩ .f32) (b : FVec Ideal ⟨1, ![N]⟩ .f32) (r : Fin M) (j : Fin N) :
    addf (Host.dotGeneral (⟨[1], [0], [0], [1], [], [], w⟩ : DotDims ⟨2, ![M, K]⟩ ⟨2, ![K, N]⟩ ⟨2, ![M, N]⟩) none x W)
        (broadcastInDim ⟨2, ![M, N]⟩ (![0, 1] : Fin 2 → Fin 2) h2 (broadcastInDim ⟨2, ![1, N]⟩ (![1] : Fin 1 → Fin 2) h1 b)) (ix2 r j)
      = Spec.dense (fun i => (x (ix2 r i) : EReal)) (fun i j => (W (ix2 i j) : EReal)) (fun j => (b (ix1 j) : EReal)) j := by
  refine (addf_apply _ _ _).trans ?_
  rw [dotGeneral_plain_apply, bias_rows_apply]
  rfl

theorem refPre_apply (x : FVec Ideal S10000x128 .f32) (W : FVec Ideal S128x128 .f32) (b : FVec Ideal S128 .f32) (r : Fin 10000) (j : Fin 128) :
    (refPre x W b (ix2 r j) : EReal)
      = Spec.dense (fun i => (x (ix2 r i) : EReal)) (fun i j => (W (ix2 i j) : EReal)) (fun j => (b (ix1 j) : EReal)) j := by
  unfold refPre
  exact hostDense_apply _ _ _ x W b r j

theorem refLogits_apply (x : FVec Ideal S10000x128 .f32) (W : FVec Ideal S128x2 .f32) (b : FVec Ideal S2 .f32) (r : Fin 10000) (c : Fin 2) :
    (refLogits x W b (ix2 r c) : EReal)
      = Spec.dense (fun i => (x (ix2 r i) : EReal)) (fun i j => (W (ix2 i j) : EReal)) (fun j => (b (ix1 j) : EReal)) c := by
  unfold refLogits
  exact hostDense_apply _ _ _ x W b r c

/-- The slope, a one-entry vector made [1, 1] and repeated over the array, reads its one entry. -/
theorem slope_apply (a : FVec Ideal S1 .f32) (r : Fin 10000) (j : Fin 128) :
    broadcastInDim S10000x128 ![0, 1] bcast_S1x1_S10000x128_0_1 (broadcastInDim S1x1 ![1] bcast_S1_S1x1_1 a) (ix2 r j)
      = a (ix1 (0 : Fin 1)) :=
  (broadcastInDim_apply _ bcast_S1x1_S10000x128_0_1 _ (ix2 r j) (ix2 (0 : Fin 1) (0 : Fin 1))
      (fun ax => by match ax with | ⟨0, _⟩ => rfl | ⟨1, _⟩ => rfl)).trans
    (broadcastInDim_apply _ bcast_S1_S1x1_1 a (ix2 (0 : Fin 1) (0 : Fin 1)) (ix1 (0 : Fin 1))
      (fun ax => by match ax with | ⟨0, _⟩ => rfl))

theorem refAct_apply (z : FVec Ideal S10000x128 .f32) (a : FVec Ideal S1 .f32) (r : Fin 10000) (j : Fin 128) :
    (refAct z a (ix2 r j) : EReal) = Spec.prelu (a (ix1 (0 : Fin 1))) (z (ix2 r j)) := by
  unfold refAct
  refine (select_apply _ _ _ _).trans ?_
  rw [mulf_apply, cmpf_apply, bcast_scalar_apply, slope_apply]
  rfl

/-- The word 0xFF800000 denotes the bottom element. -/
theorem litBot_val : Ideal.ofBits .f32 0xFF800000#32 = ⊥ := by
  simp [Ideal.ofBits, Ideal.ieee]

/-- The host's row maximum at row `r`: the fold of max from the -∞ word over the row. -/
theorem hostRowMax_apply (z : FVec Ideal S10000x2 .f32) (r : Fin 10000) :
    Host.reduce (FloatOps.maximumf (F := Ideal) (φ := .f32)) z (constant (F := Ideal) S_ .f32 0xFF800000#32) reducesTo_S10000x2_S10000_d1 h_S_ (ix1 r)
      = Spec.rowMax (fun c' => (z (ix2 r c') : EReal)) := by
  have h : S10000x2.Reduces [1] S10000 := by decide
  rw [Host.reduce_eq_fold_single (FloatOps.maximumf (F := Ideal) (φ := .f32)) z _ reducesTo_S10000x2_S10000_d1 h h_S_]
  have hf : (z ∘ h.lift (ix1 r)) = fun k : Fin 2 => z (ix2 r k) := funext fun k => congrArg z (reduces_rows_lift h r k)
  rw [hf]
  rfl

theorem refLsmShift_apply (z : FVec Ideal S10000x2 .f32) (r : Fin 10000) (c : Fin 2) :
    (refLsmShift z (ix2 r c) : EReal) = (z (ix2 r c) : EReal) - Spec.rowMax (fun c' => (z (ix2 r c') : EReal)) := by
  unfold refLsmShift
  refine (subf_apply _ _ _).trans ?_
  rw [row_factors_apply, maximumf_apply, hostRowMax_apply]
  have hb : (broadcastInDim S10000 ![] bcast_S_S10000 (constant (F := Ideal) S_ .f32 0xFF800000#32) (ix1 r) : EReal) = ⊥ :=
    (broadcastInDim_apply _ bcast_S_S10000 _ (ix1 r) ix0 (fun a => a.elim0)).trans litBot_val
  rw [hb, max_eq_right bot_le]

theorem refLogSoftmax_apply (z : FVec Ideal S10000x2 .f32) (r : Fin 10000) (c : Fin 2) :
    (refLogSoftmax z (ix2 r c) : EReal) = Spec.logSoftmax (fun c' => (z (ix2 r c') : EReal)) c := by
  unfold refLogSoftmax
  refine (subf_apply _ _ _).trans ?_
  rw [refLsmShift_apply]
  unfold Spec.logSoftmax
  refine congrArg (fun t : EReal => ((z (ix2 r c) : EReal) - Spec.rowMax (fun c' => (z (ix2 r c') : EReal))) - t) ?_
  refine (broadcastInDim_apply _ bcast_S10000x1_S10000x2_0_1 _ (ix2 r c) (ix2 r (0 : Fin 1)) (fun ax => ?_)).trans ?_
  · match ax with
    | ⟨0, _⟩ => show r.val = if (10000 : ℕ) = 1 then 0 else r.val; rw [if_neg (by decide)]
    | ⟨1, _⟩ => rfl
  show Ideal.log (broadcastInDim S10000x1 ![0] bcast_S10000_S10000x1_0
    (Host.reduceAdd (Host.exp (refLsmShift z)) (constant (F := Ideal) S_ .f32 0x00000000#32) reducesTo_S10000x2_S10000_d1 h_S_) (ix2 r (0 : Fin 1))) = _
  refine congrArg Ideal.log ?_
  refine (broadcastInDim_apply _ bcast_S10000_S10000x1_0 _ (ix2 r (0 : Fin 1)) (ix1 r) (fun ax => ?_)).trans ?_
  · match ax with
    | ⟨0, _⟩ => show r.val = if (10000 : ℕ) = 1 then 0 else r.val; rw [if_neg (by decide)]
  have h : S10000x2.Reduces [1] S10000 := by decide
  show Ideal.hostReduceAdd reducesTo_S10000x2_S10000_d1 (Host.exp (refLsmShift z)) (Ideal.ofBits .f32 0x00000000#32) (ix1 r) = _
  rw [Ideal.hostReduceAdd_single _ h, Ideal.ofBits_zero_f32, zero_add]
  show (∑ k : Fin 2, (Host.exp (refLsmShift z) (h.lift (ix1 r) k) : EReal)) = ∑ c' : Fin 2, Ideal.exp ((z (ix2 r c') : EReal) - Spec.rowMax (fun c' => (z (ix2 r c') : EReal)))
  refine Finset.sum_congr rfl fun c' _ => ?_
  rw [reduces_rows_lift h r c']
  show Ideal.exp (refLsmShift z (ix2 r c')) = _
  rw [refLsmShift_apply]

/-- The reference's head at row `r`, lane `c`. -/
theorem refHead_apply (x : FVec Ideal S10000x128 .f32) (W1 : FVec Ideal S128x128 .f32) (b1 : FVec Ideal S128 .f32) (a1 : FVec Ideal S1 .f32)
    (W2 : FVec Ideal S128x128 .f32) (b2 : FVec Ideal S128 .f32) (a2 : FVec Ideal S1 .f32)
    (W3 : FVec Ideal S128x2 .f32) (b3 : FVec Ideal S2 .f32) (r : Fin 10000) (c : Fin 2) :
    (refHead x W1 b1 a1 W2 b2 a2 W3 b3 (ix2 r c) : EReal)
      = Spec.head (fun k => (x (ix2 r k) : EReal)) (fun i j => (W1 (ix2 i j) : EReal)) (fun j => (b1 (ix1 j) : EReal)) (a1 (ix1 (0 : Fin 1)))
          (fun i j => (W2 (ix2 i j) : EReal)) (fun j => (b2 (ix1 j) : EReal)) (a2 (ix1 (0 : Fin 1)))
          (fun i j => (W3 (ix2 i j) : EReal)) (fun j => (b3 (ix1 j) : EReal)) c := by
  unfold refHead
  rw [refLogSoftmax_apply]
  unfold Spec.head
  refine congrArg (fun f => Spec.logSoftmax f c) (funext fun c' => ?_)
  rw [refLogits_apply]
  refine congrArg (fun f => Spec.dense f _ _ c') (funext fun j => ?_)
  unfold refDense
  rw [refAct_apply, refPre_apply]
  refine congrArg (fun f => Spec.prelu _ (Spec.dense f _ _ j)) (funext fun i => ?_)
  rw [refAct_apply, refPre_apply]

end Cert.ReferenceIdeal.RefRead

end
-- ==== Proof.Bridge.lean ====
/-
  The reference's result and the kernel's result are one array.

  Entry by entry both are the head of the network on a row of the twice propagated normalised features: the
  reference's reading has the normalisation divided by the root, the kernel's has it times the reciprocal root, and
  the two agree because variance + ε is positive on the extended reals whatever the data.
-/
import proofs.«109596_g1228360646957_cont_main3_661_2_alg».proof.Proof.KOut
import proofs.«109596_g1228360646957_cont_main3_661_2_alg».proof.Proof.RefDefs
import proofs.«109596_g1228360646957_cont_main3_661_2_alg».proof.Proof.RefReadBn
import proofs.«109596_g1228360646957_cont_main3_661_2_alg».proof.Proof.RefReadProp
import proofs.«109596_g1228360646957_cont_main3_661_2_alg».proof.Proof.RefReadHead
import proofs.«109596_g1228360646957_cont_main3_661_2_alg».proof.Proof.BnLaw

open scoped BigOperators

noncomputable section

namespace Cert.Bridge

open Idealize.ShloMosaic Idealize.ShloMosaic.TcCoe Idealize.SL.Sem Idealize.ShloMosaic.ValueIdx

/-- The reference's function of the kernel's argument arrays is the kernel's result array. -/
theorem out_eq (m : (ℓ : Loc Cert.KernelIdeal.nD Cert.KernelIdeal.τ Cert.KernelIdeal.sig) → Buf (Elt Ideal) ℓ) (c : Dev Cert.KernelIdeal.nD) :
    Cert.ReferenceIdeal.RefRun.refOut (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11))
      = Cert.KernelIdeal.Chain.out m c := by
  funext i
  obtain ⟨r, q, rfl⟩ : ∃ (r : Fin 10000) (q : Fin 2), i = ix2 r q := ⟨i 0, i 1, eq_ix2 i⟩
  refine Eq.trans ?_ (Cert.KernelIdeal.Chain.out_apply m c r q).symm
  unfold Cert.ReferenceIdeal.RefRun.refOut
  simp only [Cert.ReferenceIdeal.RefRead.refHead_apply, Cert.ReferenceIdeal.RefRead.refProp_apply,
    Cert.ReferenceIdeal.RefRead.refBn_apply]
  unfold Cert.KernelIdeal.Chain.kForward Cert.Spec.forward
  rw [Cert.Spec.bnMul_eq_bnDiv]

end Cert.Bridge

end
-- ==== Proof.lean ====
/-
  The certificate of the graph network's forward pass: a three-launch kernel (batch normalisation; one propagation by
  the dense adjacency matrix over 25 row blocks; a second propagation fused with a three-layer perceptron and a
  log-softmax over the same row blocks) against its array-level reference.

  The three programs run, fault-free, and keep their arguments: the two kernel programs by the launch-by-launch frame,
  the reference by its operation-by-operation run. The idealization rewrote nothing. At the exact extended reals the
  kernel's result buffer ends at one function of the twelve arguments, read entry by entry as the head of the network
  on a row of the twice propagated, normalised features; the reference's result is the same function, its
  normalisation dividing by the root where the kernel multiplies by the reciprocal root — equal because a variance
  plus a positive ε is positive on the extended reals, whatever the data. The precondition is never opened.
-/
import proofs.«109596_g1228360646957_cont_main3_661_2_alg».proof.Defs
import proofs.«109596_g1228360646957_cont_main3_661_2_alg».proof.Proof.Gen.Kernel
import proofs.«109596_g1228360646957_cont_main3_661_2_alg».proof.Proof.Gen.Kernel.Frame
import proofs.«109596_g1228360646957_cont_main3_661_2_alg».proof.Proof.Gen.KernelIdeal
import proofs.«109596_g1228360646957_cont_main3_661_2_alg».proof.Proof.Gen.KernelIdeal.Frame
import proofs.«109596_g1228360646957_cont_main3_661_2_alg».proof.Proof.Gen.ReferenceIdeal
import proofs.«109596_g1228360646957_cont_main3_661_2_alg».proof.Proof.Gen.Pre_finite_inputs
import proofs.«109596_g1228360646957_cont_main3_661_2_alg».proof.Proof.KChain
import proofs.«109596_g1228360646957_cont_main3_661_2_alg».proof.Proof.RefRun
import proofs.«109596_g1228360646957_cont_main3_661_2_alg».proof.Proof.Bridge
import Idealize.ShloMosaic.Adequacy
import Idealize.ShloMosaic.Init

noncomputable section

namespace Cert.Proof

open Idealize.ShloMosaic Idealize.SL.Sem

/-- The word-level kernel runs and keeps its arguments: the launch-by-launch frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its arguments: its run, the result forgotten. -/
theorem frame_ri : Cert.frame_ReferenceIdeal := fun m ρ _ =>
  (θ_run Cert.ReferenceIdeal.defs _ _).mono (fun _ h c => (h c).2) (Cert.ReferenceIdeal.RefRun.run m ρ)

/-- The idealization rewrote nothing. -/
theorem preserves : Cert.preserves_Kernel_KernelIdeal := trivial

/-- From memories agreeing on the arguments both idealized programs end with one result array. -/
theorem algebraic : Cert.algebraic_KernelIdeal_ReferenceIdeal := by
  intro m ρ m' ρ' _ hagree
  refine ⟨fun c => Cert.KernelIdeal.Chain.out m c, Cert.KernelIdeal.Chain.run m ρ, ?_⟩
  refine (θ_run Cert.ReferenceIdeal.defs _ _).mono (fun _ h c => ⟨(h c).1.trans ?_, (h c).2⟩)
    (Cert.ReferenceIdeal.RefRun.run m' ρ')
  obtain ⟨h0, h1, h2, h3, h4, h5, h6, h7, h8, h9, h10, h11⟩ := hagree c
  rw [h0, h1, h2, h3, h4, h5, h6, h7, h8, h9, h10, h11]
  exact Cert.Bridge.out_eq m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
